-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.sign_bit.Statement Cert.KernelIdeal.S5000x128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S40x128 : Shape := ⟨2, ![40, 128]⟩
abbrev S40 : Shape := ⟨1, ![40]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn {F : FTy → Type} [FloatOps F] (main_arg0 : FVec F S100000x128 .f32) (main_arg1 : FVec F S40x128 .f32) (main_arg2 : FVec F S40 .f32) (main_arg3 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S40x128 .f32 := Host.absf main_arg1
  let main_cst_0 : FVec F S_ .f32 := constant S_ .f32 0x7F800000#32
  let main_v5 : FVec F S40x128 .f32 := broadcastInDim S40x128 ![] bcast_S_S40x128 main_cst_0
  let main_v6 : IVec S40x128 1 := cmpf .olt main_v4 main_v5
  let main_c_1 : IVec S_ 1 := constantI S_ 1 1#1
  let main_v7 : IVec S_ 1 := (fun x v => Host.reduce IntOp.andi x v reducesTo_S40x128_S_d0_1 h_S_) main_v6 main_c_1
  let main_v8 : IVec S_ 1 := andi main_v3 main_v7
  let main_v9 : FVec F S40 .f32 := Host.absf main_arg2
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  main_v13
-- ==== Kernel.lean ====
abbrev S100000x128 : Shape := ⟨2, ![100000, 128]⟩
abbrev S40x128 : Shape := ⟨2, ![40, 128]⟩
abbrev S40 : Shape := ⟨1, ![40]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1x128 : Shape := ⟨2, ![1, 128]⟩
abbrev S5000x128 : Shape := ⟨2, ![5000, 128]⟩
abbrev S128 : Shape := ⟨1, ![128]⟩
abbrev S1700000x128 : Shape := ⟨2, ![1700000, 128]⟩
abbrev S128x40 : Shape := ⟨2, ![128, 40]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 91
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S40x128, .f32⟩
  | .hbm, ⟨2, _⟩ => ⟨S40, .f32⟩
  | .hbm, ⟨3, _⟩ => ⟨S2x1600000, .i32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S1x128, .f32⟩
  | .hbm, ⟨20, _⟩ => ⟨S1x128, .f32⟩
  | .hbm, ⟨21, _⟩ => ⟨S_, .f32⟩
  | .hbm, ⟨22, _⟩ => ⟨S1x128, .f32⟩
  | .hbm, ⟨23, _⟩ => ⟨S1x128, .f32⟩
  | .hbm, ⟨24, _⟩ => ⟨S_, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S_, .f32⟩
  | .hbm, ⟨30, _⟩ => ⟨S1x128, .f32⟩
  | .hbm, ⟨31, _⟩ => ⟨S1x128, .f32⟩
  | .hbm, ⟨32, _⟩ => ⟨S_, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000x128, .f32⟩
  | .hbm, ⟨48, _⟩ => ⟨S_, .f32⟩
  | .hbm, ⟨49, _⟩ => ⟨S100000x128, .f32⟩
  | .hbm, ⟨50, _⟩ => ⟨S1700000x1, .i32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S128x40, .f32⟩
  | .hbm, ⟨89, _⟩ => ⟨S1x40, .f32⟩
  | .hbm, ⟨90, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x40, .f32⟩
  | .local _ .vmem, ⟨15, _⟩ => ⟨S1x40, .f32⟩
  | .local _ .vmem, ⟨16, _⟩ => ⟨S5000x40, .f32⟩
  | .local _ .vmem, ⟨17, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_7 : Ref sig .tc := ⟨.hbm, 56, rfl⟩
abbrev main_v42 : Ref sig .tc := ⟨.hbm, 57, rfl⟩
abbrev main_v43 : Ref sig .tc := ⟨.hbm, 58, rfl⟩
abbrev main_c_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_10 : Ref sig .tc := ⟨.hbm, 73, rfl⟩
abbrev main_v56 : Ref sig .tc := ⟨.hbm, 74, rfl⟩
abbrev main_v57 : Ref sig .tc := ⟨.hbm, 75, rfl⟩
abbrev main_c_11 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_12 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [BitOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v19 : BitVec 1 := Scalar.cmpi .eq arg0 c19_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  shapeCasts_S128_S1x128 : S128.ShapeCasts S1x128
  bcast_S_S1x128 : S_.BroadcastsInDim S1x128 (![] : Fin 0 → Fin S1x128.rank)
  broadcasts_S1x128_S5000x128 : S1x128.Broadcasts S5000x128
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  transposes_S40x128_S128x40_1_0 : S40x128.Transposes [1, 0] S128x40
  shapeCasts_S40_S1x40 : S40.ShapeCasts S1x40
  shapeCasts_S5000x128_S5000x128 : S5000x128.ShapeCasts S5000x128
  bitsLt_bf16_f32 : FTy.bits .bf16 < FTy.bits .f32
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S100000x40.size a
  hwx2_3 : ∀ i : grid2.Coords, EltTy.bits .f32 = 32 ∨ (Rect.block (s := S100000x40) S5000x40.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13_0) S1x128.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13_1) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v67) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S40x128 : Shape := ⟨2, ![40, 128]⟩
abbrev S40 : Shape := ⟨1, ![40]⟩
abbrev S2x1600000 : Shape := ⟨2, ![2, 1600000]⟩
abbrev S_ : Shape := ⟨0, ![]⟩
abbrev S128 : Shape := ⟨1, ![128]⟩
abbrev S1x128 : Shape := ⟨2, ![1, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x128 : Shape := ⟨2, ![1700000, 128]⟩
abbrev S128x40 : Shape := ⟨2, ![128, 40]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 128
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S40x128, .f32⟩
  | .hbm, ⟨2, _⟩ => ⟨S40, .f32⟩
  | .hbm, ⟨3, _⟩ => ⟨S2x1600000, .i32⟩
  | .hbm, ⟨4, _⟩ => ⟨S_, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S100000x128, .f32⟩
  | .hbm, ⟨13, _⟩ => ⟨S_, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S1x128, .f32⟩
  | .hbm, ⟨19, _⟩ => ⟨S100000x128, .f32⟩
  | .hbm, ⟨20, _⟩ => ⟨S100000x128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S100000, .i32⟩
  | .hbm, ⟨30, _⟩ => ⟨S1x1600000, .i32⟩
  | .hbm, ⟨31, _⟩ => ⟨S1600000, .i32⟩
  | .hbm, ⟨32, _⟩ => ⟨S1700000, .i32⟩
  | .hbm, ⟨33, _⟩ => ⟨S1x1600000, .i32⟩
  | .hbm, ⟨34, _⟩ => ⟨S1600000, .i32⟩
  | .hbm, ⟨35, _⟩ => ⟨S1700000, .i32⟩
  | .hbm, ⟨36, _⟩ => ⟨S_, .f32⟩
  | .hbm, ⟨37, _⟩ => ⟨S1700000, .f32⟩
  | .hbm, ⟨38, _⟩ => ⟨S_, .f32⟩
  | .hbm, ⟨39, _⟩ => ⟨S100000, .f32⟩
  | .hbm, ⟨40, _⟩ => ⟨S1700000x1, .i32⟩
  | .hbm, ⟨41, _⟩ => ⟨S100000, .f32⟩
  | .hbm, ⟨42, _⟩ => ⟨S100000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000, .f32⟩
  | .hbm, ⟨61, _⟩ => ⟨S1700000, .f32⟩
  | .hbm, ⟨62, _⟩ => ⟨S1700000x1, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x128, .f32⟩
  | .hbm, ⟨72, _⟩ => ⟨S1700000x128, .f32⟩
  | .hbm, ⟨73, _⟩ => ⟨S1700000x128, .f32⟩
  | .hbm, ⟨74, _⟩ => ⟨S_, .f32⟩
  | .hbm, ⟨75, _⟩ => ⟨S100000x128, .f32⟩
  | .hbm, ⟨76, _⟩ => ⟨S1700000x1, .i32⟩
  | .hbm, ⟨77, _⟩ => ⟨S100000x128, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000x128, .f32⟩
  | .hbm, ⟨87, _⟩ => ⟨S1700000x128, .f32⟩
  | .hbm, ⟨88, _⟩ => ⟨S1700000x128, .f32⟩
  | .hbm, ⟨89, _⟩ => ⟨S_, .f32⟩
  | .hbm, ⟨90, _⟩ => ⟨S100000x128, .f32⟩
  | .hbm, ⟨91, _⟩ => ⟨S1700000x1, .i32⟩
  | .hbm, ⟨92, _⟩ => ⟨S100000x128, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000x128, .f32⟩
  | .hbm, ⟨102, _⟩ => ⟨S1700000x128, .f32⟩
  | .hbm, ⟨103, _⟩ => ⟨S1700000x128, .f32⟩
  | .hbm, ⟨104, _⟩ => ⟨S_, .f32⟩
  | .hbm, ⟨105, _⟩ => ⟨S100000x128, .f32⟩
  | .hbm, ⟨106, _⟩ => ⟨S1700000x1, .i32⟩
  | .hbm, ⟨107, _⟩ => ⟨S100000x128, .f32⟩
  | .hbm, ⟨108, _⟩ => ⟨S128x40, .f32⟩
  | .hbm, ⟨109, _⟩ => ⟨S100000x40, .f32⟩
  | .hbm, ⟨110, _⟩ => ⟨S1x40, .f32⟩
  | .hbm, ⟨111, _⟩ => ⟨S100000x40, .f32⟩
  | .hbm, ⟨112, _⟩ => ⟨S100000x40, .f32⟩
  | .hbm, ⟨113, _⟩ => ⟨S_, .f32⟩
  | .hbm, ⟨114, _⟩ => ⟨S100000, .f32⟩
  | .hbm, ⟨115, _⟩ => ⟨S_, .f32⟩
  | .hbm, ⟨116, _⟩ => ⟨S100000, .f32⟩
  | .hbm, ⟨117, _⟩ => ⟨S100000, .f32⟩
  | .hbm, ⟨118, _⟩ => ⟨S100000x1, .f32⟩
  | .hbm, ⟨119, _⟩ => ⟨S100000x40, .f32⟩
  | .hbm, ⟨120, _⟩ => ⟨S100000x40, .f32⟩
  | .hbm, ⟨121, _⟩ => ⟨S100000x40, .f32⟩
  | .hbm, ⟨122, _⟩ => ⟨S_, .f32⟩
  | .hbm, ⟨123, _⟩ => ⟨S100000, .f32⟩
  | .hbm, ⟨124, _⟩ => ⟨S100000x1, .f32⟩
  | .hbm, ⟨125, _⟩ => ⟨S100000x1, .f32⟩
  | .hbm, ⟨126, _⟩ => ⟨S100000x40, .f32⟩
  | .hbm, ⟨127, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_7 : Ref sig .tc := ⟨.hbm, 52, rfl⟩
abbrev main_v39 : Ref sig .tc := ⟨.hbm, 53, rfl⟩
abbrev main_v40 : Ref sig .tc := ⟨.hbm, 54, rfl⟩
abbrev main_c_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_9 : Ref sig .tc := ⟨.hbm, 63, rfl⟩
abbrev main_v48 : Ref sig .tc := ⟨.hbm, 64, rfl⟩
abbrev main_v49 : Ref sig .tc := ⟨.hbm, 65, rfl⟩
abbrev main_c_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_12 : Ref sig .tc := ⟨.hbm, 78, rfl⟩
abbrev main_v60 : Ref sig .tc := ⟨.hbm, 79, rfl⟩
abbrev main_v61 : Ref sig .tc := ⟨.hbm, 80, rfl⟩
abbrev main_c_13 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_14 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_15 : Ref sig .tc := ⟨.hbm, 93, rfl⟩
abbrev main_v72 : Ref sig .tc := ⟨.hbm, 94, rfl⟩
abbrev main_v73 : Ref sig .tc := ⟨.hbm, 95, rfl⟩
abbrev main_c_16 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_17 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_call0_cst : Ref sig .tc := ⟨.hbm, 113, rfl⟩
abbrev main_call0_v0 : Ref sig .tc := ⟨.hbm, 114, rfl⟩
abbrev main_call0_cst_0 : Ref sig .tc := ⟨.hbm, 115, rfl⟩
abbrev main_call0_v1 : Ref sig .tc := ⟨.hbm, 116, rfl⟩
abbrev main_call0_v2 : Ref sig .tc := ⟨.hbm, 117, rfl⟩
abbrev main_call0_v3 : Ref sig .tc := ⟨.hbm, 118, rfl⟩
abbrev main_call0_v4 : Ref sig .tc := ⟨.hbm, 119, rfl⟩
abbrev main_call0_v5 : Ref sig .tc := ⟨.hbm, 120, rfl⟩
abbrev main_call0_v6 : Ref sig .tc := ⟨.hbm, 121, rfl⟩
abbrev main_call0_cst_1 : Ref sig .tc := ⟨.hbm, 122, rfl⟩
abbrev main_call0_v7 : Ref sig .tc := ⟨.hbm, 123, rfl⟩
abbrev main_call0_v8 : Ref sig .tc := ⟨.hbm, 124, rfl⟩
abbrev main_call0_v9 : Ref sig .tc := ⟨.hbm, 125, rfl⟩
abbrev main_call0_v10 : Ref sig .tc := ⟨.hbm, 126, rfl⟩
abbrev main_v89 : Ref sig .tc := ⟨.hbm, 127, rfl⟩

abbrev nD : Nat := 1
abbrev τ : Topo := Topo.v7x

variable {F : FTy → Type} [FloatOps F]

class Facts₀ : Prop where
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.K.Stats.lean ====
import proofs.«151110_j89026082111679_2_alg».proof.Proof.Gen.Kernel.Launch
import proofs.«151110_j89026082111679_2_alg».proof.Proof.Gen.Kernel.Skeleton
import proofs.«151110_j89026082111679_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (V : (c : Dev nD) → (b : Ref sig .tc) → Buf (Elt F) ((c : Thread nD τ).loc b))

/-! # The batch-statistics call (pipeline 0) at the entry contents V

The body adds, at every grid point, the column sums of the current block of x and of its square into two rows of
scratch that live across the points: zeroed at the first point, copied to the two outputs at the last. -/

/-! ## Which branch a point takes -/

/-- The first conditional of the body, as printed: the grid coordinate compared with zero. -/
abbrev condFirst (i : grid0.Coords) : Prop :=
  (Scalar.cmpi .ne (Scalar.extui (Scalar.cmpi .eq (BitVec.ofNat 32 (i 0).val) 0#32)) 0#32) = 1#1
/-- The second conditional of the body: the grid coordinate compared with the last one. -/
abbrev condLast (i : grid0.Coords) : Prop := k0_cond2 i = 1#1

/-- The first conditional holds at point 0 only. -/
theorem hcondFirst : ∀ t : Fin cfg0.N, condFirst (grid0.coords t) ↔ t.val = 0 :=
  (by decide +kernel : ∀ t : Fin grid0.N, condFirst (grid0.coords t) ↔ t.val = 0)
/-- The second conditional holds at point 19 only. -/
theorem hcondLast : ∀ t : Fin cfg0.N, condLast (grid0.coords t) ↔ t.val = 19 :=
  (by decide +kernel : ∀ t : Fin grid0.N, condLast (grid0.coords t) ↔ t.val = 19)

/-- The input window is never idle. -/
theorem live_in : ∀ t : Fin cfg0.N, cfg0.idle 0 (grid0.coords t) = false := by decide +kernel
/-- Off the last point the two output windows are idle and not written back. -/
theorem idle_out1 : ∀ t : Fin cfg0.N, ¬ condLast (grid0.coords t) → cfg0.idle 1 (grid0.coords t) = true := by decide +kernel
theorem idle_out2 : ∀ t : Fin cfg0.N, ¬ condLast (grid0.coords t) → cfg0.idle 2 (grid0.coords t) = true := by decide +kernel
theorem noflush_out1 : ∀ t : Fin cfg0.N, ¬ condLast (grid0.coords t) → (cfg0.win 1).flush t = false := by decide +kernel
theorem noflush_out2 : ∀ t : Fin cfg0.N, ¬ condLast (grid0.coords t) → (cfg0.win 2).flush t = false := by decide +kernel
/-- At the last point they are live. -/
theorem live_out1 : ∀ t : Fin cfg0.N, condLast (grid0.coords t) → cfg0.idle 1 (grid0.coords t) = false := by decide +kernel
theorem live_out2 : ∀ t : Fin cfg0.N, condLast (grid0.coords t) → cfg0.idle 2 (grid0.coords t) = false := by decide +kernel

/-! ## The rectangles the body touches, and the rows it leaves -/

/-- The whole block of x. -/
abbrev rX : Rect S5000x128 := Rect.unit (s := S5000x128) ![0, 0] S5000x128.size inb_S5000x128_S5000x128_0_0
/-- The whole row of a scratch or output buffer. -/
abbrev rS : Rect S1x128 := Rect.unit (s := S1x128) ![0, 0] S1x128.size inb_S1x128_S1x128_0_0

/-- One piece over the whole row covers it. -/
theorem cover_row (p : Vec F S1x128 .f32) (y : S1x128.Idx) :
    ∃ pc ∈ ([⟨rS, p⟩] : List (View.Piece (Elt F) S1x128 .f32)), y ∈ pc.1.set :=
  View.cover_of_tiled [⟨rS, p⟩] S1x128.size (by rfl) y

/-- So do two. -/
theorem cover_row2 (p q : Vec F S1x128 .f32) (y : S1x128.Idx) :
    ∃ pc ∈ ([⟨rS, p⟩, ⟨rS, q⟩] : List (View.Piece (Elt F) S1x128 .f32)), y ∈ pc.1.set := by
  obtain ⟨pc, hm, hy⟩ := cover_row p y
  exact ⟨pc, List.mem_cons.mpr (Or.inl (List.mem_singleton.mp hm)), hy⟩

/-- A store of the whole row hides every earlier store. -/
theorem canon_row_cons (p : Vec F S1x128 .f32) (L : List (View.Piece (Elt F) S1x128 .f32)) :
    View.canon (⟨rS, p⟩ :: L) = View.canon [⟨rS, p⟩] := by
  funext y
  obtain ⟨pc, hm, hy⟩ := cover_row p y
  obtain rfl := List.mem_singleton.mp hm
  obtain ⟨x, rfl⟩ := rS.exists_idx_of_mem hy
  exact (View.canon_cons_emb rS p L x).trans (View.canon_cons_emb rS p [] x).symm

/-- A row read whole and stored whole is the row. -/
theorem canon_row_ld (v : Vec F S1x128 .f32) : View.canon [⟨rS, View.ld v rS⟩] = v := by
  funext y
  obtain ⟨pc, hm, hy⟩ := cover_row (View.ld v rS) y
  obtain rfl := List.mem_singleton.mp hm
  obtain ⟨x, rfl⟩ := rS.exists_idx_of_mem hy
  exact View.canon_cons_emb rS (View.ld v rS) [] x

/-- The row of zeros the first point stores into the sum scratch, -/
def zeroSum : Vec F S1x128 .f32 := View.canon [⟨rS, k0_pay1⟩]
/-- and into the sum-of-squares scratch. -/
def zeroSq : Vec F S1x128 .f32 := View.canon [⟨rS, k0_pay2⟩]
/-- The sum scratch after a point: what it held plus the column sums of the block x. -/
def addSum (x : Vec F S5000x128 .f32) (s : Vec F S1x128 .f32) : Vec F S1x128 .f32 :=
  View.canon [⟨rS, k0_pay3 (View.ld x rX) (View.ld s rS)⟩]
/-- The sum-of-squares scratch after a point: what it held plus the column sums of the squares of the block x. -/
def addSq (x : Vec F S5000x128 .f32) (s : Vec F S1x128 .f32) : Vec F S1x128 .f32 :=
  View.canon [⟨rS, k0_pay4 (View.ld x rX) (View.ld s rS)⟩]

/-! ## The body, run once per branch pattern -/

set_option maxHeartbeats 1000000 in
/-- The body at the first point: whatever the two scratch rows hold, they end at the block's column sums (of x and
    of its square) over zero; the output buffers are not touched. -/
theorem run_first (c : Dev nD) (E : Set ℕ) (i : grid0.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (h1 : condFirst i) (h2 : ¬ condLast i)
    (x : Vec F S5000x128 .f32) (K : PUnit → sProp 𝕄) :
    iprop(owns (c : Thread nD τ) arg1 fullShare x ∗ (∃ d, owns (c : Thread nD τ) arg4 fullShare d) ∗ (∃ d, owns (c : Thread nD τ) arg5 fullShare d)
        ∗ (iprop(owns (c : Thread nD τ) arg1 fullShare x ∗ owns (c : Thread nD τ) arg4 fullShare (addSum x zeroSum)
            ∗ owns (c : Thread nD τ) arg5 fullShare (addSq x zeroSq)) -∗ K ⟨⟩))
      ⊢ wp frame (wpE (defs₀ (F := F)) Variants.none c none) E (cc0__bn_stats_kernel i arg1 harg1 arg2 harg2 arg3 harg3 arg4 harg4 arg5 harg5) K := by
  simp only [cc0__bn_stats_kernel_eq_skeleton]; unfold cc0__bn_stats_kernel_skel
  unfold owns
  iintro ⟨⟨%f0, %hf0, H0⟩, ⟨%d4, %f4, -, H4⟩, ⟨%d5, %f5, -, H5⟩, Hk⟩
  subst hf0
  sl_exec (disch := first | exact h1 | exact h2)
  sl_step
  sl_unfold_run_names
  iapply Hk
  isplitl [H0]
  · iexists f0; isplitr; · ipureintro; rfl
    iexact H0
  isplitl [H4]
  · iexists _; isplitr
    swap; · iexact H4
    ipureintro
    rw [View.read_writes_eq_canon _ _ _ (cover_row2 _ _), View.readCov_eq_canon_ld _ _ _ (cover_row _), canon_row_cons]
    rfl
  iexists _; isplitr
  swap; · iexact H5
  ipureintro
  rw [View.read_writes_eq_canon _ _ _ (cover_row2 _ _), View.readCov_eq_canon_ld _ _ _ (cover_row _), canon_row_cons]
  rfl

set_option maxHeartbeats 1000000 in
/-- The body at a point that is neither the first nor the last: each scratch row gains the block's column sums; the
    output buffers are not touched. -/
theorem run_mid (c : Dev nD) (E : Set ℕ) (i : grid0.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (h1 : ¬ condFirst i) (h2 : ¬ condLast i)
    (x : Vec F S5000x128 .f32) (s0 s1 : Vec F S1x128 .f32) (K : PUnit → sProp 𝕄) :
    iprop(owns (c : Thread nD τ) arg1 fullShare x ∗ owns (c : Thread nD τ) arg4 fullShare s0 ∗ owns (c : Thread nD τ) arg5 fullShare s1
        ∗ (iprop(owns (c : Thread nD τ) arg1 fullShare x ∗ owns (c : Thread nD τ) arg4 fullShare (addSum x s0)
            ∗ owns (c : Thread nD τ) arg5 fullShare (addSq x s1)) -∗ K ⟨⟩))
      ⊢ wp frame (wpE (defs₀ (F := F)) Variants.none c none) E (cc0__bn_stats_kernel i arg1 harg1 arg2 harg2 arg3 harg3 arg4 harg4 arg5 harg5) K := by
  simp only [cc0__bn_stats_kernel_eq_skeleton]; unfold cc0__bn_stats_kernel_skel
  unfold owns
  iintro ⟨⟨%f0, %hf0, H0⟩, ⟨%f4, %hf4, H4⟩, ⟨%f5, %hf5, H5⟩, Hk⟩
  subst hf0; subst hf4; subst hf5
  sl_exec (disch := first | exact h1 | exact h2)
  sl_step
  iapply Hk
  isplitl [H0]
  · iexists f0; isplitr; · ipureintro; rfl
    iexact H0
  isplitl [H4]
  · iexists _; isplitr
    swap; · iexact H4
    ipureintro
    exact View.read_writes_eq_canon _ _ _ (cover_row _)
  iexists _; isplitr
  swap; · iexact H5
  ipureintro
  exact View.read_writes_eq_canon _ _ _ (cover_row _)

set_option maxHeartbeats 1000000 in
/-- The body at the last point: each scratch row gains the block's column sums and is then copied whole into its
    output buffer, whatever that held. -/
theorem run_last (c : Dev nD) (E : Set ℕ) (i : grid0.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (h1 : ¬ condFirst i) (h2 : condLast i)
    (x : Vec F S5000x128 .f32) (s0 s1 : Vec F S1x128 .f32) (K : PUnit → sProp 𝕄) :
    iprop(owns (c : Thread nD τ) arg1 fullShare x ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x ∗ owns (c : Thread nD τ) arg2 fullShare (addSum x s0)
            ∗ owns (c : Thread nD τ) arg3 fullShare (addSq x s1) ∗ owns (c : Thread nD τ) arg4 fullShare (addSum x s0)
            ∗ owns (c : Thread nD τ) arg5 fullShare (addSq x s1)) -∗ K ⟨⟩))
      ⊢ wp frame (wpE (defs₀ (F := F)) Variants.none c none) E (cc0__bn_stats_kernel i arg1 harg1 arg2 harg2 arg3 harg3 arg4 harg4 arg5 harg5) K := by
  simp only [cc0__bn_stats_kernel_eq_skeleton]; unfold cc0__bn_stats_kernel_skel
  unfold owns
  iintro ⟨⟨%f0, %hf0, H0⟩, ⟨%d2, %f2, -, H2⟩, ⟨%d3, %f3, -, H3⟩, ⟨%f4, %hf4, H4⟩, ⟨%f5, %hf5, H5⟩, Hk⟩
  subst hf0; subst hf4; subst hf5
  sl_exec (disch := first | exact h1 | exact h2)
  sl_step
  sl_unfold_run_names
  iapply Hk
  isplitl [H0]
  · iexists f0; isplitr; · ipureintro; rfl
    iexact H0
  isplitl [H2]
  · iexists _; isplitr
    swap; · iexact H2
    ipureintro
    rw [View.read_writes_eq_canon _ _ _ (cover_row _), View.readCov_eq_canon_ld _ _ _ (cover_row _), canon_row_ld]
    rfl
  isplitl [H3]
  · iexists _; isplitr
    swap; · iexact H3
    ipureintro
    rw [View.read_writes_eq_canon _ _ _ (cover_row _), View.readCov_eq_canon_ld _ _ _ (cover_row _), canon_row_ld]
    rfl
  isplitl [H4]
  · iexists _; isplitr
    swap; · iexact H4
    ipureintro
    exact View.read_writes_eq_canon _ _ _ (cover_row _)
  iexists _; isplitr
  swap; · iexact H5
  ipureintro
  exact View.read_writes_eq_canon _ _ _ (cover_row _)

/-! ## The windows' blocks and the scratch rows, point by point -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data over the arrays
    V whose body leaves the block in place: the window is fetched at every point, uncut, never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem N0_pos : 0 < cfg0.N := by rw [show cfg0.N = 20 from N_0]; decide

/-- The block of x the body sees at position n of the grid (at a position past the grid, which nothing consults,
    the first block). -/
def xAt (c : Dev nD) (n : ℕ) : Vec F S5000x128 .f32 :=
  if h : n < cfg0.N then iblk0 V c 0 ⟨n, h⟩ else iblk0 V c 0 ⟨0, N0_pos⟩

theorem xAt_eq (c : Dev nD) (t : Fin cfg0.N) : xAt V c t.val = iblk0 V c 0 t := by
  unfold xAt; rw [dif_pos t.isLt]

/-- THE ACCUMULATION. The sum scratch after the body at position n: the column sums of the blocks 0..n of x, added
    one block at a time onto the row of zeros, in the order the grid runs. -/
def scAt0 (c : Dev nD) : ℕ → Vec F S1x128 .f32
  | 0 => addSum (xAt V c 0) zeroSum
  | n + 1 => addSum (xAt V c (n + 1)) (scAt0 c n)

/-- The sum-of-squares scratch after the body at position n, likewise. -/
def scAt1 (c : Dev nD) : ℕ → Vec F S1x128 .f32
  | 0 => addSq (xAt V c 0) zeroSq
  | n + 1 => addSq (xAt V c (n + 1)) (scAt1 c n)

theorem scAt0_zero (c : Dev nD) : scAt0 V c 0 = addSum (xAt V c 0) zeroSum := rfl
theorem scAt0_succ (c : Dev nD) (n : ℕ) : scAt0 V c (n + 1) = addSum (xAt V c (n + 1)) (scAt0 V c n) := rfl
theorem scAt1_zero (c : Dev nD) : scAt1 V c 0 = addSq (xAt V c 0) zeroSq := rfl
theorem scAt1_succ (c : Dev nD) (n : ℕ) : scAt1 V c (n + 1) = addSq (xAt V c (n + 1)) (scAt1 V c n) := rfl

/-- At the first point, over zero; -/
theorem scAt0_first (c : Dev nD) (t : Fin cfg0.N) (hz : t.val = 0) : scAt0 V c t.val = addSum (iblk0 V c 0 t) zeroSum := by
  rw [← xAt_eq]; rw [hz]; rfl
theorem scAt1_first (c : Dev nD) (t : Fin cfg0.N) (hz : t.val = 0) : scAt1 V c t.val = addSq (iblk0 V c 0 t) zeroSq := by
  rw [← xAt_eq]; rw [hz]; rfl
/-- at a later point, over what the point before left. -/
theorem scAt0_later (c : Dev nD) (t : Fin cfg0.N) (hz : t.val ≠ 0) :
    scAt0 V c t.val = addSum (iblk0 V c 0 t) (scAt0 V c (t.val - 1)) := by
  rw [← xAt_eq]
  obtain ⟨n, hn⟩ := t
  cases n with
  | zero => exact absurd rfl hz
  | succ n => rfl
theorem scAt1_later (c : Dev nD) (t : Fin cfg0.N) (hz : t.val ≠ 0) :
    scAt1 V c t.val = addSq (iblk0 V c 0 t) (scAt1 V c (t.val - 1)) := by
  rw [← xAt_eq]
  obtain ⟨n, hn⟩ := t
  cases n with
  | zero => exact absurd rfl hz
  | succ n => rfl

/-! ## The invariant: the two scratch rows between the points -/

/-- The two scratch rows, as whole memrefs. -/
abbrev scM0 : Memref sig .tc .vmem S1x128 .f32 := Memref.whole cc0_scratch0
abbrev scM1 : Memref sig .tc .vmem S1x128 .f32 := Memref.whole cc0_scratch1

/-- The core's scoped buffers that are neither a staging buffer of this call nor one of its two scratch rows, at some
    contents each: carried through the call unopened. -/
def restBut (c : Dev nD) : sProp 𝕄 :=
  Pipeline.scopedRestBut (Ix := Unit) (Name := ℕ) (U := UR sig nD τ) (Lvl := ℕ) (Val := Elt F) spec0 c [cc0_scratch0, cc0_scratch1]

/-- The class invariant with the two scratch rows split off as memrefs owned at some contents. -/
theorem PhiA0_eq (c : Dev nD) :
    (Pipeline.ΦA spec0 c : sProp 𝕄)
      = iprop(iprop(iprop((∃ d, owns (c : Thread nD τ) scM0 fullShare d) ∗ (∃ d, owns (c : Thread nD τ) scM1 fullShare d)) ∗ restBut c) ∗ (∃ r, prngReg c r)) := by
  unfold Pipeline.ΦA restBut
  rw [Pipeline.scopedRest_split_of_list spec0 c [cc0_scratch0, cc0_scratch1] (by decide) (by decide)]
  simp only [scM0, scM1, owns_whole]; try rfl

/-- Before position n of the grid: at the first, the class invariant (the scratch rows at anything); later, the two
    scratch rows at what the point before left, the other scoped buffers and the generator register at some state. -/
def Phi0 (c : Dev nD) : ℕ → sProp 𝕄
  | 0 => Pipeline.ΦA spec0 c
  | n + 1 => iprop(iprop(iprop(owns (c : Thread nD τ) scM0 fullShare (scAt0 V c n) ∗ owns (c : Thread nD τ) scM1 fullShare (scAt1 V c n)) ∗ restBut c) ∗ (∃ r, prngReg c r))

theorem Phi0_zero (c : Dev nD) : Phi0 V c 0 = Pipeline.ΦA spec0 c := rfl
theorem Phi0_succ (c : Dev nD) (n : ℕ) :
    Phi0 V c (n + 1) = iprop(iprop(iprop(owns (c : Thread nD τ) scM0 fullShare (scAt0 V c n) ∗ owns (c : Thread nD τ) scM1 fullShare (scAt1 V c n)) ∗ restBut c) ∗ (∃ r, prngReg c r)) := rfl
theorem Phi0_pos (c : Dev nD) (n : ℕ) (hz : n ≠ 0) :
    Phi0 V c n = iprop(iprop(iprop(owns (c : Thread nD τ) scM0 fullShare (scAt0 V c (n - 1)) ∗ owns (c : Thread nD τ) scM1 fullShare (scAt1 V c (n - 1))) ∗ restBut c) ∗ (∃ r, prngReg c r)) := by
  cases n with
  | zero => exact absurd rfl hz
  | succ n => rfl

/-! ## The pipeline's proof data -/

/-- The proof data of pipeline 0 on core c: the arrays as the region finds them; after the body at point t the input's
    buffer at its block and each output's at the scratch row of that point (what the last point copies there; at the
    earlier points the outputs are idle and this is not consulted); the invariant Phi0; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => scAt0 V c t.val
    | ⟨2, _⟩ => scAt1 V c t.val
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = scAt0 V c t.val := by dsimp only [dat0]
theorem after0_2 (c : Dev nD) (t : Fin cfg0.N) : (dat0 V c).after 2 t = scAt1 V c t.val := by dsimp only [dat0]

theorem Phi_eq0 (c : Dev nD) (t : Fin (cfg0.N + 1)) : (dat0 V c).Φ t = Phi0 V c t.val := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The input's buffer holds its block; the closed forms of the two conditionals say which of
    the three runs the point is; the invariant hands the run the two scratch rows (at anything at the first point, at
    what the point before left afterwards) and takes them back at this point's rows; off the last point the output
    buffers pass through untouched, at the last point they receive the scratch rows. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [Phi_eq0, Phi_eq0, show (t.succ : Fin (cfg0.N + 1)).val = t.val + 1 from rfl, Phi0_succ,
    show (t.castSucc : Fin (cfg0.N + 1)).val = t.val from rfl]
  rw [show (dat0 V c).leavesExact 0 t = owns (c : Thread nD τ) (st0_0 t) fullShare ((dat0 V c).after 0 t) from by
    unfold Dat.leavesExact; rw [live_in t], after0_0]
  have hN : t.val < 20 := lt_of_lt_of_eq t.isLt (show cfg0.N = 20 from N_0)
  by_cases hz : t.val = 0
  · have hF : condFirst (grid0.coords t) := (hcondFirst t).mpr hz
    have hL : ¬ condLast (grid0.coords t) := fun h => by have := (hcondLast t).mp h; omega
    rw [Dat.leavesExact_idle (dat0 V c) 1 t (idle_out1 t hL) (noflush_out1 t hL),
      Dat.leavesExact_idle (dat0 V c) 2 t (idle_out2 t hL) (noflush_out2 t hL)]
    rw [show Phi0 V c t.val = Pipeline.ΦA spec0 c from by rw [hz]; rfl, PhiA0_eq, scAt0_first V c t hz, scAt1_first V c t hz]
    iintro ⟨⟨⟨⟨HS0, HS1⟩, Hrest⟩, Hg⟩, Ho, ⟨%d0, H0⟩, H1, H2⟩
    iapply (run_first c Set.univ (grid0.coords t) _ _ _ _ _ _ _ _ _ _ hF hL (iblk0 V c 0 t) _)
    isplitl [H0]; · iexact H0
    isplitl [HS0]; · iexact HS0
    isplitl [HS1]; · iexact HS1
    iintro ⟨H0, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    iexact H2
  · have hF : ¬ condFirst (grid0.coords t) := fun h => hz ((hcondFirst t).mp h)
    rw [Phi0_pos V c _ hz, scAt0_later V c t hz, scAt1_later V c t hz]
    by_cases hl : t.val = 19
    · have hL : condLast (grid0.coords t) := (hcondLast t).mpr hl
      rw [show (dat0 V c).leavesExact 1 t = owns (c : Thread nD τ) (st0_1 t) fullShare ((dat0 V c).after 1 t) from by
        unfold Dat.leavesExact; rw [live_out1 t hL], after0_1, scAt0_later V c t hz]
      rw [show (dat0 V c).leavesExact 2 t = owns (c : Thread nD τ) (st0_2 t) fullShare ((dat0 V c).after 2 t) from by
        unfold Dat.leavesExact; rw [live_out2 t hL], after0_2, scAt1_later V c t hz]
      iintro ⟨⟨⟨⟨HS0, HS1⟩, Hrest⟩, Hg⟩, Ho, ⟨%d0, H0⟩, ⟨%d1, H1⟩, ⟨%d2, H2⟩⟩
      iapply (run_last c Set.univ (grid0.coords t) _ _ _ _ _ _ _ _ _ _ hF hL (iblk0 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      iexact H2
    · have hL : ¬ condLast (grid0.coords t) := fun h => hl ((hcondLast t).mp h)
      rw [Dat.leavesExact_idle (dat0 V c) 1 t (idle_out1 t hL) (noflush_out1 t hL),
        Dat.leavesExact_idle (dat0 V c) 2 t (idle_out2 t hL) (noflush_out2 t hL)]
      iintro ⟨⟨⟨⟨HS0, HS1⟩, Hrest⟩, Hg⟩, Ho, ⟨%d0, H0⟩, H1, H2⟩
      iapply (run_mid c Set.univ (grid0.coords t) _ _ _ _ _ _ _ _ _ _ hF hL (iblk0 V c 0 t) _ _ _)
      isplitl [H0]; · iexact H0
      isplitl [HS0]; · iexact HS0
      isplitl [HS1]; · iexact HS1
      iintro ⟨H0, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into the invariant and out of it -/

/-- What the region entry provides is the invariant before the first point. -/
theorem Phi_in0 (c : Dev nD) : (Pipeline.ΦA spec0 c : sProp 𝕄) ⊢ (dat0 V c).Φ 0 := by
  rw [Phi_eq0]; exact Idealize.SL.BI.Entails.refl _

/-- After the last point the invariant gives the class invariant back: what the scratch rows hold is forgotten. -/
theorem Phi_out0 (c : Dev nD) : (dat0 V c).Φ (Fin.last cfg0.N) ⊢ (Pipeline.ΦA spec0 c : sProp 𝕄) := by
  rw [Phi_eq0, Phi0_pos V c _ (by rw [Fin.val_last]; have : cfg0.N = 20 := N_0; omega), PhiA0_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- The class invariant is the generator register beside the scoped rest, in either order. -/
theorem PhiA_of_parts (c : Dev nD) :
    iprop((∃ r, prngReg c r) ∗ Pipeline.scopedRest (Ix := Unit) (Name := ℕ) (U := UR sig nD τ) (Lvl := ℕ) (Val := Elt F) spec0 c)
      ⊢ (Pipeline.ΦA spec0 c : sProp 𝕄) := by
  unfold Pipeline.ΦA
  iintro ⟨Hp, Hr⟩
  isplitl [Hr]; · iexact Hr
  iexact Hp

theorem parts_of_PhiA (c : Dev nD) :
    (Pipeline.ΦA spec0 c : sProp 𝕄)
      ⊢ iprop((∃ r, prngReg c r) ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  iexact Hr

/-- ENTRY: the generator register at some state and the scoped rest make the invariant before the first point. -/
theorem hin0 (c : Dev nD) :
    iprop((∃ r, prngReg c r) ∗ Pipeline.scopedRest (Ix := Unit) (Name := ℕ) (U := UR sig nD τ) (Lvl := ℕ) (Val := Elt F) spec0 c)
      ⊢ (dat0 V c).Φ 0 :=
  (PhiA_of_parts c).trans (Phi_in0 V c)

/-- EXIT: the invariant after the last point gives them back. -/
theorem hout0 (c : Dev nD) :
    (dat0 V c).Φ (Fin.last cfg0.N)
      ⊢ iprop((∃ r, prngReg c r) ∗ Pipeline.scopedRest (Ix := Unit) (Name := ℕ) (U := UR sig nD τ) (Lvl := ℕ) (Val := Elt F) spec0 c) :=
  (Phi_out0 V c).trans (parts_of_PhiA c)

/-- The same in the region record's own shapes: with the prefetched tables (this call has none: any P, dropped) at
    the entry, -/
theorem hin0R (c : Dev nD) (P : sProp 𝕄) :
    iprop((∃ r, prngReg c r) ∗ P ∗ Pipeline.scopedRest (Ix := Unit) (Name := ℕ) (U := UR sig nD τ) (Lvl := ℕ) (Val := Elt F) spec0 c)
      ⊢ (dat0 V c).Φ 0 := by
  have h := hin0 V c
  iintro ⟨Hp, -, Hr⟩
  iapply h
  isplitl [Hp]; · iexact Hp
  iexact Hr

/-- and with no semaphore of the kernel's own at the exit. -/
theorem hout0R (c : Dev nD) :
    (dat0 V c).Φ (Fin.last cfg0.N)
      ⊢ iprop((∃ r, prngReg c r) ∗ (BI.emp : sProp 𝕄) ∗ Pipeline.scopedRest (Ix := Unit) (Name := ℕ) (U := UR sig nD τ) (Lvl := ℕ) (Val := Elt F) spec0 c) := by
  have h := hout0 V c
  iintro H
  ihave H2 := h $$ H
  icases H2 with ⟨Hp, Hr⟩
  isplitl [Hp]; · iexact Hp
  isplitr; · iempintro
  iexact Hr

/-! ## The scratch rows through the payloads themselves -/

theorem off_row : (![0, 0] : Fin S1x128.rank → Nat) = fun _ => 0 := by funext a; fin_cases a <;> rfl
theorem off_blk : (![0, 0] : Fin S5000x128.rank → Nat) = fun _ => 0 := by funext a; fin_cases a <;> rfl

/-- A whole-row store leaves its payload; a whole-buffer load reads the buffer. -/
theorem zeroSum_eq : zeroSum (F := F) = k0_pay1 := View.canon_unit_zero off_row inb_S1x128_S1x128_0_0 _
theorem zeroSq_eq : zeroSq (F := F) = k0_pay2 := View.canon_unit_zero off_row inb_S1x128_S1x128_0_0 _
theorem addSum_eq (x : Vec F S5000x128 .f32) (s : Vec F S1x128 .f32) : addSum x s = k0_pay3 x s := by
  unfold addSum
  rw [View.canon_unit_zero off_row inb_S1x128_S1x128_0_0, View.ld_unit_zero off_blk inb_S5000x128_S5000x128_0_0 x,
    View.ld_unit_zero off_row inb_S1x128_S1x128_0_0 s]
theorem addSq_eq (x : Vec F S5000x128 .f32) (s : Vec F S1x128 .f32) : addSq x s = k0_pay4 x s := by
  unfold addSq
  rw [View.canon_unit_zero off_row inb_S1x128_S1x128_0_0, View.ld_unit_zero off_blk inb_S5000x128_S5000x128_0_0 x,
    View.ld_unit_zero off_row inb_S1x128_S1x128_0_0 s]

/-- The recursion of the sum scratch through the payloads: after the first point the first block's column sums over the
    row of zeros, after each later point that block's column sums over what the point before left. -/
theorem scAt0_zero_pay (c : Dev nD) : scAt0 V c 0 = k0_pay3 (iblk0 V c 0 ⟨0, N0_pos⟩) k0_pay1 := by
  rw [scAt0_zero, addSum_eq, zeroSum_eq, ← xAt_eq V c ⟨0, N0_pos⟩]
theorem scAt0_succ_pay (c : Dev nD) (n : ℕ) (h : n + 1 < cfg0.N) :
    scAt0 V c (n + 1) = k0_pay3 (iblk0 V c 0 ⟨n + 1, h⟩) (scAt0 V c n) := by
  rw [scAt0_succ, addSum_eq, ← xAt_eq V c ⟨n + 1, h⟩]
/-- The recursion of the sum-of-squares scratch, likewise. -/
theorem scAt1_zero_pay (c : Dev nD) : scAt1 V c 0 = k0_pay4 (iblk0 V c 0 ⟨0, N0_pos⟩) k0_pay2 := by
  rw [scAt1_zero, addSq_eq, zeroSq_eq, ← xAt_eq V c ⟨0, N0_pos⟩]
theorem scAt1_succ_pay (c : Dev nD) (n : ℕ) (h : n + 1 < cfg0.N) :
    scAt1 V c (n + 1) = k0_pay4 (iblk0 V c 0 ⟨n + 1, h⟩) (scAt1 V c n) := by
  rw [scAt1_succ, addSq_eq, ← xAt_eq V c ⟨n + 1, h⟩]

/-- What the two outputs' staging buffers hold after the last point: the scratch rows after point 19. -/
theorem after0_1_last (c : Dev nD) (t : Fin cfg0.N) (ht : t.val = 19) : (dat0 V c).after 1 t = scAt0 V c 19 := by
  rw [after0_1, ht]
theorem after0_2_last (c : Dev nD) (t : Fin cfg0.N) (ht : t.val = 19) : (dat0 V c).after 2 t = scAt1 V c 19 := by
  rw [after0_2, ht]

end Cert.Kernel.Hand
end
-- ==== Proof.K.Apply.lean ====
/- Region 1 of the forward pass, the kernel that centres a block of 5000 rows by the column means, scales it by the
   inverse standard deviations and takes the sign (spelt on the words: the sign bit of the scaled value joined to the
   word of 1.0, kept where the scaled value is not zero): the proof data of its pipeline at a parameter V (the TensorCore's
   buffer contents when the region is entered) and its body obligation. The body reads the three input staging
   buffers whole, reads the output staging buffer once (the value is dropped) and stores ONE whole block, so what
   the output buffer holds afterwards is the stored payload of the three input blocks. -/
import proofs.«151110_j89026082111679_2_alg».proof.Proof.Gen.Kernel.Launch
import proofs.«151110_j89026082111679_2_alg».proof.Proof.Gen.Kernel.Skeleton
import proofs.«151110_j89026082111679_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Normalize
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of rows: its staging buffer holds the block of the point, for any proof data over V's arrays whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The row of means is fetched at the first point only; its block index never moves, so at every later point the
    staging buffer still holds the row. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The row of inverse standard deviations, likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every buffer whole -/

theorem offsets_zero : (![0, 0] : Fin 2 → Nat) = fun _ => 0 := funext fun a => by fin_cases a <;> rfl

/-- A whole block of 5000 rows by 128 columns. -/
abbrev rowsBlock : Rect S5000x128 := Rect.unit (s := S5000x128) ![0, 0] S5000x128.size inb_S5000x128_S5000x128_0_0
/-- A whole row of 128 per-column statistics. -/
abbrev statRow : Rect S1x128 := Rect.unit (s := S1x128) ![0, 0] S1x128.size inb_S1x128_S1x128_0_0

/-! ## What the body leaves in the output buffer -/

/-- The output staging buffer after the body, from the three input blocks: its one store as a piece. -/
def out1_3 (x0 : Vec F S5000x128 .f32) (x1 : Vec F S1x128 .f32) (x2 : Vec F S1x128 .f32) : Vec F S5000x128 .f32 :=
  View.canon [⟨rowsBlock, k1_pay1 (View.ld x0 rowsBlock) (View.ld x1 statRow) (View.ld x2 statRow)⟩]

/-- The one store is of the whole block, so it covers the buffer. -/
theorem cover1_3 (p0 : Vec F S5000x128 .f32) (y : S5000x128.Idx) :
    ∃ pc ∈ ([⟨rowsBlock, p0⟩] : List (View.Piece (Elt F) S5000x128 .f32)), y ∈ pc.1.set :=
  ⟨_, List.mem_singleton_self _, View.mem_set_unit_zero offsets_zero inb_S5000x128_S5000x128_0_0 y⟩

/-- Whole loads read the buffers and the whole store leaves its payload: the output is the payload of the blocks. -/
theorem out1_3_eq (x0 : Vec F S5000x128 .f32) (x1 : Vec F S1x128 .f32) (x2 : Vec F S1x128 .f32) :
    out1_3 x0 x1 x2 = k1_pay1 x0 x1 x2 := by
  unfold out1_3
  rw [View.canon_unit_zero (S := S5000x128) offsets_zero inb_S5000x128_S5000x128_0_0,
    View.ld_unit_zero (S := S5000x128) offsets_zero inb_S5000x128_S5000x128_0_0,
    View.ld_unit_zero (S := S1x128) offsets_zero inb_S1x128_S1x128_0_0,
    View.ld_unit_zero (S := S1x128) offsets_zero inb_S1x128_S1x128_0_0]

/-! ## The body's triple -/

set_option maxHeartbeats 1000000 in
/-- The body on whole staging buffers, the inputs' at contents x0 x1 x2 and the output's at anything, runs to the
    continuation holding the inputs' as they were and the output's at out1_3 of them. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__bn_apply_kernel i arg1 harg1 arg2 harg2 arg3 harg3 arg4 harg4) K := by
  simp only [cc1__bn_apply_kernel_eq_skeleton]; unfold cc1__bn_apply_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the pipeline on core c: the arrays as the region finds them; after the body at point t each
    input's buffer at its block and the output's at out1_3 of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- The output window after the body, over the payload directly (the one store is of the whole block). -/
theorem after1_3_payload (c : Dev nD) (t : Fin cfg1.N) :
    (dat1 V c).after 3 t = k1_pay1 (iblk1 V c 0 t) (iblk1 V c 1 t) (iblk1 V c 2 t) :=
  (after1_3 V c t).trans (out1_3_eq _ _ _)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, the output's holds something, so the triple applies;
    the invariant and what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Normalize

end Cert.Kernel.Hand

end
-- ==== Proof.K.Classify.lean ====
/- Region 2 of the forward pass, the classifier kernel on a block of 5000 rows: the block and the transposed weights
   rounded to bf16 and multiplied, the bias row added, and the logarithm of the softmax taken along each row of 40
   classes. Here: the proof data of its pipeline at a parameter V (the TensorCore's buffer contents when the region
   is entered) and its body obligation. The body reads the three input staging buffers whole, reads the output
   staging buffer once (the value is dropped) and stores ONE whole block, so what the output buffer holds afterwards
   is the stored payload of the three input blocks. -/
import proofs.«151110_j89026082111679_2_alg».proof.Proof.Gen.Kernel.Launch
import proofs.«151110_j89026082111679_2_alg».proof.Proof.Gen.Kernel.Skeleton
import proofs.«151110_j89026082111679_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Classifier
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of hidden rows: its staging buffer holds the block of the point, for any proof data over V's arrays
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The transposed weights are fetched at the first point only; their block index never moves, so at every later
    point the staging buffer still holds them. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row, likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every buffer whole -/

theorem offsets_zero2 : (![0, 0] : Fin 2 → Nat) = fun _ => 0 := funext fun a => by fin_cases a <;> rfl

/-- A whole block of 5000 hidden rows by 128 features. -/
abbrev hiddenBlock : Rect S5000x128 := Rect.unit (s := S5000x128) ![0, 0] S5000x128.size inb_S5000x128_S5000x128_0_0
/-- The whole transposed weight matrix, 128 features by 40 classes. -/
abbrev weightMat : Rect S128x40 := Rect.unit (s := S128x40) ![0, 0] S128x40.size inb_S128x40_S128x40_0_0
/-- The whole bias row of 40 classes. -/
abbrev biasRow : Rect S1x40 := Rect.unit (s := S1x40) ![0, 0] S1x40.size inb_S1x40_S1x40_0_0
/-- A whole block of 5000 rows of 40 class scores. -/
abbrev scoreBlock : Rect S5000x40 := Rect.unit (s := S5000x40) ![0, 0] S5000x40.size inb_S5000x40_S5000x40_0_0

/-! ## What the body leaves in the output buffer -/

/-- The output staging buffer after the body, from the three input blocks: its one store as a piece. -/
def out2_3 (x0 : Vec F S5000x128 .f32) (x1 : Vec F S128x40 .f32) (x2 : Vec F S1x40 .f32) : Vec F S5000x40 .f32 :=
  View.canon [⟨scoreBlock, k2_pay1 (View.ld x0 hiddenBlock) (View.ld x1 weightMat) (View.ld x2 biasRow)⟩]

/-- The one store is of the whole block, so it covers the buffer. -/
theorem cover2_3 (p0 : Vec F S5000x40 .f32) (y : S5000x40.Idx) :
    ∃ pc ∈ ([⟨scoreBlock, p0⟩] : List (View.Piece (Elt F) S5000x40 .f32)), y ∈ pc.1.set :=
  ⟨_, List.mem_singleton_self _, View.mem_set_unit_zero offsets_zero2 inb_S5000x40_S5000x40_0_0 y⟩

/-- Whole loads read the buffers and the whole store leaves its payload: the output is the payload of the blocks. -/
theorem out2_3_eq (x0 : Vec F S5000x128 .f32) (x1 : Vec F S128x40 .f32) (x2 : Vec F S1x40 .f32) :
    out2_3 x0 x1 x2 = k2_pay1 x0 x1 x2 := by
  unfold out2_3
  rw [View.canon_unit_zero (S := S5000x40) offsets_zero2 inb_S5000x40_S5000x40_0_0,
    View.ld_unit_zero (S := S5000x128) offsets_zero2 inb_S5000x128_S5000x128_0_0,
    View.ld_unit_zero (S := S128x40) offsets_zero2 inb_S128x40_S128x40_0_0,
    View.ld_unit_zero (S := S1x40) offsets_zero2 inb_S1x40_S1x40_0_0]

/-! ## The body's triple -/

set_option maxHeartbeats 1000000 in
/-- The body on whole staging buffers, the inputs' at contents x0 x1 x2 and the output's at anything, runs to the
    continuation holding the inputs' as they were and the output's at out2_3 of them. -/
theorem sound_kernel2 (c : Dev nD) (E : Set ℕ) (i : grid2.Coords)
    (arg1 : Memref sig .tc .vmem S5000x128 .f32) (harg1 : arg1.IsWhole) (arg2 : Memref sig .tc .vmem S128x40 .f32) (harg2 : arg2.IsWhole)
    (arg3 : Memref sig .tc .vmem S1x40 .f32) (harg3 : arg3.IsWhole) (arg4 : Memref sig .tc .vmem S5000x40 .f32) (harg4 : arg4.IsWhole)
    (x0 : Vec F S5000x128 .f32) (x1 : Vec F S128x40 .f32) (x2 : Vec F S1x40 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__classifier_kernel i arg1 harg1 arg2 harg2 arg3 harg3 arg4 harg4) K := by
  simp only [cc2__classifier_kernel_eq_skeleton]; unfold cc2__classifier_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the pipeline on core c: the arrays as the region finds them; after the body at point t each
    input's buffer at its block and the output's at out2_3 of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- The output window after the body, over the payload directly (the one store is of the whole block). -/
theorem after2_3_payload (c : Dev nD) (t : Fin cfg2.N) :
    (dat2 V c).after 3 t = k2_pay1 (iblk2 V c 0 t) (iblk2 V c 1 t) (iblk2 V c 2 t) :=
  (after2_3 V c t).trans (out2_3_eq _ _ _)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, the output's holds something, so the triple applies;
    the invariant and what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Classifier

end Cert.Kernel.Hand

end
-- ==== Proof.K.Run.lean ====
/- The forward pass as one run. @main is six segments in order: the degree normalisation of the graph (host
   operations), the column sums and sums of squares of the features (region 0, twenty blocks of 5000 rows), the means
   and inverse standard deviations (host operations), the sign of the normalised features (region 1), the propagation
   over the graph and the classifier's operands (host operations), the classifier (region 2). This module writes down
   what every unscoped buffer of a core holds at each of the seven boundaries, as a fold from the launch memory — a
   host stretch applies its operations in order, a region replaces its arrays by what its pipeline leaves after the
   last grid point and keeps every other buffer —, presents each region to the library as a segment entered from one
   boundary's contents and left at the next one's, and concludes: every weakly fair execution terminates, nothing
   faulting, and every final state holds, in each unscoped buffer, the last boundary's contents. The four argument
   arrays are written by no host operation and are at most read by a region, so they end as launched. -/
import proofs.«151110_j89026082111679_2_alg».proof.Proof.Gen.Kernel.Launch
import proofs.«151110_j89026082111679_2_alg».proof.Proof.Gen.Kernel.Skeleton
import proofs.«151110_j89026082111679_2_alg».proof.Proof.Gen.Kernel.Points
import proofs.«151110_j89026082111679_2_alg».proof.Proof.Gen.Kernel.Regions
import proofs.«151110_j89026082111679_2_alg».proof.Proof.K.Stats
import proofs.«151110_j89026082111679_2_alg».proof.Proof.K.Apply
import proofs.«151110_j89026082111679_2_alg».proof.Proof.K.Classify
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! # The forward pass as a run of six segments

@main is: the degree normalisation of the graph (host), the column statistics of x (region 0), the means and inverse
standard deviations (host), the sign of the normalised features (region 1), the propagation over the graph and the
operands of the classifier (host), the classifier (region 2). The contents of every unscoped buffer at the seven
boundaries are written down as a fold from the launch memory, region by region. -/

/-- Core c's buffers at launch. -/
abbrev W0 : Dev nD → Valuation τ sig (Elt F) := fun c b => (s₀ m ρ).mem ((c : Dev nD), b)
/-- After the first host stretch: what the statistics region is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- When the statistics region returns: its three arrays at what its pipeline leaves after the last point, every
    other buffer as the region found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem arrays_left0 (c : Dev nD) (w : Fin cfg0.W) : (dat0 (V1 m ρ) c).arrAt w cfg0.N = V2 m ρ c (Pipeline.arrRef spec0 w) :=
  (W2_arr m ρ c w).symm
theorem others_kept0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (means, inverse standard deviations): what the sign region is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- When the sign region returns. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem arrays_left1 (c : Dev nD) (w : Fin cfg1.W) : (dat1 (V3 m ρ) c).arrAt w cfg1.N = V4 m ρ c (Pipeline.arrRef spec1 w) :=
  (W4_arr m ρ c w).symm
theorem others_kept1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (propagation over the graph, the classifier's operands): what the classifier is
    entered from. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- When the classifier returns: the contents @main ends with. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem arrays_left2 (c : Dev nD) (w : Fin cfg2.W) : (dat2 (V5 m ρ) c).arrAt w cfg2.N = V6 m ρ c (Pipeline.arrRef spec2 w) :=
  (W6_arr m ρ c w).symm
theorem others_kept2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- The host stretches' contents are the library's fold of their operations, by definition. -/
theorem W1_eq (c : Dev nD) : W1 m ρ c = StableHlo.after hostOps0 (W0 m ρ c) := rfl
theorem W3_eq (c : Dev nD) : W3 m ρ c = StableHlo.after hostOps1 (W2 m ρ c) := rfl
theorem W5_eq (c : Dev nD) : W5 m ρ c = StableHlo.after hostOps2 (W4 m ρ c) := rfl

/-! ## A buffer no host operation writes keeps its contents across a stretch -/

theorem W1_kept (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
theorem W3_kept (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h
theorem W5_kept (c : Dev nD) (r : Ref sig .tc) (h : r ∉ (hostOps2_W : List (Ref sig .tc))) :
    W5 m ρ c (Proc.devRef .tc r) = W4 m ρ c (Proc.devRef .tc r) :=
  StableHlo.after_of_writes_sub hostOps2 _ hostOps2_writes h

/-! ## The four arguments end as launched

x is read by the statistics and the sign regions through an input window, which a pipeline leaves as it found it; the
weights, the bias and the edge list are no region's array; no host operation writes an argument. -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_kept m ρ c main_arg0 (by decide)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := W3_kept m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_kept m ρ c main_arg0 (by decide)
    _ = m ((c : Thread nD τ).loc main_arg0) := rfl

/-- A buffer that is no region's array and that no host operation writes ends as launched. -/
theorem W6_untouched (c : Dev nD) (r : Ref sig .tc)
    (h0 : r ∉ (hostOps0_W : List (Ref sig .tc))) (h1 : r ∉ (hostOps1_W : List (Ref sig .tc))) (h2 : r ∉ (hostOps2_W : List (Ref sig .tc)))
    (a0 : ∀ w, Pipeline.arrRef spec0 w ≠ r) (a1 : ∀ w, Pipeline.arrRef spec1 w ≠ r) (a2 : ∀ w, Pipeline.arrRef spec2 w ≠ r) :
    W6 m ρ c (Proc.devRef .tc r) = m ((c : Thread nD τ).loc r) :=
  calc W6 m ρ c (Proc.devRef .tc r)
    _ = W5 m ρ c (Proc.devRef .tc r) := W6_of_ne m ρ c r a2
    _ = W4 m ρ c (Proc.devRef .tc r) := W5_kept m ρ c r h2
    _ = W3 m ρ c (Proc.devRef .tc r) := W4_of_ne m ρ c r a1
    _ = W2 m ρ c (Proc.devRef .tc r) := W3_kept m ρ c r h1
    _ = W1 m ρ c (Proc.devRef .tc r) := W2_of_ne m ρ c r a0
    _ = W0 m ρ c (Proc.devRef .tc r) := W1_kept m ρ c r h0
    _ = m ((c : Thread nD τ).loc r) := rfl

theorem W6_main_arg1 (c : Dev nD) : W6 m ρ c (Proc.devRef .tc main_arg1) = m ((c : Thread nD τ).loc main_arg1) :=
  W6_untouched m ρ c main_arg1 (by decide) (by decide) (by decide) (by decide) (by decide) (by decide)
theorem W6_main_arg2 (c : Dev nD) : W6 m ρ c (Proc.devRef .tc main_arg2) = m ((c : Thread nD τ).loc main_arg2) :=
  W6_untouched m ρ c main_arg2 (by decide) (by decide) (by decide) (by decide) (by decide) (by decide)
theorem W6_main_arg3 (c : Dev nD) : W6 m ρ c (Proc.devRef .tc main_arg3) = m ((c : Thread nD τ).loc main_arg3) :=
  W6_untouched m ρ c main_arg3 (by decide) (by decide) (by decide) (by decide) (by decide) (by decide)

/-! ## The proof data family and the thread state -/

/-- Every pipeline's proof data at its region's entry contents: a literal match on the pipeline index, so that the
    library's pinned configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues,
    at nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the final contents, the generator register at
    some state. -/
abbrev Tₙ (c : Dev nD) : sProp 𝕄 := iprop(StableHlo.held (c : Thread nD τ) (Pipeline.ucRefs τ sig) (W6 m ρ c) ∗ ∃ r, prngReg c r)

/-! ## The three regions as segments -/

-- a library lemma stated over the pinned configuration unifies with the printed one only when unification may unfold
-- plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    have h := hin0 (V1 m ρ) c
    iintro ⟨Hp, -, Hr⟩
    iapply h
    isplitl [Hp]; · iexact Hp
    iexact Hr
  hout c := by
    rw [Pipeline.ownSems0_none, show (pdats m ρ 0 c).Φ (Fin.last _) = (dat0 (V1 m ρ) c).Φ (Fin.last cfg0.N) from rfl]
    have h := hout0 (V1 m ρ) c
    iintro HΦ
    ihave H := h $$ HΦ
    icases H with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (arrays_left0 m ρ c) (others_kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (arrays_left1 m ρ c) (others_kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (arrays_left2 m ρ c) (others_kept2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

/-- @main is the run of the segments: the generated chain of its items, and the segments' run as the chain of their
    fragments. -/
theorem main_run (c : Dev nD) : main (F := F) c = Pipeline.Seg.run (segs m ρ) := by
  rw [main_chain c, Pipeline.Seg.run_eq_chain]
  rfl

set_option backward.isDefEq.respectTransparency.types false in
/-- THE RUN: from any memory with zero counters every weakly fair execution of @main on the TensorCores terminates,
    nothing faulting, and in every final state each unscoped buffer of every core holds the folded contents W6. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The same, read at a TensorCore reference that is not scoped. -/
theorem run_all_tc : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W6 m ρ c (Proc.devRef .tc b)) :=
  (θ_run _ _ _).mono (fun r h c b hb => h c _ (mem_uc b hb)) (run_all m ρ)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (run_all m ρ)

end Cert.Kernel.Hand

end
-- ==== Proof.KI.Stats.lean ====
import proofs.«151110_j89026082111679_2_alg».proof.Proof.Gen.KernelIdeal.Launch
import proofs.«151110_j89026082111679_2_alg».proof.Proof.Gen.KernelIdeal.Skeleton
import proofs.«151110_j89026082111679_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The batch-statistics call (pipeline 0) at the entry contents V

The body adds, at every grid point, the column sums of the current block of x and of its square into two rows of
scratch that live across the points: zeroed at the first point, copied to the two outputs at the last. -/

/-! ## Which branch a point takes -/

/-- The first conditional of the body, as printed: the grid coordinate compared with zero. -/
abbrev condFirst (i : grid0.Coords) : Prop :=
  (Scalar.cmpi .ne (Scalar.extui (Scalar.cmpi .eq (BitVec.ofNat 32 (i 0).val) 0#32)) 0#32) = 1#1
/-- The second conditional of the body: the grid coordinate compared with the last one. -/
abbrev condLast (i : grid0.Coords) : Prop := k0_cond2 i = 1#1

/-- The first conditional holds at point 0 only. -/
theorem hcondFirst : ∀ t : Fin cfg0.N, condFirst (grid0.coords t) ↔ t.val = 0 :=
  (by decide +kernel : ∀ t : Fin grid0.N, condFirst (grid0.coords t) ↔ t.val = 0)
/-- The second conditional holds at point 19 only. -/
theorem hcondLast : ∀ t : Fin cfg0.N, condLast (grid0.coords t) ↔ t.val = 19 :=
  (by decide +kernel : ∀ t : Fin grid0.N, condLast (grid0.coords t) ↔ t.val = 19)

/-- The input window is never idle. -/
theorem live_in : ∀ t : Fin cfg0.N, cfg0.idle 0 (grid0.coords t) = false := by decide +kernel
/-- Off the last point the two output windows are idle and not written back. -/
theorem idle_out1 : ∀ t : Fin cfg0.N, ¬ condLast (grid0.coords t) → cfg0.idle 1 (grid0.coords t) = true := by decide +kernel
theorem idle_out2 : ∀ t : Fin cfg0.N, ¬ condLast (grid0.coords t) → cfg0.idle 2 (grid0.coords t) = true := by decide +kernel
theorem noflush_out1 : ∀ t : Fin cfg0.N, ¬ condLast (grid0.coords t) → (cfg0.win 1).flush t = false := by decide +kernel
theorem noflush_out2 : ∀ t : Fin cfg0.N, ¬ condLast (grid0.coords t) → (cfg0.win 2).flush t = false := by decide +kernel
/-- At the last point they are live. -/
theorem live_out1 : ∀ t : Fin cfg0.N, condLast (grid0.coords t) → cfg0.idle 1 (grid0.coords t) = false := by decide +kernel
theorem live_out2 : ∀ t : Fin cfg0.N, condLast (grid0.coords t) → cfg0.idle 2 (grid0.coords t) = false := by decide +kernel

/-! ## The rectangles the body touches, and the rows it leaves -/

/-- The whole block of x. -/
abbrev rX : Rect S5000x128 := Rect.unit (s := S5000x128) ![0, 0] S5000x128.size inb_S5000x128_S5000x128_0_0
/-- The whole row of a scratch or output buffer. -/
abbrev rS : Rect S1x128 := Rect.unit (s := S1x128) ![0, 0] S1x128.size inb_S1x128_S1x128_0_0

/-- One piece over the whole row covers it. -/
theorem cover_row (p : Vec F S1x128 .f32) (y : S1x128.Idx) :
    ∃ pc ∈ ([⟨rS, p⟩] : List (View.Piece (Elt F) S1x128 .f32)), y ∈ pc.1.set :=
  View.cover_of_tiled [⟨rS, p⟩] S1x128.size (by rfl) y

/-- So do two. -/
theorem cover_row2 (p q : Vec F S1x128 .f32) (y : S1x128.Idx) :
    ∃ pc ∈ ([⟨rS, p⟩, ⟨rS, q⟩] : List (View.Piece (Elt F) S1x128 .f32)), y ∈ pc.1.set := by
  obtain ⟨pc, hm, hy⟩ := cover_row p y
  exact ⟨pc, List.mem_cons.mpr (Or.inl (List.mem_singleton.mp hm)), hy⟩

/-- A store of the whole row hides every earlier store. -/
theorem canon_row_cons (p : Vec F S1x128 .f32) (L : List (View.Piece (Elt F) S1x128 .f32)) :
    View.canon (⟨rS, p⟩ :: L) = View.canon [⟨rS, p⟩] := by
  funext y
  obtain ⟨pc, hm, hy⟩ := cover_row p y
  obtain rfl := List.mem_singleton.mp hm
  obtain ⟨x, rfl⟩ := rS.exists_idx_of_mem hy
  exact (View.canon_cons_emb rS p L x).trans (View.canon_cons_emb rS p [] x).symm

/-- A row read whole and stored whole is the row. -/
theorem canon_row_ld (v : Vec F S1x128 .f32) : View.canon [⟨rS, View.ld v rS⟩] = v := by
  funext y
  obtain ⟨pc, hm, hy⟩ := cover_row (View.ld v rS) y
  obtain rfl := List.mem_singleton.mp hm
  obtain ⟨x, rfl⟩ := rS.exists_idx_of_mem hy
  exact View.canon_cons_emb rS (View.ld v rS) [] x

/-- The row of zeros the first point stores into the sum scratch, -/
def zeroSum : Vec F S1x128 .f32 := View.canon [⟨rS, k0_pay1⟩]
/-- and into the sum-of-squares scratch. -/
def zeroSq : Vec F S1x128 .f32 := View.canon [⟨rS, k0_pay2⟩]
/-- The sum scratch after a point: what it held plus the column sums of the block x. -/
def addSum (x : Vec F S5000x128 .f32) (s : Vec F S1x128 .f32) : Vec F S1x128 .f32 :=
  View.canon [⟨rS, k0_pay3 (View.ld x rX) (View.ld s rS)⟩]
/-- The sum-of-squares scratch after a point: what it held plus the column sums of the squares of the block x. -/
def addSq (x : Vec F S5000x128 .f32) (s : Vec F S1x128 .f32) : Vec F S1x128 .f32 :=
  View.canon [⟨rS, k0_pay4 (View.ld x rX) (View.ld s rS)⟩]

/-! ## The body, run once per branch pattern -/

set_option maxHeartbeats 1000000 in
/-- The body at the first point: whatever the two scratch rows hold, they end at the block's column sums (of x and
    of its square) over zero; the output buffers are not touched. -/
theorem run_first (c : Dev nD) (E : Set ℕ) (i : grid0.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (h1 : condFirst i) (h2 : ¬ condLast i)
    (x : Vec F S5000x128 .f32) (K : PUnit → sProp 𝕄) :
    iprop(owns (c : Thread nD τ) arg1 fullShare x ∗ (∃ d, owns (c : Thread nD τ) arg4 fullShare d) ∗ (∃ d, owns (c : Thread nD τ) arg5 fullShare d)
        ∗ (iprop(owns (c : Thread nD τ) arg1 fullShare x ∗ owns (c : Thread nD τ) arg4 fullShare (addSum x zeroSum)
            ∗ owns (c : Thread nD τ) arg5 fullShare (addSq x zeroSq)) -∗ K ⟨⟩))
      ⊢ wp frame (wpE (defs₀ (F := F)) Variants.none c none) E (cc0__bn_stats_kernel i arg1 harg1 arg2 harg2 arg3 harg3 arg4 harg4 arg5 harg5) K := by
  simp only [cc0__bn_stats_kernel_eq_skeleton]; unfold cc0__bn_stats_kernel_skel
  unfold owns
  iintro ⟨⟨%f0, %hf0, H0⟩, ⟨%d4, %f4, -, H4⟩, ⟨%d5, %f5, -, H5⟩, Hk⟩
  subst hf0
  sl_exec (disch := first | exact h1 | exact h2)
  sl_step
  sl_unfold_run_names
  iapply Hk
  isplitl [H0]
  · iexists f0; isplitr; · ipureintro; rfl
    iexact H0
  isplitl [H4]
  · iexists _; isplitr
    swap; · iexact H4
    ipureintro
    rw [View.read_writes_eq_canon _ _ _ (cover_row2 _ _), View.readCov_eq_canon_ld _ _ _ (cover_row _), canon_row_cons]
    rfl
  iexists _; isplitr
  swap; · iexact H5
  ipureintro
  rw [View.read_writes_eq_canon _ _ _ (cover_row2 _ _), View.readCov_eq_canon_ld _ _ _ (cover_row _), canon_row_cons]
  rfl

set_option maxHeartbeats 1000000 in
/-- The body at a point that is neither the first nor the last: each scratch row gains the block's column sums; the
    output buffers are not touched. -/
theorem run_mid (c : Dev nD) (E : Set ℕ) (i : grid0.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (h1 : ¬ condFirst i) (h2 : ¬ condLast i)
    (x : Vec F S5000x128 .f32) (s0 s1 : Vec F S1x128 .f32) (K : PUnit → sProp 𝕄) :
    iprop(owns (c : Thread nD τ) arg1 fullShare x ∗ owns (c : Thread nD τ) arg4 fullShare s0 ∗ owns (c : Thread nD τ) arg5 fullShare s1
        ∗ (iprop(owns (c : Thread nD τ) arg1 fullShare x ∗ owns (c : Thread nD τ) arg4 fullShare (addSum x s0)
            ∗ owns (c : Thread nD τ) arg5 fullShare (addSq x s1)) -∗ K ⟨⟩))
      ⊢ wp frame (wpE (defs₀ (F := F)) Variants.none c none) E (cc0__bn_stats_kernel i arg1 harg1 arg2 harg2 arg3 harg3 arg4 harg4 arg5 harg5) K := by
  simp only [cc0__bn_stats_kernel_eq_skeleton]; unfold cc0__bn_stats_kernel_skel
  unfold owns
  iintro ⟨⟨%f0, %hf0, H0⟩, ⟨%f4, %hf4, H4⟩, ⟨%f5, %hf5, H5⟩, Hk⟩
  subst hf0; subst hf4; subst hf5
  sl_exec (disch := first | exact h1 | exact h2)
  sl_step
  iapply Hk
  isplitl [H0]
  · iexists f0; isplitr; · ipureintro; rfl
    iexact H0
  isplitl [H4]
  · iexists _; isplitr
    swap; · iexact H4
    ipureintro
    exact View.read_writes_eq_canon _ _ _ (cover_row _)
  iexists _; isplitr
  swap; · iexact H5
  ipureintro
  exact View.read_writes_eq_canon _ _ _ (cover_row _)

set_option maxHeartbeats 1000000 in
/-- The body at the last point: each scratch row gains the block's column sums and is then copied whole into its
    output buffer, whatever that held. -/
theorem run_last (c : Dev nD) (E : Set ℕ) (i : grid0.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (h1 : ¬ condFirst i) (h2 : condLast i)
    (x : Vec F S5000x128 .f32) (s0 s1 : Vec F S1x128 .f32) (K : PUnit → sProp 𝕄) :
    iprop(owns (c : Thread nD τ) arg1 fullShare x ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x ∗ owns (c : Thread nD τ) arg2 fullShare (addSum x s0)
            ∗ owns (c : Thread nD τ) arg3 fullShare (addSq x s1) ∗ owns (c : Thread nD τ) arg4 fullShare (addSum x s0)
            ∗ owns (c : Thread nD τ) arg5 fullShare (addSq x s1)) -∗ K ⟨⟩))
      ⊢ wp frame (wpE (defs₀ (F := F)) Variants.none c none) E (cc0__bn_stats_kernel i arg1 harg1 arg2 harg2 arg3 harg3 arg4 harg4 arg5 harg5) K := by
  simp only [cc0__bn_stats_kernel_eq_skeleton]; unfold cc0__bn_stats_kernel_skel
  unfold owns
  iintro ⟨⟨%f0, %hf0, H0⟩, ⟨%d2, %f2, -, H2⟩, ⟨%d3, %f3, -, H3⟩, ⟨%f4, %hf4, H4⟩, ⟨%f5, %hf5, H5⟩, Hk⟩
  subst hf0; subst hf4; subst hf5
  sl_exec (disch := first | exact h1 | exact h2)
  sl_step
  sl_unfold_run_names
  iapply Hk
  isplitl [H0]
  · iexists f0; isplitr; · ipureintro; rfl
    iexact H0
  isplitl [H2]
  · iexists _; isplitr
    swap; · iexact H2
    ipureintro
    rw [View.read_writes_eq_canon _ _ _ (cover_row _), View.readCov_eq_canon_ld _ _ _ (cover_row _), canon_row_ld]
    rfl
  isplitl [H3]
  · iexists _; isplitr
    swap; · iexact H3
    ipureintro
    rw [View.read_writes_eq_canon _ _ _ (cover_row _), View.readCov_eq_canon_ld _ _ _ (cover_row _), canon_row_ld]
    rfl
  isplitl [H4]
  · iexists _; isplitr
    swap; · iexact H4
    ipureintro
    exact View.read_writes_eq_canon _ _ _ (cover_row _)
  iexists _; isplitr
  swap; · iexact H5
  ipureintro
  exact View.read_writes_eq_canon _ _ _ (cover_row _)

/-! ## The windows' blocks and the scratch rows, point by point -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data over the arrays
    V whose body leaves the block in place: the window is fetched at every point, uncut, never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem N0_pos : 0 < cfg0.N := by rw [show cfg0.N = 20 from N_0]; decide

/-- The block of x the body sees at position n of the grid (at a position past the grid, which nothing consults,
    the first block). -/
def xAt (c : Dev nD) (n : ℕ) : Vec F S5000x128 .f32 :=
  if h : n < cfg0.N then iblk0 V c 0 ⟨n, h⟩ else iblk0 V c 0 ⟨0, N0_pos⟩

theorem xAt_eq (c : Dev nD) (t : Fin cfg0.N) : xAt V c t.val = iblk0 V c 0 t := by
  unfold xAt; rw [dif_pos t.isLt]

/-- THE ACCUMULATION. The sum scratch after the body at position n: the column sums of the blocks 0..n of x, added
    one block at a time onto the row of zeros, in the order the grid runs. -/
def scAt0 (c : Dev nD) : ℕ → Vec F S1x128 .f32
  | 0 => addSum (xAt V c 0) zeroSum
  | n + 1 => addSum (xAt V c (n + 1)) (scAt0 c n)

/-- The sum-of-squares scratch after the body at position n, likewise. -/
def scAt1 (c : Dev nD) : ℕ → Vec F S1x128 .f32
  | 0 => addSq (xAt V c 0) zeroSq
  | n + 1 => addSq (xAt V c (n + 1)) (scAt1 c n)

theorem scAt0_zero (c : Dev nD) : scAt0 V c 0 = addSum (xAt V c 0) zeroSum := rfl
theorem scAt0_succ (c : Dev nD) (n : ℕ) : scAt0 V c (n + 1) = addSum (xAt V c (n + 1)) (scAt0 V c n) := rfl
theorem scAt1_zero (c : Dev nD) : scAt1 V c 0 = addSq (xAt V c 0) zeroSq := rfl
theorem scAt1_succ (c : Dev nD) (n : ℕ) : scAt1 V c (n + 1) = addSq (xAt V c (n + 1)) (scAt1 V c n) := rfl

/-- At the first point, over zero; -/
theorem scAt0_first (c : Dev nD) (t : Fin cfg0.N) (hz : t.val = 0) : scAt0 V c t.val = addSum (iblk0 V c 0 t) zeroSum := by
  rw [← xAt_eq]; rw [hz]; rfl
theorem scAt1_first (c : Dev nD) (t : Fin cfg0.N) (hz : t.val = 0) : scAt1 V c t.val = addSq (iblk0 V c 0 t) zeroSq := by
  rw [← xAt_eq]; rw [hz]; rfl
/-- at a later point, over what the point before left. -/
theorem scAt0_later (c : Dev nD) (t : Fin cfg0.N) (hz : t.val ≠ 0) :
    scAt0 V c t.val = addSum (iblk0 V c 0 t) (scAt0 V c (t.val - 1)) := by
  rw [← xAt_eq]
  obtain ⟨n, hn⟩ := t
  cases n with
  | zero => exact absurd rfl hz
  | succ n => rfl
theorem scAt1_later (c : Dev nD) (t : Fin cfg0.N) (hz : t.val ≠ 0) :
    scAt1 V c t.val = addSq (iblk0 V c 0 t) (scAt1 V c (t.val - 1)) := by
  rw [← xAt_eq]
  obtain ⟨n, hn⟩ := t
  cases n with
  | zero => exact absurd rfl hz
  | succ n => rfl

/-! ## The invariant: the two scratch rows between the points -/

/-- The two scratch rows, as whole memrefs. -/
abbrev scM0 : Memref sig .tc .vmem S1x128 .f32 := Memref.whole cc0_scratch0
abbrev scM1 : Memref sig .tc .vmem S1x128 .f32 := Memref.whole cc0_scratch1

/-- The core's scoped buffers that are neither a staging buffer of this call nor one of its two scratch rows, at some
    contents each: carried through the call unopened. -/
def restBut (c : Dev nD) : sProp 𝕄 :=
  Pipeline.scopedRestBut (Ix := Unit) (Name := ℕ) (U := UR sig nD τ) (Lvl := ℕ) (Val := Elt F) spec0 c [cc0_scratch0, cc0_scratch1]

/-- The class invariant with the two scratch rows split off as memrefs owned at some contents. -/
theorem PhiA0_eq (c : Dev nD) :
    (Pipeline.ΦA spec0 c : sProp 𝕄)
      = iprop(iprop(iprop((∃ d, owns (c : Thread nD τ) scM0 fullShare d) ∗ (∃ d, owns (c : Thread nD τ) scM1 fullShare d)) ∗ restBut c) ∗ (∃ r, prngReg c r)) := by
  unfold Pipeline.ΦA restBut
  rw [Pipeline.scopedRest_split_of_list spec0 c [cc0_scratch0, cc0_scratch1] (by decide) (by decide)]
  simp only [scM0, scM1, owns_whole]; try rfl

/-- Before position n of the grid: at the first, the class invariant (the scratch rows at anything); later, the two
    scratch rows at what the point before left, the other scoped buffers and the generator register at some state. -/
def Phi0 (c : Dev nD) : ℕ → sProp 𝕄
  | 0 => Pipeline.ΦA spec0 c
  | n + 1 => iprop(iprop(iprop(owns (c : Thread nD τ) scM0 fullShare (scAt0 V c n) ∗ owns (c : Thread nD τ) scM1 fullShare (scAt1 V c n)) ∗ restBut c) ∗ (∃ r, prngReg c r))

theorem Phi0_zero (c : Dev nD) : Phi0 V c 0 = Pipeline.ΦA spec0 c := rfl
theorem Phi0_succ (c : Dev nD) (n : ℕ) :
    Phi0 V c (n + 1) = iprop(iprop(iprop(owns (c : Thread nD τ) scM0 fullShare (scAt0 V c n) ∗ owns (c : Thread nD τ) scM1 fullShare (scAt1 V c n)) ∗ restBut c) ∗ (∃ r, prngReg c r)) := rfl
theorem Phi0_pos (c : Dev nD) (n : ℕ) (hz : n ≠ 0) :
    Phi0 V c n = iprop(iprop(iprop(owns (c : Thread nD τ) scM0 fullShare (scAt0 V c (n - 1)) ∗ owns (c : Thread nD τ) scM1 fullShare (scAt1 V c (n - 1))) ∗ restBut c) ∗ (∃ r, prngReg c r)) := by
  cases n with
  | zero => exact absurd rfl hz
  | succ n => rfl

/-! ## The pipeline's proof data -/

/-- The proof data of pipeline 0 on core c: the arrays as the region finds them; after the body at point t the input's
    buffer at its block and each output's at the scratch row of that point (what the last point copies there; at the
    earlier points the outputs are idle and this is not consulted); the invariant Phi0; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => scAt0 V c t.val
    | ⟨2, _⟩ => scAt1 V c t.val
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = scAt0 V c t.val := by dsimp only [dat0]
theorem after0_2 (c : Dev nD) (t : Fin cfg0.N) : (dat0 V c).after 2 t = scAt1 V c t.val := by dsimp only [dat0]

theorem Phi_eq0 (c : Dev nD) (t : Fin (cfg0.N + 1)) : (dat0 V c).Φ t = Phi0 V c t.val := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The input's buffer holds its block; the closed forms of the two conditionals say which of
    the three runs the point is; the invariant hands the run the two scratch rows (at anything at the first point, at
    what the point before left afterwards) and takes them back at this point's rows; off the last point the output
    buffers pass through untouched, at the last point they receive the scratch rows. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [Phi_eq0, Phi_eq0, show (t.succ : Fin (cfg0.N + 1)).val = t.val + 1 from rfl, Phi0_succ,
    show (t.castSucc : Fin (cfg0.N + 1)).val = t.val from rfl]
  rw [show (dat0 V c).leavesExact 0 t = owns (c : Thread nD τ) (st0_0 t) fullShare ((dat0 V c).after 0 t) from by
    unfold Dat.leavesExact; rw [live_in t], after0_0]
  have hN : t.val < 20 := lt_of_lt_of_eq t.isLt (show cfg0.N = 20 from N_0)
  by_cases hz : t.val = 0
  · have hF : condFirst (grid0.coords t) := (hcondFirst t).mpr hz
    have hL : ¬ condLast (grid0.coords t) := fun h => by have := (hcondLast t).mp h; omega
    rw [Dat.leavesExact_idle (dat0 V c) 1 t (idle_out1 t hL) (noflush_out1 t hL),
      Dat.leavesExact_idle (dat0 V c) 2 t (idle_out2 t hL) (noflush_out2 t hL)]
    rw [show Phi0 V c t.val = Pipeline.ΦA spec0 c from by rw [hz]; rfl, PhiA0_eq, scAt0_first V c t hz, scAt1_first V c t hz]
    iintro ⟨⟨⟨⟨HS0, HS1⟩, Hrest⟩, Hg⟩, Ho, ⟨%d0, H0⟩, H1, H2⟩
    iapply (run_first c Set.univ (grid0.coords t) _ _ _ _ _ _ _ _ _ _ hF hL (iblk0 V c 0 t) _)
    isplitl [H0]; · iexact H0
    isplitl [HS0]; · iexact HS0
    isplitl [HS1]; · iexact HS1
    iintro ⟨H0, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    iexact H2
  · have hF : ¬ condFirst (grid0.coords t) := fun h => hz ((hcondFirst t).mp h)
    rw [Phi0_pos V c _ hz, scAt0_later V c t hz, scAt1_later V c t hz]
    by_cases hl : t.val = 19
    · have hL : condLast (grid0.coords t) := (hcondLast t).mpr hl
      rw [show (dat0 V c).leavesExact 1 t = owns (c : Thread nD τ) (st0_1 t) fullShare ((dat0 V c).after 1 t) from by
        unfold Dat.leavesExact; rw [live_out1 t hL], after0_1, scAt0_later V c t hz]
      rw [show (dat0 V c).leavesExact 2 t = owns (c : Thread nD τ) (st0_2 t) fullShare ((dat0 V c).after 2 t) from by
        unfold Dat.leavesExact; rw [live_out2 t hL], after0_2, scAt1_later V c t hz]
      iintro ⟨⟨⟨⟨HS0, HS1⟩, Hrest⟩, Hg⟩, Ho, ⟨%d0, H0⟩, ⟨%d1, H1⟩, ⟨%d2, H2⟩⟩
      iapply (run_last c Set.univ (grid0.coords t) _ _ _ _ _ _ _ _ _ _ hF hL (iblk0 V c 0 t) _ _ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      iexact H2
    · have hL : ¬ condLast (grid0.coords t) := fun h => hl ((hcondLast t).mp h)
      rw [Dat.leavesExact_idle (dat0 V c) 1 t (idle_out1 t hL) (noflush_out1 t hL),
        Dat.leavesExact_idle (dat0 V c) 2 t (idle_out2 t hL) (noflush_out2 t hL)]
      iintro ⟨⟨⟨⟨HS0, HS1⟩, Hrest⟩, Hg⟩, Ho, ⟨%d0, H0⟩, H1, H2⟩
      iapply (run_mid c Set.univ (grid0.coords t) _ _ _ _ _ _ _ _ _ _ hF hL (iblk0 V c 0 t) _ _ _)
      isplitl [H0]; · iexact H0
      isplitl [HS0]; · iexact HS0
      isplitl [HS1]; · iexact HS1
      iintro ⟨H0, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into the invariant and out of it -/

/-- What the region entry provides is the invariant before the first point. -/
theorem Phi_in0 (c : Dev nD) : (Pipeline.ΦA spec0 c : sProp 𝕄) ⊢ (dat0 V c).Φ 0 := by
  rw [Phi_eq0]; exact Idealize.SL.BI.Entails.refl _

/-- After the last point the invariant gives the class invariant back: what the scratch rows hold is forgotten. -/
theorem Phi_out0 (c : Dev nD) : (dat0 V c).Φ (Fin.last cfg0.N) ⊢ (Pipeline.ΦA spec0 c : sProp 𝕄) := by
  rw [Phi_eq0, Phi0_pos V c _ (by rw [Fin.val_last]; have : cfg0.N = 20 := N_0; omega), PhiA0_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- The class invariant is the generator register beside the scoped rest, in either order. -/
theorem PhiA_of_parts (c : Dev nD) :
    iprop((∃ r, prngReg c r) ∗ Pipeline.scopedRest (Ix := Unit) (Name := ℕ) (U := UR sig nD τ) (Lvl := ℕ) (Val := Elt F) spec0 c)
      ⊢ (Pipeline.ΦA spec0 c : sProp 𝕄) := by
  unfold Pipeline.ΦA
  iintro ⟨Hp, Hr⟩
  isplitl [Hr]; · iexact Hr
  iexact Hp

theorem parts_of_PhiA (c : Dev nD) :
    (Pipeline.ΦA spec0 c : sProp 𝕄)
      ⊢ iprop((∃ r, prngReg c r) ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  iexact Hr

/-- ENTRY: the generator register at some state and the scoped rest make the invariant before the first point. -/
theorem hin0 (c : Dev nD) :
    iprop((∃ r, prngReg c r) ∗ Pipeline.scopedRest (Ix := Unit) (Name := ℕ) (U := UR sig nD τ) (Lvl := ℕ) (Val := Elt F) spec0 c)
      ⊢ (dat0 V c).Φ 0 :=
  (PhiA_of_parts c).trans (Phi_in0 V c)

/-- EXIT: the invariant after the last point gives them back. -/
theorem hout0 (c : Dev nD) :
    (dat0 V c).Φ (Fin.last cfg0.N)
      ⊢ iprop((∃ r, prngReg c r) ∗ Pipeline.scopedRest (Ix := Unit) (Name := ℕ) (U := UR sig nD τ) (Lvl := ℕ) (Val := Elt F) spec0 c) :=
  (Phi_out0 V c).trans (parts_of_PhiA c)

/-- The same in the region record's own shapes: with the prefetched tables (this call has none: any P, dropped) at
    the entry, -/
theorem hin0R (c : Dev nD) (P : sProp 𝕄) :
    iprop((∃ r, prngReg c r) ∗ P ∗ Pipeline.scopedRest (Ix := Unit) (Name := ℕ) (U := UR sig nD τ) (Lvl := ℕ) (Val := Elt F) spec0 c)
      ⊢ (dat0 V c).Φ 0 := by
  have h := hin0 V c
  iintro ⟨Hp, -, Hr⟩
  iapply h
  isplitl [Hp]; · iexact Hp
  iexact Hr

/-- and with no semaphore of the kernel's own at the exit. -/
theorem hout0R (c : Dev nD) :
    (dat0 V c).Φ (Fin.last cfg0.N)
      ⊢ iprop((∃ r, prngReg c r) ∗ (BI.emp : sProp 𝕄) ∗ Pipeline.scopedRest (Ix := Unit) (Name := ℕ) (U := UR sig nD τ) (Lvl := ℕ) (Val := Elt F) spec0 c) := by
  have h := hout0 V c
  iintro H
  ihave H2 := h $$ H
  icases H2 with ⟨Hp, Hr⟩
  isplitl [Hp]; · iexact Hp
  isplitr; · iempintro
  iexact Hr

/-! ## The scratch rows through the payloads themselves -/

theorem off_row : (![0, 0] : Fin S1x128.rank → Nat) = fun _ => 0 := by funext a; fin_cases a <;> rfl
theorem off_blk : (![0, 0] : Fin S5000x128.rank → Nat) = fun _ => 0 := by funext a; fin_cases a <;> rfl

/-- A whole-row store leaves its payload; a whole-buffer load reads the buffer. -/
theorem zeroSum_eq : zeroSum (F := F) = k0_pay1 := View.canon_unit_zero off_row inb_S1x128_S1x128_0_0 _
theorem zeroSq_eq : zeroSq (F := F) = k0_pay2 := View.canon_unit_zero off_row inb_S1x128_S1x128_0_0 _
theorem addSum_eq (x : Vec F S5000x128 .f32) (s : Vec F S1x128 .f32) : addSum x s = k0_pay3 x s := by
  unfold addSum
  rw [View.canon_unit_zero off_row inb_S1x128_S1x128_0_0, View.ld_unit_zero off_blk inb_S5000x128_S5000x128_0_0 x,
    View.ld_unit_zero off_row inb_S1x128_S1x128_0_0 s]
theorem addSq_eq (x : Vec F S5000x128 .f32) (s : Vec F S1x128 .f32) : addSq x s = k0_pay4 x s := by
  unfold addSq
  rw [View.canon_unit_zero off_row inb_S1x128_S1x128_0_0, View.ld_unit_zero off_blk inb_S5000x128_S5000x128_0_0 x,
    View.ld_unit_zero off_row inb_S1x128_S1x128_0_0 s]

/-- The recursion of the sum scratch through the payloads: after the first point the first block's column sums over the
    row of zeros, after each later point that block's column sums over what the point before left. -/
theorem scAt0_zero_pay (c : Dev nD) : scAt0 V c 0 = k0_pay3 (iblk0 V c 0 ⟨0, N0_pos⟩) k0_pay1 := by
  rw [scAt0_zero, addSum_eq, zeroSum_eq, ← xAt_eq V c ⟨0, N0_pos⟩]
theorem scAt0_succ_pay (c : Dev nD) (n : ℕ) (h : n + 1 < cfg0.N) :
    scAt0 V c (n + 1) = k0_pay3 (iblk0 V c 0 ⟨n + 1, h⟩) (scAt0 V c n) := by
  rw [scAt0_succ, addSum_eq, ← xAt_eq V c ⟨n + 1, h⟩]
/-- The recursion of the sum-of-squares scratch, likewise. -/
theorem scAt1_zero_pay (c : Dev nD) : scAt1 V c 0 = k0_pay4 (iblk0 V c 0 ⟨0, N0_pos⟩) k0_pay2 := by
  rw [scAt1_zero, addSq_eq, zeroSq_eq, ← xAt_eq V c ⟨0, N0_pos⟩]
theorem scAt1_succ_pay (c : Dev nD) (n : ℕ) (h : n + 1 < cfg0.N) :
    scAt1 V c (n + 1) = k0_pay4 (iblk0 V c 0 ⟨n + 1, h⟩) (scAt1 V c n) := by
  rw [scAt1_succ, addSq_eq, ← xAt_eq V c ⟨n + 1, h⟩]

/-- What the two outputs' staging buffers hold after the last point: the scratch rows after point 19. -/
theorem after0_1_last (c : Dev nD) (t : Fin cfg0.N) (ht : t.val = 19) : (dat0 V c).after 1 t = scAt0 V c 19 := by
  rw [after0_1, ht]
theorem after0_2_last (c : Dev nD) (t : Fin cfg0.N) (ht : t.val = 19) : (dat0 V c).after 2 t = scAt1 V c 19 := by
  rw [after0_2, ht]

end Cert.KernelIdeal.Hand
end
-- ==== Proof.KI.Apply.lean ====
/- Region 1 of the forward pass, the kernel that centres a block of 5000 rows by the column means, scales it by the
   inverse standard deviations and takes the sign: the proof data of its pipeline at a parameter V (the TensorCore's
   buffer contents when the region is entered) and its body obligation. The body reads the three input staging
   buffers whole, reads the output staging buffer once (the value is dropped) and stores ONE whole block, so what
   the output buffer holds afterwards is the stored payload of the three input blocks. -/
import proofs.«151110_j89026082111679_2_alg».proof.Proof.Gen.KernelIdeal.Launch
import proofs.«151110_j89026082111679_2_alg».proof.Proof.Gen.KernelIdeal.Skeleton
import proofs.«151110_j89026082111679_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Normalize
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of rows: its staging buffer holds the block of the point, for any proof data over V's arrays whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The row of means is fetched at the first point only; its block index never moves, so at every later point the
    staging buffer still holds the row. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The row of inverse standard deviations, likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every buffer whole -/

theorem offsets_zero : (![0, 0] : Fin 2 → Nat) = fun _ => 0 := funext fun a => by fin_cases a <;> rfl

/-- A whole block of 5000 rows by 128 columns. -/
abbrev rowsBlock : Rect S5000x128 := Rect.unit (s := S5000x128) ![0, 0] S5000x128.size inb_S5000x128_S5000x128_0_0
/-- A whole row of 128 per-column statistics. -/
abbrev statRow : Rect S1x128 := Rect.unit (s := S1x128) ![0, 0] S1x128.size inb_S1x128_S1x128_0_0

/-! ## What the body leaves in the output buffer -/

/-- The output staging buffer after the body, from the three input blocks: its one store as a piece. -/
def out1_3 (x0 : Vec F S5000x128 .f32) (x1 : Vec F S1x128 .f32) (x2 : Vec F S1x128 .f32) : Vec F S5000x128 .f32 :=
  View.canon [⟨rowsBlock, k1_pay1 (View.ld x0 rowsBlock) (View.ld x1 statRow) (View.ld x2 statRow)⟩]

/-- The one store is of the whole block, so it covers the buffer. -/
theorem cover1_3 (p0 : Vec F S5000x128 .f32) (y : S5000x128.Idx) :
    ∃ pc ∈ ([⟨rowsBlock, p0⟩] : List (View.Piece (Elt F) S5000x128 .f32)), y ∈ pc.1.set :=
  ⟨_, List.mem_singleton_self _, View.mem_set_unit_zero offsets_zero inb_S5000x128_S5000x128_0_0 y⟩

/-- Whole loads read the buffers and the whole store leaves its payload: the output is the payload of the blocks. -/
theorem out1_3_eq (x0 : Vec F S5000x128 .f32) (x1 : Vec F S1x128 .f32) (x2 : Vec F S1x128 .f32) :
    out1_3 x0 x1 x2 = k1_pay1 x0 x1 x2 := by
  unfold out1_3
  rw [View.canon_unit_zero (S := S5000x128) offsets_zero inb_S5000x128_S5000x128_0_0,
    View.ld_unit_zero (S := S5000x128) offsets_zero inb_S5000x128_S5000x128_0_0,
    View.ld_unit_zero (S := S1x128) offsets_zero inb_S1x128_S1x128_0_0,
    View.ld_unit_zero (S := S1x128) offsets_zero inb_S1x128_S1x128_0_0]

/-! ## The body's triple -/

set_option maxHeartbeats 1000000 in
/-- The body on whole staging buffers, the inputs' at contents x0 x1 x2 and the output's at anything, runs to the
    continuation holding the inputs' as they were and the output's at out1_3 of them. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__bn_apply_kernel i arg1 harg1 arg2 harg2 arg3 harg3 arg4 harg4) K := by
  simp only [cc1__bn_apply_kernel_eq_skeleton]; unfold cc1__bn_apply_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the pipeline on core c: the arrays as the region finds them; after the body at point t each
    input's buffer at its block and the output's at out1_3 of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- The output window after the body, over the payload directly (the one store is of the whole block). -/
theorem after1_3_payload (c : Dev nD) (t : Fin cfg1.N) :
    (dat1 V c).after 3 t = k1_pay1 (iblk1 V c 0 t) (iblk1 V c 1 t) (iblk1 V c 2 t) :=
  (after1_3 V c t).trans (out1_3_eq _ _ _)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, the output's holds something, so the triple applies;
    the invariant and what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Normalize

end Cert.KernelIdeal.Hand

end
-- ==== Proof.KI.Classify.lean ====
/- Region 2 of the forward pass, the classifier kernel on a block of 5000 rows: the block and the transposed weights
   rounded to bf16 and multiplied, the bias row added, and the logarithm of the softmax taken along each row of 40
   classes. Here: the proof data of its pipeline at a parameter V (the TensorCore's buffer contents when the region
   is entered) and its body obligation. The body reads the three input staging buffers whole, reads the output
   staging buffer once (the value is dropped) and stores ONE whole block, so what the output buffer holds afterwards
   is the stored payload of the three input blocks. -/
import proofs.«151110_j89026082111679_2_alg».proof.Proof.Gen.KernelIdeal.Launch
import proofs.«151110_j89026082111679_2_alg».proof.Proof.Gen.KernelIdeal.Skeleton
import proofs.«151110_j89026082111679_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Classifier
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of hidden rows: its staging buffer holds the block of the point, for any proof data over V's arrays
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The transposed weights are fetched at the first point only; their block index never moves, so at every later
    point the staging buffer still holds them. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row, likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every buffer whole -/

theorem offsets_zero2 : (![0, 0] : Fin 2 → Nat) = fun _ => 0 := funext fun a => by fin_cases a <;> rfl

/-- A whole block of 5000 hidden rows by 128 features. -/
abbrev hiddenBlock : Rect S5000x128 := Rect.unit (s := S5000x128) ![0, 0] S5000x128.size inb_S5000x128_S5000x128_0_0
/-- The whole transposed weight matrix, 128 features by 40 classes. -/
abbrev weightMat : Rect S128x40 := Rect.unit (s := S128x40) ![0, 0] S128x40.size inb_S128x40_S128x40_0_0
/-- The whole bias row of 40 classes. -/
abbrev biasRow : Rect S1x40 := Rect.unit (s := S1x40) ![0, 0] S1x40.size inb_S1x40_S1x40_0_0
/-- A whole block of 5000 rows of 40 class scores. -/
abbrev scoreBlock : Rect S5000x40 := Rect.unit (s := S5000x40) ![0, 0] S5000x40.size inb_S5000x40_S5000x40_0_0

/-! ## What the body leaves in the output buffer -/

/-- The output staging buffer after the body, from the three input blocks: its one store as a piece. -/
def out2_3 (x0 : Vec F S5000x128 .f32) (x1 : Vec F S128x40 .f32) (x2 : Vec F S1x40 .f32) : Vec F S5000x40 .f32 :=
  View.canon [⟨scoreBlock, k2_pay1 (View.ld x0 hiddenBlock) (View.ld x1 weightMat) (View.ld x2 biasRow)⟩]

/-- The one store is of the whole block, so it covers the buffer. -/
theorem cover2_3 (p0 : Vec F S5000x40 .f32) (y : S5000x40.Idx) :
    ∃ pc ∈ ([⟨scoreBlock, p0⟩] : List (View.Piece (Elt F) S5000x40 .f32)), y ∈ pc.1.set :=
  ⟨_, List.mem_singleton_self _, View.mem_set_unit_zero offsets_zero2 inb_S5000x40_S5000x40_0_0 y⟩

/-- Whole loads read the buffers and the whole store leaves its payload: the output is the payload of the blocks. -/
theorem out2_3_eq (x0 : Vec F S5000x128 .f32) (x1 : Vec F S128x40 .f32) (x2 : Vec F S1x40 .f32) :
    out2_3 x0 x1 x2 = k2_pay1 x0 x1 x2 := by
  unfold out2_3
  rw [View.canon_unit_zero (S := S5000x40) offsets_zero2 inb_S5000x40_S5000x40_0_0,
    View.ld_unit_zero (S := S5000x128) offsets_zero2 inb_S5000x128_S5000x128_0_0,
    View.ld_unit_zero (S := S128x40) offsets_zero2 inb_S128x40_S128x40_0_0,
    View.ld_unit_zero (S := S1x40) offsets_zero2 inb_S1x40_S1x40_0_0]

/-! ## The body's triple -/

set_option maxHeartbeats 1000000 in
/-- The body on whole staging buffers, the inputs' at contents x0 x1 x2 and the output's at anything, runs to the
    continuation holding the inputs' as they were and the output's at out2_3 of them. -/
theorem sound_kernel2 (c : Dev nD) (E : Set ℕ) (i : grid2.Coords)
    (arg1 : Memref sig .tc .vmem S5000x128 .f32) (harg1 : arg1.IsWhole) (arg2 : Memref sig .tc .vmem S128x40 .f32) (harg2 : arg2.IsWhole)
    (arg3 : Memref sig .tc .vmem S1x40 .f32) (harg3 : arg3.IsWhole) (arg4 : Memref sig .tc .vmem S5000x40 .f32) (harg4 : arg4.IsWhole)
    (x0 : Vec F S5000x128 .f32) (x1 : Vec F S128x40 .f32) (x2 : Vec F S1x40 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__classifier_kernel i arg1 harg1 arg2 harg2 arg3 harg3 arg4 harg4) K := by
  simp only [cc2__classifier_kernel_eq_skeleton]; unfold cc2__classifier_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the pipeline on core c: the arrays as the region finds them; after the body at point t each
    input's buffer at its block and the output's at out2_3 of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- The output window after the body, over the payload directly (the one store is of the whole block). -/
theorem after2_3_payload (c : Dev nD) (t : Fin cfg2.N) :
    (dat2 V c).after 3 t = k2_pay1 (iblk2 V c 0 t) (iblk2 V c 1 t) (iblk2 V c 2 t) :=
  (after2_3 V c t).trans (out2_3_eq _ _ _)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, the output's holds something, so the triple applies;
    the invariant and what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Classifier

end Cert.KernelIdeal.Hand

end
-- ==== Proof.KI.Run.lean ====
/- The forward pass as one run. @main is six segments in order: the degree normalisation of the graph (host
   operations), the column sums and sums of squares of the features (region 0, twenty blocks of 5000 rows), the means
   and inverse standard deviations (host operations), the sign of the normalised features (region 1), the propagation
   over the graph and the classifier's operands (host operations), the classifier (region 2). This module writes down
   what every unscoped buffer of a core holds at each of the seven boundaries, as a fold from the launch memory — a
   host stretch applies its operations in order, a region replaces its arrays by what its pipeline leaves after the
   last grid point and keeps every other buffer —, presents each region to the library as a segment entered from one
   boundary's contents and left at the next one's, and concludes: every weakly fair execution terminates, nothing
   faulting, and every final state holds, in each unscoped buffer, the last boundary's contents. The four argument
   arrays are written by no host operation and are at most read by a region, so they end as launched. -/
import proofs.«151110_j89026082111679_2_alg».proof.Proof.Gen.KernelIdeal.Launch
import proofs.«151110_j89026082111679_2_alg».proof.Proof.Gen.KernelIdeal.Skeleton
import proofs.«151110_j89026082111679_2_alg».proof.Proof.Gen.KernelIdeal.Points
import proofs.«151110_j89026082111679_2_alg».proof.Proof.Gen.KernelIdeal.Regions
import proofs.«151110_j89026082111679_2_alg».proof.Proof.KI.Stats
import proofs.«151110_j89026082111679_2_alg».proof.Proof.KI.Apply
import proofs.«151110_j89026082111679_2_alg».proof.Proof.KI.Classify
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The forward pass as a run of six segments

@main is: the degree normalisation of the graph (host), the column statistics of x (region 0), the means and inverse
standard deviations (host), the sign of the normalised features (region 1), the propagation over the graph and the
operands of the classifier (host), the classifier (region 2). The contents of every unscoped buffer at the seven
boundaries are written down as a fold from the launch memory, region by region. -/

/-- Core c's buffers at launch. -/
abbrev W0 : Dev nD → Valuation τ sig (Elt F) := fun c b => (s₀ m ρ).mem ((c : Dev nD), b)
/-- After the first host stretch: what the statistics region is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- When the statistics region returns: its three arrays at what its pipeline leaves after the last point, every
    other buffer as the region found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem arrays_left0 (c : Dev nD) (w : Fin cfg0.W) : (dat0 (V1 m ρ) c).arrAt w cfg0.N = V2 m ρ c (Pipeline.arrRef spec0 w) :=
  (W2_arr m ρ c w).symm
theorem others_kept0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (means, inverse standard deviations): what the sign region is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- When the sign region returns. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem arrays_left1 (c : Dev nD) (w : Fin cfg1.W) : (dat1 (V3 m ρ) c).arrAt w cfg1.N = V4 m ρ c (Pipeline.arrRef spec1 w) :=
  (W4_arr m ρ c w).symm
theorem others_kept1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (propagation over the graph, the classifier's operands): what the classifier is
    entered from. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- When the classifier returns: the contents @main ends with. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem arrays_left2 (c : Dev nD) (w : Fin cfg2.W) : (dat2 (V5 m ρ) c).arrAt w cfg2.N = V6 m ρ c (Pipeline.arrRef spec2 w) :=
  (W6_arr m ρ c w).symm
theorem others_kept2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- The host stretches' contents are the library's fold of their operations, by definition. -/
theorem W1_eq (c : Dev nD) : W1 m ρ c = StableHlo.after hostOps0 (W0 m ρ c) := rfl
theorem W3_eq (c : Dev nD) : W3 m ρ c = StableHlo.after hostOps1 (W2 m ρ c) := rfl
theorem W5_eq (c : Dev nD) : W5 m ρ c = StableHlo.after hostOps2 (W4 m ρ c) := rfl

/-! ## A buffer no host operation writes keeps its contents across a stretch -/

theorem W1_kept (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
theorem W3_kept (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h
theorem W5_kept (c : Dev nD) (r : Ref sig .tc) (h : r ∉ (hostOps2_W : List (Ref sig .tc))) :
    W5 m ρ c (Proc.devRef .tc r) = W4 m ρ c (Proc.devRef .tc r) :=
  StableHlo.after_of_writes_sub hostOps2 _ hostOps2_writes h

/-! ## The four arguments end as launched

x is read by the statistics and the sign regions through an input window, which a pipeline leaves as it found it; the
weights, the bias and the edge list are no region's array; no host operation writes an argument. -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_kept m ρ c main_arg0 (by decide)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := W3_kept m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_kept m ρ c main_arg0 (by decide)
    _ = m ((c : Thread nD τ).loc main_arg0) := rfl

/-- A buffer that is no region's array and that no host operation writes ends as launched. -/
theorem W6_untouched (c : Dev nD) (r : Ref sig .tc)
    (h0 : r ∉ (hostOps0_W : List (Ref sig .tc))) (h1 : r ∉ (hostOps1_W : List (Ref sig .tc))) (h2 : r ∉ (hostOps2_W : List (Ref sig .tc)))
    (a0 : ∀ w, Pipeline.arrRef spec0 w ≠ r) (a1 : ∀ w, Pipeline.arrRef spec1 w ≠ r) (a2 : ∀ w, Pipeline.arrRef spec2 w ≠ r) :
    W6 m ρ c (Proc.devRef .tc r) = m ((c : Thread nD τ).loc r) :=
  calc W6 m ρ c (Proc.devRef .tc r)
    _ = W5 m ρ c (Proc.devRef .tc r) := W6_of_ne m ρ c r a2
    _ = W4 m ρ c (Proc.devRef .tc r) := W5_kept m ρ c r h2
    _ = W3 m ρ c (Proc.devRef .tc r) := W4_of_ne m ρ c r a1
    _ = W2 m ρ c (Proc.devRef .tc r) := W3_kept m ρ c r h1
    _ = W1 m ρ c (Proc.devRef .tc r) := W2_of_ne m ρ c r a0
    _ = W0 m ρ c (Proc.devRef .tc r) := W1_kept m ρ c r h0
    _ = m ((c : Thread nD τ).loc r) := rfl

theorem W6_main_arg1 (c : Dev nD) : W6 m ρ c (Proc.devRef .tc main_arg1) = m ((c : Thread nD τ).loc main_arg1) :=
  W6_untouched m ρ c main_arg1 (by decide) (by decide) (by decide) (by decide) (by decide) (by decide)
theorem W6_main_arg2 (c : Dev nD) : W6 m ρ c (Proc.devRef .tc main_arg2) = m ((c : Thread nD τ).loc main_arg2) :=
  W6_untouched m ρ c main_arg2 (by decide) (by decide) (by decide) (by decide) (by decide) (by decide)
theorem W6_main_arg3 (c : Dev nD) : W6 m ρ c (Proc.devRef .tc main_arg3) = m ((c : Thread nD τ).loc main_arg3) :=
  W6_untouched m ρ c main_arg3 (by decide) (by decide) (by decide) (by decide) (by decide) (by decide)

/-! ## The proof data family and the thread state -/

/-- Every pipeline's proof data at its region's entry contents: a literal match on the pipeline index, so that the
    library's pinned configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues,
    at nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the final contents, the generator register at
    some state. -/
abbrev Tₙ (c : Dev nD) : sProp 𝕄 := iprop(StableHlo.held (c : Thread nD τ) (Pipeline.ucRefs τ sig) (W6 m ρ c) ∗ ∃ r, prngReg c r)

/-! ## The three regions as segments -/

-- a library lemma stated over the pinned configuration unifies with the printed one only when unification may unfold
-- plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    have h := hin0 (V1 m ρ) c
    iintro ⟨Hp, -, Hr⟩
    iapply h
    isplitl [Hp]; · iexact Hp
    iexact Hr
  hout c := by
    rw [Pipeline.ownSems0_none, show (pdats m ρ 0 c).Φ (Fin.last _) = (dat0 (V1 m ρ) c).Φ (Fin.last cfg0.N) from rfl]
    have h := hout0 (V1 m ρ) c
    iintro HΦ
    ihave H := h $$ HΦ
    icases H with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (arrays_left0 m ρ c) (others_kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (arrays_left1 m ρ c) (others_kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (arrays_left2 m ρ c) (others_kept2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

/-- @main is the run of the segments: the generated chain of its items, and the segments' run as the chain of their
    fragments. -/
theorem main_run (c : Dev nD) : main (F := F) c = Pipeline.Seg.run (segs m ρ) := by
  rw [main_chain c, Pipeline.Seg.run_eq_chain]
  rfl

set_option backward.isDefEq.respectTransparency.types false in
/-- THE RUN: from any memory with zero counters every weakly fair execution of @main on the TensorCores terminates,
    nothing faulting, and in every final state each unscoped buffer of every core holds the folded contents W6. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The same, read at a TensorCore reference that is not scoped. -/
theorem run_all_tc : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W6 m ρ c (Proc.devRef .tc b)) :=
  (θ_run _ _ _).mono (fun r h c b hb => h c _ (mem_uc b hb)) (run_all m ρ)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩) (run_all m ρ)

end Cert.KernelIdeal.Hand

end
-- ==== Proof.Consts.lean ====
/-
  The float literals the two programs spell whose VALUE matters to the mathematics, as the extended reals their
  binary32 patterns denote: zero, one, minus one, one hundred thousand (the batch size both programs divide by) and
  minus infinity (the starting value of a row maximum). Every other literal (the variance guard 1e-5) occurs as the
  same pattern on both sides and is never evaluated.
-/
import Idealize.ShloMosaic.PureOps.Ideal

noncomputable section

namespace Cert.Consts

open Idealize.ShloMosaic

/-- The pattern of `+0.0` denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- The pattern of `-1.0` denotes `-1`. -/
theorem ofBits_neg_one : Ideal.ofBits .f32 0xBF800000#32 = -1 := by
  simp [Ideal.ofBits, Ideal.ieee, -EReal.coe_mul]; norm_num

/-- The pattern of `100000.0` denotes the real `100000`. -/
theorem ofBits_1e5 : Ideal.ofBits .f32 0x47C35000#32 = ((100000 : ℝ) : EReal) := by
  simp [Ideal.ofBits, Ideal.ieee, -EReal.coe_mul]; norm_num

/-- The pattern of `-inf` denotes the bottom element. -/
theorem ofBits_neg_inf : Ideal.ofBits .f32 0xFF800000#32 = ⊥ := by
  simp [Ideal.ofBits, Ideal.ieee]

end Cert.Consts

end
-- ==== Proof.KI.PayloadStats.lean ====
/-
  The first kernel's arithmetic on one block, read at an entry: the two accumulator rows start at zero, and one grid
  point adds to entry `j` of the first the sum over the block's 5000 rows of column `j`, to entry `j` of the second the
  sum of the squares of that column.
-/
import proofs.«151110_j89026082111679_2_alg».proof.Proof.Gen.KernelIdeal.Skeleton
import proofs.«151110_j89026082111679_2_alg».proof.Proof.Consts
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- Summing a block over its rows at column `j`: the reduced index `j` with the row `r` put back is `(r, j)`. -/
theorem lift_rows (j : Fin 128) (r : Fin 5000) :
    (reduces_S5000x128_S128 : S5000x128.Reduces [0] S128).lift (ix1 j) r = ix2 r j := by
  funext a
  match a with
  | ⟨0, _⟩ => rfl
  | ⟨1, _⟩ => rfl

/-- The accumulator of column sums after one more block: what it held plus the block's column sums. -/
theorem colsum_payload (v3 : Vec Ideal S5000x128 .f32) (v4 : Vec Ideal S1x128 .f32) (j : Fin 128) :
    k0_pay3 (F := Ideal) v3 v4 (ix2 (0 : Fin 1) j) = v4 (ix2 (0 : Fin 1) j) + ∑ r : Fin 5000, v3 (ix2 r j) := by
  unfold k0_pay3
  dsimp only
  rw [shapeCast_self, addf_apply]
  refine congrArg (v4 (ix2 (0 : Fin 1) j) + ·) ?_
  rw [shapeCast_a_1a_apply]
  refine (Ideal.multiReduction_add_single v3 0x00000000#32 reduces_S5000x128_S128 _ _ (ix1 j)).trans ?_
  exact Finset.sum_congr rfl fun r _ => congrArg v3 (lift_rows j r)

/-- The accumulator of column sums of squares after one more block. -/
theorem colsq_payload (v3 : Vec Ideal S5000x128 .f32) (v11 : Vec Ideal S1x128 .f32) (j : Fin 128) :
    k0_pay4 (F := Ideal) v3 v11 (ix2 (0 : Fin 1) j)
      = v11 (ix2 (0 : Fin 1) j) + ∑ r : Fin 5000, v3 (ix2 r j) * v3 (ix2 r j) := by
  unfold k0_pay4
  dsimp only
  rw [shapeCast_self, addf_apply]
  refine congrArg (v11 (ix2 (0 : Fin 1) j) + ·) ?_
  rw [shapeCast_a_1a_apply]
  refine (Ideal.multiReduction_add_single (mulf v3 v3) 0x00000000#32 reduces_S5000x128_S128 _ _ (ix1 j)).trans ?_
  refine Finset.sum_congr rfl fun r _ => ?_
  rw [lift_rows j r, mulf_apply]

/-- Both accumulators start at the zero row. -/
theorem zero_payload_sum (j : Fin 128) : k0_pay1 (F := Ideal) (ix2 (0 : Fin 1) j) = 0 := by
  unfold k0_pay1
  rw [shapeCast_self, broadcast_apply]
  exact Cert.Consts.ofBits_zero

theorem zero_payload_sq (j : Fin 128) : k0_pay2 (F := Ideal) (ix2 (0 : Fin 1) j) = 0 := by
  unfold k0_pay2
  rw [shapeCast_self, broadcast_apply]
  exact Cert.Consts.ofBits_zero

end Cert.KernelIdeal.Hand

end
-- ==== Proof.LibFiniteAffine.lean ====
/-
  Laws on the extended reals used to join a kernel that batch-normalises through a folded scale and shift with
  a reference that subtracts the mean first. All are statements about FINITE values (real numbers seen as
  extended reals) except the two about the sign, which hold at the infinities too.

  * a value plus (another minus it) is the other;  a value minus itself is zero;
  * `h·(γ·r) + (β − (m·γ)·r) = ((h − m)·r)·γ + β`;
  * the mean of the squared deviations from the mean is the mean of the squares minus the squared mean;
  * clipping to `[−1, 1]` does not change the sign;
  * "−1 below zero, 1 otherwise, the value itself where its magnitude is not positive" is the sign.
-/
import Idealize.ShloMosaic.PureOps.Ideal

noncomputable section

namespace Cert.Lib.FiniteAffine

open Idealize.ShloMosaic

/-- Adding back a difference: on finite values `t + (s − t) = s`. (At an infinite `t` the difference is not
    defined by cancellation, which is why the statement is about reals.) -/
theorem coe_add_sub_cancel (t s : ℝ) : (t : EReal) + ((s : EReal) - (t : EReal)) = (s : EReal) := by
  rw [← EReal.coe_sub, ← EReal.coe_add]
  congr 1
  ring

/-- A finite value minus itself is zero. -/
theorem coe_sub_self (t : ℝ) : (t : EReal) - (t : EReal) = 0 := by
  rw [← EReal.coe_sub, sub_self, EReal.coe_zero]

/-- The folded affine form equals the centred one: scaling `h` by `γ·r` and adding `β − (m·γ)·r` is
    centring at `m`, scaling by `r`, then by `γ`, and adding `β` — distributivity, which needs every value
    finite. -/
theorem affine_folded_eq_centred (h m r g b : ℝ) :
    (h : EReal) * ((g : EReal) * (r : EReal)) + ((b : EReal) - ((m : EReal) * (g : EReal)) * (r : EReal))
      = (((h : EReal) - (m : EReal)) * (r : EReal)) * (g : EReal) + (b : EReal) := by
  simp only [← EReal.coe_mul, ← EReal.coe_sub, ← EReal.coe_add]
  congr 1
  ring

/-- Over a finite batch of `n ≠ 0` reals, the mean of the squared deviations from the mean is the mean of the
    squares minus the square of the mean. -/
theorem mean_sq_dev_eq {ι : Type*} [Fintype ι] (f : ι → ℝ) (n : ℝ) (hn : (Fintype.card ι : ℝ) = n) (hn0 : n ≠ 0) :
    (∑ i, (f i - (∑ j, f j) / n) * (f i - (∑ j, f j) / n)) / n
      = (∑ i, f i * f i) / n - ((∑ j, f j) / n) * ((∑ j, f j) / n) := by
  have hS : ∑ j, f j = ((∑ j, f j) / n) * n := by field_simp
  generalize (∑ j, f j) / n = μ at hS ⊢
  have h1 : ∑ i, (f i - μ) * (f i - μ) = ∑ i, f i * f i - 2 * μ * ∑ i, f i + n * (μ * μ) := by
    have : ∀ i, (f i - μ) * (f i - μ) = f i * f i - 2 * μ * f i + μ * μ := fun i => by ring
    simp only [this, Finset.sum_add_distrib, Finset.sum_sub_distrib, ← Finset.mul_sum, Finset.sum_const,
      Finset.card_univ, nsmul_eq_mul, hn]
    ring
  rw [h1, hS]
  field_simp
  ring

/-- Clipping a real to `[−1, 1]` keeps its sign. -/
theorem sign_clip_real (r : ℝ) : SignType.sign (min 1 (max (-1) r)) = SignType.sign r := by
  rcases lt_trichotomy r 0 with h | h | h
  · have h1 : max (-1) r < 0 := max_lt (by norm_num) h
    have h2 : min 1 (max (-1) r) < 0 := lt_of_le_of_lt (min_le_right _ _) h1
    rw [sign_neg h2, sign_neg h]
  · subst h
    norm_num
  · have h2 : 0 < min 1 (max (-1) r) := lt_min (by norm_num) (lt_of_lt_of_le h (le_max_right _ _))
    rw [sign_pos h2, sign_pos h]

/-- The inclusion of the reals is monotone, so it commutes with the larger and the smaller of two reals. -/
theorem coe_max_real (a b : ℝ) : ((max a b : ℝ) : EReal) = max (a : EReal) (b : EReal) :=
  EReal.coe_strictMono.monotone.map_max
theorem coe_min_real (a b : ℝ) : ((min a b : ℝ) : EReal) = min (a : EReal) (b : EReal) :=
  EReal.coe_strictMono.monotone.map_min

/-- Clipping an extended real to `[−1, 1]` keeps its sign: at `−∞` the clip is `−1`, at `+∞` it is `1`. -/
theorem sign_clip (t : EReal) : Ideal.sign (min (1 : EReal) (max (-1 : EReal) t)) = Ideal.sign t := by
  have hm1 : (-1 : EReal) = ((-1 : ℝ) : EReal) := by rw [EReal.coe_neg, EReal.coe_one]
  have h1 : (1 : EReal) = ((1 : ℝ) : EReal) := EReal.coe_one.symm
  have hle : (-1 : EReal) ≤ 1 := by rw [hm1, h1]; exact EReal.coe_le_coe_iff.mpr (by norm_num)
  induction t using EReal.rec with
  | bot =>
    rw [max_eq_left bot_le, min_eq_right hle, Ideal.sign_bot, hm1, Ideal.sign_coe, sign_neg (by norm_num : (-1 : ℝ) < 0)]
    simp
  | coe r =>
    rw [hm1, h1, ← coe_max_real, ← coe_min_real, Ideal.sign_coe, Ideal.sign_coe, sign_clip_real]
  | top =>
    rw [max_eq_right le_top, min_eq_left le_top, Ideal.sign_top, h1, Ideal.sign_coe, sign_pos (by norm_num : (0 : ℝ) < 1)]
    simp

/-- The sign spelt with comparisons: `−1` below zero and `1` otherwise, but the value itself where its magnitude
    `max t (−t)` is not positive — that is, at zero. -/
theorem sign_by_comparisons (t : EReal) :
    (if 0 < max t (-t) then (if t < 0 then (-1 : EReal) else 1) else t) = Ideal.sign t := by
  induction t using EReal.rec with
  | bot => simp
  | coe r =>
    rw [Ideal.sign_coe]
    rcases lt_trichotomy r 0 with h | h | h
    · have hE : ((r : ℝ) : EReal) < 0 := by exact_mod_cast h
      have hpos : (0 : EReal) < max (r : EReal) (-(r : EReal)) :=
        lt_of_lt_of_le (by rw [← EReal.coe_neg]; exact_mod_cast (neg_pos.mpr h)) (le_max_right _ _)
      rw [if_pos hpos, if_pos hE, sign_neg h]
      norm_num
    · subst h
      simp
    · have hE : ¬ ((r : ℝ) : EReal) < 0 := not_lt.mpr (by exact_mod_cast h.le)
      have hpos : (0 : EReal) < max (r : EReal) (-(r : EReal)) :=
        lt_of_lt_of_le (by exact_mod_cast h) (le_max_left _ _)
      rw [if_pos hpos, if_neg hE, sign_pos h]
      norm_num
  | top => simp

end Cert.Lib.FiniteAffine

end
-- ==== Proof.BatchStats.lean ====
/-
  The batch statistics of one column of finite numbers, on the extended reals.

  * a finite sum of reals seen as extended reals is the real sum; the quotient of two such by a nonzero real is the
    real quotient;
  * the variance computed in one pass — the mean of the squares minus the squared mean, kept from going below zero —
    is the variance computed in two passes — the mean of the squared deviations from the mean: the two agree as real
    numbers, and the latter is a mean of squares, so the guard against a negative value changes nothing;
  * summing a column block by block (twenty blocks of five thousand rows) is summing it whole.
-/
import Idealize.ShloMosaic.PureOps.Ideal
import proofs.«151110_j89026082111679_2_alg».proof.Proof.LibFiniteAffine

noncomputable section

namespace Cert.BatchStats

open Idealize.ShloMosaic

/-- A finite sum of reals, seen as extended reals, is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The exact quotient of two reals by a nonzero divisor is the real quotient. -/
theorem div_coe_coe (a N : ℝ) (hN : N ≠ 0) : Ideal.div (a : EReal) (N : EReal) = ((a / N : ℝ) : EReal) := by
  rw [Ideal.div_coe hN, ← EReal.coe_mul]
  congr 1
  field_simp

/-- One-pass variance, guarded at zero, equals two-pass variance, for a batch of `N > 0` reals. -/
theorem var_one_pass_eq {n : ℕ} (x : Fin n → ℝ) (N : ℝ) (hn : (n : ℝ) = N) (hN : 0 < N) :
    max (Ideal.div ((∑ k, x k * x k : ℝ) : EReal) (N : EReal)
          - Ideal.div ((∑ k, x k : ℝ) : EReal) (N : EReal) * Ideal.div ((∑ k, x k : ℝ) : EReal) (N : EReal)) (0 : EReal)
      = Ideal.div ((∑ k, (x k - (∑ l, x l) / N) * (x k - (∑ l, x l) / N) : ℝ) : EReal) (N : EReal) := by
  have hcard : (Fintype.card (Fin n) : ℝ) = N := by rw [Fintype.card_fin]; exact hn
  rw [div_coe_coe _ _ hN.ne', div_coe_coe _ _ hN.ne', div_coe_coe _ _ hN.ne', ← EReal.coe_mul, ← EReal.coe_sub,
    ← Cert.Lib.FiniteAffine.mean_sq_dev_eq x N hcard hN.ne']
  refine max_eq_left ?_
  exact EReal.coe_nonneg.mpr (div_nonneg (Finset.sum_nonneg fun k _ => mul_self_nonneg _) hN.le)

/-- A sum over one hundred thousand rows, taken as twenty blocks of five thousand. -/
theorem sum_blocks {M : Type*} [AddCommMonoid M] (f : Fin 100000 → M) :
    ∑ t : Fin 20, ∑ r : Fin 5000, f ⟨5000 * t.val + r.val, by have := t.isLt; have := r.isLt; omega⟩ = ∑ k : Fin 100000, f k := by
  rw [← Finset.sum_product', Finset.univ_product_univ]
  refine Fintype.sum_equiv (finProdFinEquiv (m := 20) (n := 5000)) _ _ fun p => ?_
  refine congrArg f (Fin.ext ?_)
  show 5000 * p.1.val + p.2.val = p.2.val + 5000 * p.1.val
  omega

end Cert.BatchStats

end
-- ==== Proof.KI.StatsArray.lean ====
/- The batch-statistics call, from blocks to the arrays: its two one-row outputs are written back at the last grid
   point only, through a block that is the whole array, so after the call each output array holds the scratch row the
   last point copied there. And the totals, over exact arithmetic: that row is, column by column, the sum over all
   100000 rows of the array of rows (of its entries, and of their squares), because each grid point adds the sums over
   its own 5000 rows and the twenty blocks of rows tile the array. -/
import proofs.«151110_j89026082111679_2_alg».proof.Proof.KI.Stats
import proofs.«151110_j89026082111679_2_alg».proof.Proof.KI.PayloadStats
import proofs.«151110_j89026082111679_2_alg».proof.Proof.BatchStats
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.ValueIdx Idealize.SL.Sem
open Idealize.ShloMosaic.Pipeline (Dat)

section StatsArray
variable {F : FTy → Type} [FloatOps F]
variable (V : (c : Dev nD) → (b : Ref sig .tc) → Buf (Elt F) ((c : Thread nD τ).loc b))

/-! ## The index maps, decided over the twenty points -/

/-- The block of rows moves with the point along the rows; the two output rows stay at block 0. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-! ## The block of rows, read off its array -/

/-- The block of rows at point t is rows 5000 t .. 5000 t + 4999 of the array of rows. -/
theorem iblk0_0_apply (c : Dev nD) (t : Fin cfg0.N) (r : Fin 5000) (k : Fin 128) :
    (iblk0 V c 0 t : Vec F S5000x128 .f32) (ix2 r k)
      = (V c main_arg0 : S100000x128.Idx → Elt F .f32)
          (ix2 ⟨5000 * t.val + r.val, by have ht := t.isLt; have hN : cfg0.N = 20 := N_0; have hr := r.isLt; omega⟩ k) := by
  obtain ⟨e0, e1, -⟩ := blockIndex0 t
  unfold iblk0
  rw [View.read_apply]
  show V c main_arg0 _ = V c main_arg0 _
  congr 1
  funext a
  apply Fin.ext
  match a with
  | ⟨0, _⟩ => show win0_0.index t 0 * 5000 + 1 * r.val = 5000 * t.val + r.val; rw [e0]; omega
  | ⟨1, _⟩ => show win0_0.index t 1 * 128 + 1 * k.val = k.val; rw [e1]; omega

/-! ## The two output arrays after the call -/

/-- A point that writes output 1 back is the last one. -/
theorem last_of_flush1 (t : Fin cfg0.N) (hf : (cfg0.win 1).flush t = true) : t.val = 19 := by
  have h := (flush0_1 t).mp hf
  have ht := t.isLt; have hN : cfg0.N = 20 := N_0
  omega
theorem last_of_flush2 (t : Fin cfg0.N) (hf : (cfg0.win 2).flush t = true) : t.val = 19 := by
  have h := (flush0_2 t).mp hf
  have ht := t.isLt; have hN : cfg0.N = 20 := N_0
  omega

/-- What a writing point writes back into output 1 is the sum scratch after the last point, seen through the point's
    block — which is the whole one-row array. -/
theorem flushed0_1_eq (c : Dev nD) (t : Fin cfg0.N) (hf : (cfg0.win 1).flush t = true) :
    (dat0 V c).flushed 1 t = ((cfg0.win 1).blk t).view.read (Elt F) (scAt0 V c 19) := by
  show (cfg0.win 1).cut (grid0.coords t) ((dat0 V c).after 1 t) = _
  rw [after0_1_last V c t (last_of_flush1 t hf)]
  obtain ⟨-, -, e0, e1, -⟩ := blockIndex0 t
  funext j
  show scAt0 V c 19 j = scAt0 V c 19 (((cfg0.win 1).blk t).view.emb j)
  congr 1
  funext a
  apply Fin.ext
  match a with
  | ⟨0, _⟩ => show (j 0).val = win0_1.index t 0 * 1 + 1 * (j 0).val; rw [e0]; omega
  | ⟨1, _⟩ => show (j 1).val = win0_1.index t 1 * 128 + 1 * (j 1).val; rw [e1]; omega

theorem flushed0_2_eq (c : Dev nD) (t : Fin cfg0.N) (hf : (cfg0.win 2).flush t = true) :
    (dat0 V c).flushed 2 t = ((cfg0.win 2).blk t).view.read (Elt F) (scAt1 V c 19) := by
  show (cfg0.win 2).cut (grid0.coords t) ((dat0 V c).after 2 t) = _
  rw [after0_2_last V c t (last_of_flush2 t hf)]
  obtain ⟨-, -, -, -, e0, e1⟩ := blockIndex0 t
  funext j
  show scAt1 V c 19 j = scAt1 V c 19 (((cfg0.win 2).blk t).view.emb j)
  congr 1
  funext a
  apply Fin.ext
  match a with
  | ⟨0, _⟩ => show (j 0).val = win0_2.index t 0 * 1 + 1 * (j 0).val; rw [e0]; omega
  | ⟨1, _⟩ => show (j 1).val = win0_2.index t 1 * 128 + 1 * (j 1).val; rw [e1]; omega

/-- An index of output 1's array is in point t's block iff each coordinate is in the block's range on its axis. -/
theorem mem_blk0_1 (t : Fin cfg0.N) (i : S1x128.Idx) :
    i ∈ ((cfg0.win 1).blk t).view.set ↔ ∀ a : Fin 2, win0_1.index t a * S1x128.size a ≤ (i a).val ∧ (i a).val < win0_1.index t a * S1x128.size a + S1x128.size a := by
  show i ∈ ((View.whole main_v13_0).slice (win0_1.rect t)).set ↔ _
  rw [View.set_slice_whole, Rect.mem_set_unit]
  exact Iff.rfl
theorem mem_blk0_2 (t : Fin cfg0.N) (i : S1x128.Idx) :
    i ∈ ((cfg0.win 2).blk t).view.set ↔ ∀ a : Fin 2, win0_2.index t a * S1x128.size a ≤ (i a).val ∧ (i a).val < win0_2.index t a * S1x128.size a + S1x128.size a := by
  show i ∈ ((View.whole main_v13_1).slice (win0_2.rect t)).set ↔ _
  rw [View.set_slice_whole, Rect.mem_set_unit]
  exact Iff.rfl

/-- The last point of the grid. -/
def lastPoint0 : Fin cfg0.N := ⟨19, by rw [show cfg0.N = 20 from N_0]; decide⟩

/-- Every index of output 1's array is in the block the last point writes back. -/
theorem covered0_1 (i : S1x128.Idx) :
    ∃ t : Fin cfg0.N, (cfg0.win 1).flush t = true ∧ i ∈ ((cfg0.win 1).blk t).view.set := by
  have h0 : (i 0).val < 1 := idx2_lt0 i
  have h1 : (i 1).val < 128 := idx2_lt1 i
  obtain ⟨-, -, e0, e1, -⟩ := blockIndex0 lastPoint0
  refine ⟨lastPoint0, (flush0_1 _).mpr rfl, ?_⟩
  rw [mem_blk0_1]
  intro a
  match a with
  | ⟨0, _⟩ =>
    show win0_1.index lastPoint0 0 * 1 ≤ (i 0).val ∧ (i 0).val < win0_1.index lastPoint0 0 * 1 + 1
    rw [e0]; omega
  | ⟨1, _⟩ =>
    show win0_1.index lastPoint0 1 * 128 ≤ (i 1).val ∧ (i 1).val < win0_1.index lastPoint0 1 * 128 + 128
    rw [e1]; omega
theorem covered0_2 (i : S1x128.Idx) :
    ∃ t : Fin cfg0.N, (cfg0.win 2).flush t = true ∧ i ∈ ((cfg0.win 2).blk t).view.set := by
  have h0 : (i 0).val < 1 := idx2_lt0 i
  have h1 : (i 1).val < 128 := idx2_lt1 i
  obtain ⟨-, -, -, -, e0, e1⟩ := blockIndex0 lastPoint0
  refine ⟨lastPoint0, (flush0_2 _).mpr rfl, ?_⟩
  rw [mem_blk0_2]
  intro a
  match a with
  | ⟨0, _⟩ =>
    show win0_2.index lastPoint0 0 * 1 ≤ (i 0).val ∧ (i 0).val < win0_2.index lastPoint0 0 * 1 + 1
    rw [e0]; omega
  | ⟨1, _⟩ =>
    show win0_2.index lastPoint0 1 * 128 ≤ (i 1).val ∧ (i 1).val < win0_2.index lastPoint0 1 * 128 + 128
    rw [e1]; omega

/-- After the call the first output array holds the sum scratch after the last point, -/
theorem final0_1 (c : Dev nD) : (dat0 V c).arrAt 1 cfg0.N = scAt0 V c 19 :=
  (dat0 V c).arrAt_eq_of_cover 1 (scAt0 V c 19) (fun t hf => flushed0_1_eq V c t hf) covered0_1
/-- and the second the sum-of-squares scratch. -/
theorem final0_2 (c : Dev nD) : (dat0 V c).arrAt 2 cfg0.N = scAt1 V c 19 :=
  (dat0 V c).arrAt_eq_of_cover 2 (scAt1 V c 19) (fun t hf => flushed0_2_eq V c t hf) covered0_2

end StatsArray

/-! ## The totals, over exact arithmetic -/

section Totals
variable (V : (c : Dev nD) → (b : Ref sig .tc) → Buf (Elt Idealize.ShloMosaic.Ideal) ((c : Thread nD τ).loc b))

/-- The array of rows as the call finds it, as a table of extended reals, -/
abbrev rowsArr (c : Dev nD) : S100000x128.Idx → EReal := V c main_arg0
/-- and its block of rows at point t. -/
abbrev rowsBlk (c : Dev nD) (t : Fin cfg0.N) : S5000x128.Idx → EReal := iblk0 V c 0 t

/-- The block of rows at point t is rows 5000 t .. 5000 t + 4999 of the array of rows. -/
theorem rowsBlk_apply (c : Dev nD) (t : Fin cfg0.N) (r : Fin 5000) (k : Fin 128) :
    rowsBlk V c t (ix2 r k)
      = rowsArr V c (ix2 ⟨5000 * t.val + r.val, by have ht := t.isLt; have hN : cfg0.N = 20 := N_0; have hr := r.isLt; omega⟩ k) :=
  iblk0_0_apply V c t r k

/-- The sum of column j of the table x over the 5000 rows of block t (nothing past the twentieth block). -/
def blockSum (x : S100000x128.Idx → EReal) (j : Fin 128) (t : ℕ) : EReal :=
  if h : t < 20 then ∑ r : Fin 5000, x (ix2 ⟨5000 * t + r.val, by have := r.isLt; omega⟩ j) else 0

/-- The same for the squares. -/
def blockSq (x : S100000x128.Idx → EReal) (j : Fin 128) (t : ℕ) : EReal :=
  if h : t < 20 then ∑ r : Fin 5000, x (ix2 ⟨5000 * t + r.val, by have := r.isLt; omega⟩ j) * x (ix2 ⟨5000 * t + r.val, by have := r.isLt; omega⟩ j) else 0

/-- The column sums of the block of rows at point t are the block sums of the array of rows. -/
theorem blockSum_iblk (c : Dev nD) (j : Fin 128) (t : Fin cfg0.N) :
    (∑ r : Fin 5000, rowsBlk V c t (ix2 r j)) = blockSum (rowsArr V c) j t.val := by
  have ht : t.val < 20 := lt_of_lt_of_eq t.isLt (show cfg0.N = 20 from N_0)
  unfold blockSum
  rw [dif_pos ht]
  exact Finset.sum_congr rfl fun r _ => rowsBlk_apply V c t r j

theorem blockSq_iblk (c : Dev nD) (j : Fin 128) (t : Fin cfg0.N) :
    (∑ r : Fin 5000, rowsBlk V c t (ix2 r j) * rowsBlk V c t (ix2 r j)) = blockSq (rowsArr V c) j t.val := by
  have ht : t.val < 20 := lt_of_lt_of_eq t.isLt (show cfg0.N = 20 from N_0)
  unfold blockSq
  rw [dif_pos ht]
  exact Finset.sum_congr rfl fun r _ => by rw [rowsBlk_apply V c t r j]

/-- After point n the sum scratch holds, at column j, the block sums of the blocks 0..n. -/
theorem colsum_upto (c : Dev nD) (j : Fin 128) : ∀ n : ℕ, n < cfg0.N →
    (scAt0 V c n (ix2 (0 : Fin 1) j) : EReal) = ∑ t ∈ Finset.range (n + 1), blockSum (rowsArr V c) j t
  | 0, h => by
    rw [scAt0_zero_pay, colsum_payload, zero_payload_sum, zero_add, Finset.sum_range_one]
    exact blockSum_iblk V c j ⟨0, N0_pos⟩
  | n + 1, h => by
    rw [scAt0_succ_pay V c n h, colsum_payload, colsum_upto c j n (Nat.lt_of_succ_lt h), Finset.sum_range_succ _ (n + 1)]
    exact congrArg _ (blockSum_iblk V c j ⟨n + 1, h⟩)

/-- After point n the sum-of-squares scratch holds, at column j, the block sums of squares of the blocks 0..n. -/
theorem colsq_upto (c : Dev nD) (j : Fin 128) : ∀ n : ℕ, n < cfg0.N →
    (scAt1 V c n (ix2 (0 : Fin 1) j) : EReal) = ∑ t ∈ Finset.range (n + 1), blockSq (rowsArr V c) j t
  | 0, h => by
    rw [scAt1_zero_pay, colsq_payload, zero_payload_sq, zero_add, Finset.sum_range_one]
    exact blockSq_iblk V c j ⟨0, N0_pos⟩
  | n + 1, h => by
    rw [scAt1_succ_pay V c n h, colsq_payload, colsq_upto c j n (Nat.lt_of_succ_lt h), Finset.sum_range_succ _ (n + 1)]
    exact congrArg _ (blockSq_iblk V c j ⟨n + 1, h⟩)

/-- After the last point the sum scratch holds, at column j, the sum of that column over all the rows. -/
theorem colsum_total (c : Dev nD) (j : Fin 128) :
    (scAt0 V c 19 (ix2 (0 : Fin 1) j) : EReal) = ∑ k : Fin 100000, rowsArr V c (ix2 k j) := by
  rw [colsum_upto V c j 19 (by rw [show cfg0.N = 20 from N_0]; decide), Finset.sum_range,
    ← Cert.BatchStats.sum_blocks fun k => rowsArr V c (ix2 k j)]
  refine Finset.sum_congr rfl fun t _ => ?_
  unfold blockSum
  rw [dif_pos t.isLt]

/-- After the last point the sum-of-squares scratch holds, at column j, the sum of the squares of that column. -/
theorem colsq_total (c : Dev nD) (j : Fin 128) :
    (scAt1 V c 19 (ix2 (0 : Fin 1) j) : EReal) = ∑ k : Fin 100000, rowsArr V c (ix2 k j) * rowsArr V c (ix2 k j) := by
  rw [colsq_upto V c j 19 (by rw [show cfg0.N = 20 from N_0]; decide), Finset.sum_range,
    ← Cert.BatchStats.sum_blocks fun k => rowsArr V c (ix2 k j) * rowsArr V c (ix2 k j)]
  refine Finset.sum_congr rfl fun t _ => ?_
  unfold blockSq
  rw [dif_pos t.isLt]

end Totals

end Cert.KernelIdeal.Hand
end
-- ==== Proof.KI.HostStages.lean ====
/-
  What the host operations between the three kernel regions compute, as whole-array functions of the buffers they read.

  * before the first region: the edge list with one self-loop per node appended (sources `src`, targets `dst`), the
    in-degree of every node counted along `dst`, and the column `dinv` of inverse square roots of the degrees;
  * between the first and the second region: from the column sums `s0` and the column sums of squares `s1` of the batch,
    the mean `s0 / n` and the inverse deviation `rsqrt (max (s1 / n - mean * mean) 0 + eps)`;
  * between the second and the third region: three propagation steps, each scaling the rows by `dinv`, summing
    over the incoming edges of every node the rows gathered at the edges' sources, and scaling by `dinv` again;
    and the transposed weights and the bias as a row.
-/
import proofs.«151110_j89026082111679_2_alg».proof.Proof.Gen.KernelIdeal.Launch
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-! ## The graph's arrays -/

/-- The edges' sources (row 0 of the edge array) followed by the node numbers `0 … n-1`: one self-loop per node. -/
def srcOf (e : IVec S2x1600000 32) : IVec S1700000 32 :=
  concatenate S1700000 0
    [⟨S1600000, shapeCast S1600000 (extractStridedSlice S1x1600000 ![0, 0] e slices_S2x1600000_S1x1600000_0_0) shapeCasts_S1x1600000_S1600000⟩,
     ⟨S100000, iotaInDim S100000 32 0⟩] concatenates_S1600000_S100000_S1700000_d0

/-- The edges' targets (row 1 of the edge array) followed by the node numbers. -/
def dstOf (e : IVec S2x1600000 32) : IVec S1700000 32 :=
  concatenate S1700000 0
    [⟨S1600000, shapeCast S1600000 (extractStridedSlice S1x1600000 ![1, 0] e slices_S2x1600000_S1x1600000_1_0) shapeCasts_S1x1600000_S1600000⟩,
     ⟨S100000, iotaInDim S100000 32 0⟩] concatenates_S1600000_S100000_S1700000_d0

/-- An index list as a column of one-component index vectors. -/
def col (a : IVec S1700000 32) : IVec S1700000x1 32 :=
  broadcastInDim S1700000x1 ![0] bcast_S1700000_S1700000x1_0 a

/-- A negative index counts from the end: `a + n` where `a < 0`, else `a`. -/
def wrap (a : IVec S1700000 32) : IVec S1700000 32 :=
  select (cmpi .slt a (broadcastInDim S1700000 ![] bcast_S_S1700000 (constantI S_ 32 0#32)))
    (addi a (broadcastInDim S1700000 ![] bcast_S_S1700000 (constantI S_ 32 100000#32))) a

/-- The in-degree of every node, the self-loop counted: the sum of a one per edge along the edges' targets. -/
def degOf (dst : IVec S1700000 32) : FVec F S100000 .f32 :=
  Host.scatterAdd scatter_S100000_S1700000x1_S1700000_n_0_0_1
    (broadcastInDim S100000 ![] bcast_S_S100000 (constant S_ .f32 0x00000000#32)) (col dst)
    (broadcastInDim S1700000 ![] bcast_S_S1700000 (constant S_ .f32 0x3F800000#32))

/-- The column of inverse square roots of the degrees. -/
def dinvCol (dst : IVec S1700000 32) : FVec F S100000x1 .f32 :=
  shapeCast S100000x1 (Host.rsqrt (degOf (F := F) dst)) shapeCasts_S100000_S100000x1

/-! ## Before the first region -/

theorem host0_src (V : Valuation τ sig (Elt F)) :
    StableHlo.after hostOps0 V (Proc.devRef .tc main_v3) = srcOf (V (Proc.devRef .tc main_arg3)) := by
  unfold srcOf; after_results <;> rfl

theorem host0_dst (V : Valuation τ sig (Elt F)) :
    StableHlo.after hostOps0 V (Proc.devRef .tc main_v6) = dstOf (V (Proc.devRef .tc main_arg3)) := by
  unfold dstOf; after_results <;> rfl

theorem host0_dinv (V : Valuation τ sig (Elt F)) :
    StableHlo.after hostOps0 V (Proc.devRef .tc main_v12) = dinvCol (F := F) (dstOf (V (Proc.devRef .tc main_arg3))) := by
  unfold dinvCol degOf col dstOf; after_results <;> rfl

/-! ## Between the first and the second region -/

/-- The batch mean from the column sums. -/
def meanOf (s0 : FVec F S1x128 .f32) : FVec F S1x128 .f32 :=
  Host.divf s0 (broadcastInDim S1x128 ![] bcast_S_S1x128 (constant S_ .f32 0x47C35000#32))

/-- The inverse deviation from the column sums and the column sums of squares: the variance as the mean of the squares
    minus the squared mean, kept from going below zero, guarded by the small constant, under the inverse square root. -/
def invStdOf (s0 s1 : FVec F S1x128 .f32) : FVec F S1x128 .f32 :=
  Host.rsqrt (addf (maximumf (subf (Host.divf s1 (broadcastInDim S1x128 ![] bcast_S_S1x128 (constant S_ .f32 0x47C35000#32)))
      (mulf (meanOf s0) (meanOf s0))) (broadcastInDim S1x128 ![] bcast_S_S1x128 (constant S_ .f32 0x00000000#32)))
    (broadcastInDim S1x128 ![] bcast_S_S1x128 (constant S_ .f32 0x3727C5AC#32)))

theorem host1_mean (V : Valuation τ sig (Elt F)) :
    StableHlo.after hostOps1 V (Proc.devRef .tc main_v15) = meanOf (V (Proc.devRef .tc main_v13_0)) := by
  unfold meanOf; after_results

theorem host1_invStd (V : Valuation τ sig (Elt F)) :
    StableHlo.after hostOps1 V (Proc.devRef .tc main_v24)
      = invStdOf (V (Proc.devRef .tc main_v13_0)) (V (Proc.devRef .tc main_v13_1)) := by
  unfold invStdOf meanOf; after_results

/-! ## Between the second and the third region -/

/-- A column repeated along the rows' 128 entries. -/
def spread (d : FVec F S100000x1 .f32) : FVec F S100000x128 .f32 :=
  broadcastInDim S100000x128 ![0, 1] bcast_S100000x1_S100000x128_0_1 d

/-- One propagation step on rows already scaled at the sources: at every node, `dinv` times the sum over its incoming
    edges of the rows found at the edges' sources. -/
def hopK (d : FVec F S100000x1 .f32) (src dst : IVec S1700000 32) (g : FVec F S100000x128 .f32) : FVec F S100000x128 .f32 :=
  mulf (spread d)
    (Host.scatterAdd scatter_S100000x128_S1700000x1_S1700000x128_1_0_0_1
      (broadcastInDim S100000x128 ![] bcast_S_S100000x128 (constant S_ .f32 0x00000000#32)) (col dst)
      (Host.gather gather_S100000x128_S1700000x1_S1700000x128_1_0_n_n_0_1_1128 g (col (wrap src))))

/-- The three steps: scale by `dinv`, propagate; twice more. -/
def hops3 (d : FVec F S100000x1 .f32) (src dst : IVec S1700000 32) (h : FVec F S100000x128 .f32) : FVec F S100000x128 .f32 :=
  hopK d src dst (mulf (hopK d src dst (mulf (hopK d src dst (mulf h (spread d))) (spread d))) (spread d))

theorem host2_h (V : Valuation τ sig (Elt F)) :
    StableHlo.after hostOps2 V (Proc.devRef .tc main_v67)
      = hops3 (V (Proc.devRef .tc main_v12)) (V (Proc.devRef .tc main_v3)) (V (Proc.devRef .tc main_v6)) (V (Proc.devRef .tc main_v25)) := by
  unfold hops3 hopK spread col wrap; after_results_simp

theorem host2_wt (V : Valuation τ sig (Elt F)) :
    StableHlo.after hostOps2 V (Proc.devRef .tc main_v68)
      = transpose S128x40 [1, 0] (V (Proc.devRef .tc main_arg1)) transposes_S40x128_S128x40_1_0 := by
  after_results_simp

theorem host2_bias (V : Valuation τ sig (Elt F)) :
    StableHlo.after hostOps2 V (Proc.devRef .tc main_v69)
      = shapeCast S1x40 (V (Proc.devRef .tc main_arg2)) shapeCasts_S40_S1x40 := by
  after_results_simp <;> rfl

end Cert.KernelIdeal.Hand

end
-- ==== Proof.KI.ApplyArray.lean ====
/- Region 1 of the forward pass, from blocks to the array: the twenty blocks of 5000 rows that the normalise-and-sign
   kernel writes back tile the output array of 100000 rows, so after the region the array is ONE function of the
   region's three input arrays: row i is computed at the point i / 5000, at the row i % 5000 of that point's block.
   Also: what each input block is, read off its array at explicit coordinates (the block of rows is rows
   5000 t .. 5000 t + 4999; the two rows of statistics are their whole arrays at every point). -/
import proofs.«151110_j89026082111679_2_alg».proof.Proof.KI.Apply
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.ValueIdx Idealize.SL.Sem
open Idealize.ShloMosaic.Pipeline (Dat)

variable {F : FTy → Type} [FloatOps F]

section NormalizeArray
variable (V : (c : Dev nD) → (b : Ref sig .tc) → Buf (Elt F) ((c : Thread nD τ).loc b))

/-! ## The index maps, decided over the twenty points -/

/-- The block of rows and the output block move with the point along the rows; the two rows of statistics stay. -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-! ## The input blocks, read off their arrays -/

/-- The block of rows at point t is rows 5000 t .. 5000 t + 4999 of the array of rows. -/
theorem iblk1_0_apply (c : Dev nD) (t : Fin cfg1.N) (r : Fin 5000) (k : Fin 128) :
    (iblk1 V c 0 t : Vec F S5000x128 .f32) (ix2 r k)
      = (V c main_arg0 : S100000x128.Idx → Elt F .f32)
          (ix2 ⟨5000 * t.val + r.val, by have ht := t.isLt; have hN : cfg1.N = 20 := N_1; have hr := r.isLt; omega⟩ k) := by
  obtain ⟨e0, e1, -⟩ := blockIndex1 t
  unfold iblk1
  rw [View.read_apply]
  show V c main_arg0 _ = V c main_arg0 _
  congr 1
  funext a
  apply Fin.ext
  match a with
  | ⟨0, _⟩ => show win1_0.index t 0 * 5000 + 1 * r.val = 5000 * t.val + r.val; rw [e0]; omega
  | ⟨1, _⟩ => show win1_0.index t 1 * 128 + 1 * k.val = k.val; rw [e1]; omega

/-- The row of means at every point is its whole array. -/
theorem iblk1_1_eq (c : Dev nD) (t : Fin cfg1.N) :
    (iblk1 V c 1 t : Vec F S1x128 .f32) = (V c main_v15 : S1x128.Idx → Elt F .f32) := by
  obtain ⟨-, -, e0, e1, -⟩ := blockIndex1 t
  funext j
  unfold iblk1
  rw [View.read_apply]
  show V c main_v15 _ = V c main_v15 _
  congr 1
  funext a
  apply Fin.ext
  match a with
  | ⟨0, _⟩ => show win1_1.index t 0 * 1 + 1 * (j 0).val = (j 0).val; rw [e0]; omega
  | ⟨1, _⟩ => show win1_1.index t 1 * 128 + 1 * (j 1).val = (j 1).val; rw [e1]; omega

/-- The row of inverse standard deviations at every point is its whole array. -/
theorem iblk1_2_eq (c : Dev nD) (t : Fin cfg1.N) :
    (iblk1 V c 2 t : Vec F S1x128 .f32) = (V c main_v24 : S1x128.Idx → Elt F .f32) := by
  obtain ⟨-, -, -, -, e0, e1, -⟩ := blockIndex1 t
  funext j
  unfold iblk1
  rw [View.read_apply]
  show V c main_v24 _ = V c main_v24 _
  congr 1
  funext a
  apply Fin.ext
  match a with
  | ⟨0, _⟩ => show win1_2.index t 0 * 1 + 1 * (j 0).val = (j 0).val; rw [e0]; omega
  | ⟨1, _⟩ => show win1_2.index t 1 * 128 + 1 * (j 1).val = (j 1).val; rw [e1]; omega

/-! ## The whole output array as one function -/

/-- The point whose block holds row i of the array of 100000 rows. -/
def rowPoint1 (i : S100000x128.Idx) : Fin cfg1.N :=
  ⟨(i 0).val / 5000, by have := idx2_lt0 i; rw [show cfg1.N = 20 from N_1]; omega⟩

/-- Where row i sits inside that block. -/
def rowInBlock1 (i : S100000x128.Idx) : S5000x128.Idx :=
  ix2 ⟨(i 0).val % 5000, Nat.mod_lt _ (by decide)⟩ ⟨(i 1).val, idx2_lt1 i⟩

/-- What the output array holds after the region: at each index, the kernel's stored value at the point and the
    place in the block that the index belongs to. -/
def applyWhole (c : Dev nD) : S100000x128.Idx → Elt F .f32 := fun i =>
  k1_pay1 (iblk1 V c 0 (rowPoint1 i)) (iblk1 V c 1 (rowPoint1 i)) (iblk1 V c 2 (rowPoint1 i)) (rowInBlock1 i)

/-- At the index that sits at place j of point t's block, the whole-array function is the stored value of point t
    at j. -/
theorem applyWhole_at (c : Dev nD) (t : Fin cfg1.N) (j : S5000x128.Idx) (i : S100000x128.Idx)
    (h0 : (i 0).val = 5000 * t.val + (j 0).val) (h1 : (i 1).val = (j 1).val) :
    applyWhole V c i = k1_pay1 (iblk1 V c 0 t) (iblk1 V c 1 t) (iblk1 V c 2 t) j := by
  have hj0 : (j 0).val < 5000 := idx2_lt0 j
  obtain rfl : t = rowPoint1 i := Fin.ext (by show t.val = (i 0).val / 5000; omega)
  obtain rfl : j = rowInBlock1 i := by
    funext a
    apply Fin.ext
    match a with
    | ⟨0, _⟩ => show (j 0).val = (i 0).val % 5000; omega
    | ⟨1, _⟩ => show (j 1).val = (i 1).val; omega
  rfl

/-- What point t writes back is block t of the whole-array function. -/
theorem flushed1_eq (c : Dev nD) (t : Fin cfg1.N) :
    (dat1 V c).flushed 3 t = ((cfg1.win 3).blk t).view.read (Elt F) (applyWhole V c) := by
  show (cfg1.win 3).cut (grid1.coords t) ((dat1 V c).after 3 t) = _
  rw [after1_3_payload]
  obtain ⟨-, -, -, -, -, -, e0, e1⟩ := blockIndex1 t
  funext j
  show k1_pay1 (iblk1 V c 0 t) (iblk1 V c 1 t) (iblk1 V c 2 t) j = applyWhole V c (((cfg1.win 3).blk t).view.emb j)
  refine (applyWhole_at V c t j _ ?_ ?_).symm
  · show win1_3.index t 0 * 5000 + 1 * (j 0).val = 5000 * t.val + (j 0).val; rw [e0]; omega
  · show win1_3.index t 1 * 128 + 1 * (j 1).val = (j 1).val; rw [e1]; omega

/-- An index of the array is in point t's block iff each coordinate is in the block's range on its axis. -/
theorem mem_blk1_3 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v25).slice (win1_3.rect t)).set ↔ _
  rw [View.set_slice_whole, Rect.mem_set_unit]
  exact Iff.rfl

/-- Every index of the output array is in the block of the point its row belongs to. -/
theorem covered1 (i : S100000x128.Idx) :
    ∃ t : Fin cfg1.N, (cfg1.win 3).flush t = true ∧ i ∈ ((cfg1.win 3).blk t).view.set := by
  have h0 : (i 0).val < 100000 := idx2_lt0 i
  have h1 : (i 1).val < 128 := idx2_lt1 i
  obtain ⟨-, -, -, -, -, -, e0, e1⟩ := blockIndex1 (rowPoint1 i)
  refine ⟨rowPoint1 i, flush1_3 _, ?_⟩
  rw [mem_blk1_3]
  intro a
  match a with
  | ⟨0, _⟩ =>
    show win1_3.index (rowPoint1 i) 0 * 5000 ≤ (i 0).val ∧ (i 0).val < win1_3.index (rowPoint1 i) 0 * 5000 + 5000
    rw [e0]; show (i 0).val / 5000 * 5000 ≤ (i 0).val ∧ (i 0).val < (i 0).val / 5000 * 5000 + 5000; omega
  | ⟨1, _⟩ =>
    show win1_3.index (rowPoint1 i) 1 * 128 ≤ (i 1).val ∧ (i 1).val < win1_3.index (rowPoint1 i) 1 * 128 + 128
    rw [e1]; omega

/-- The output array after the region is the whole-array function of the three input arrays as the region finds them. -/
theorem final1 (c : Dev nD) : (dat1 V c).arrAt 3 cfg1.N = applyWhole V c :=
  (dat1 V c).arrAt_eq_of_cover 3 (applyWhole V c) (fun t _ => flushed1_eq V c t) covered1

end NormalizeArray

end Cert.KernelIdeal.Hand

end
-- ==== Proof.KI.ClassifyArray.lean ====
/- Region 2 of the forward pass, from blocks to the array: the twenty blocks of 5000 rows of class scores that the
   classifier kernel writes back tile the output array of 100000 rows, so after the region the array is ONE function of
   the region's three input arrays: row i is computed at the point i / 5000, at the row i % 5000 of that point's block.
   Also: what each input block is, read off its array at explicit coordinates (the block of hidden rows is rows
   5000 t .. 5000 t + 4999; the transposed weights and the bias row are their whole arrays at every point). -/
import proofs.«151110_j89026082111679_2_alg».proof.Proof.KI.Classify
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.ValueIdx Idealize.SL.Sem
open Idealize.ShloMosaic.Pipeline (Dat)

variable {F : FTy → Type} [FloatOps F]

section ClassifierArray
variable (V : (c : Dev nD) → (b : Ref sig .tc) → Buf (Elt F) ((c : Thread nD τ).loc b))

/-! ## The index maps, decided over the twenty points -/

/-- The block of hidden rows and the output block move with the point along the rows; the weights and the bias stay. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-! ## The input blocks, read off their arrays -/

/-- The block of hidden rows at point t is rows 5000 t .. 5000 t + 4999 of the array of hidden rows. -/
theorem iblk2_0_apply (c : Dev nD) (t : Fin cfg2.N) (r : Fin 5000) (k : Fin 128) :
    (iblk2 V c 0 t : Vec F S5000x128 .f32) (ix2 r k)
      = (V c main_v67 : S100000x128.Idx → Elt F .f32)
          (ix2 ⟨5000 * t.val + r.val, by have ht := t.isLt; have hN : cfg2.N = 20 := N_2; have hr := r.isLt; omega⟩ k) := by
  obtain ⟨e0, e1, -⟩ := blockIndex2 t
  unfold iblk2
  rw [View.read_apply]
  show V c main_v67 _ = V c main_v67 _
  congr 1
  funext a
  apply Fin.ext
  match a with
  | ⟨0, _⟩ => show win2_0.index t 0 * 5000 + 1 * r.val = 5000 * t.val + r.val; rw [e0]; omega
  | ⟨1, _⟩ => show win2_0.index t 1 * 128 + 1 * k.val = k.val; rw [e1]; omega

/-- The transposed weights at every point are their whole array. -/
theorem iblk2_1_eq (c : Dev nD) (t : Fin cfg2.N) :
    (iblk2 V c 1 t : Vec F S128x40 .f32) = (V c main_v68 : S128x40.Idx → Elt F .f32) := by
  obtain ⟨-, -, e0, e1, -⟩ := blockIndex2 t
  funext j
  unfold iblk2
  rw [View.read_apply]
  show V c main_v68 _ = V c main_v68 _
  congr 1
  funext a
  apply Fin.ext
  match a with
  | ⟨0, _⟩ => show win2_1.index t 0 * 128 + 1 * (j 0).val = (j 0).val; rw [e0]; omega
  | ⟨1, _⟩ => show win2_1.index t 1 * 40 + 1 * (j 1).val = (j 1).val; rw [e1]; omega

/-- The bias row at every point is its whole array. -/
theorem iblk2_2_eq (c : Dev nD) (t : Fin cfg2.N) :
    (iblk2 V c 2 t : Vec F S1x40 .f32) = (V c main_v69 : S1x40.Idx → Elt F .f32) := by
  obtain ⟨-, -, -, -, e0, e1, -⟩ := blockIndex2 t
  funext j
  unfold iblk2
  rw [View.read_apply]
  show V c main_v69 _ = V c main_v69 _
  congr 1
  funext a
  apply Fin.ext
  match a with
  | ⟨0, _⟩ => show win2_2.index t 0 * 1 + 1 * (j 0).val = (j 0).val; rw [e0]; omega
  | ⟨1, _⟩ => show win2_2.index t 1 * 40 + 1 * (j 1).val = (j 1).val; rw [e1]; omega

/-! ## The whole output array as one function -/

/-- The point whose block holds row i of the array of 100000 rows of scores. -/
def rowPoint2 (i : S100000x40.Idx) : Fin cfg2.N :=
  ⟨(i 0).val / 5000, by have := idx2_lt0 i; rw [show cfg2.N = 20 from N_2]; omega⟩

/-- Where row i sits inside that block. -/
def rowInBlock2 (i : S100000x40.Idx) : S5000x40.Idx :=
  ix2 ⟨(i 0).val % 5000, Nat.mod_lt _ (by decide)⟩ ⟨(i 1).val, idx2_lt1 i⟩

/-- What the output array holds after the region: at each index, the kernel's stored value at the point and the
    place in the block that the index belongs to. -/
def classifyWhole (c : Dev nD) : S100000x40.Idx → Elt F .f32 := fun i =>
  k2_pay1 (iblk2 V c 0 (rowPoint2 i)) (iblk2 V c 1 (rowPoint2 i)) (iblk2 V c 2 (rowPoint2 i)) (rowInBlock2 i)

/-- At the index that sits at place j of point t's block, the whole-array function is the stored value of point t
    at j. -/
theorem classifyWhole_at (c : Dev nD) (t : Fin cfg2.N) (j : S5000x40.Idx) (i : S100000x40.Idx)
    (h0 : (i 0).val = 5000 * t.val + (j 0).val) (h1 : (i 1).val = (j 1).val) :
    classifyWhole V c i = k2_pay1 (iblk2 V c 0 t) (iblk2 V c 1 t) (iblk2 V c 2 t) j := by
  have hj0 : (j 0).val < 5000 := idx2_lt0 j
  obtain rfl : t = rowPoint2 i := Fin.ext (by show t.val = (i 0).val / 5000; omega)
  obtain rfl : j = rowInBlock2 i := by
    funext a
    apply Fin.ext
    match a with
    | ⟨0, _⟩ => show (j 0).val = (i 0).val % 5000; omega
    | ⟨1, _⟩ => show (j 1).val = (i 1).val; omega
  rfl

/-- What point t writes back is block t of the whole-array function. -/
theorem flushed2_eq (c : Dev nD) (t : Fin cfg2.N) :
    (dat2 V c).flushed 3 t = ((cfg2.win 3).blk t).view.read (Elt F) (classifyWhole V c) := by
  show (cfg2.win 3).cut (grid2.coords t) ((dat2 V c).after 3 t) = _
  rw [after2_3_payload]
  obtain ⟨-, -, -, -, -, -, e0, e1⟩ := blockIndex2 t
  funext j
  show k2_pay1 (iblk2 V c 0 t) (iblk2 V c 1 t) (iblk2 V c 2 t) j = classifyWhole V c (((cfg2.win 3).blk t).view.emb j)
  refine (classifyWhole_at V c t j _ ?_ ?_).symm
  · show win2_3.index t 0 * 5000 + 1 * (j 0).val = 5000 * t.val + (j 0).val; rw [e0]; omega
  · show win2_3.index t 1 * 40 + 1 * (j 1).val = (j 1).val; rw [e1]; omega

/-- An index of the array is in point t's block iff each coordinate is in the block's range on its axis. -/
theorem mem_blk2_3 (t : Fin cfg2.N) (i : S100000x40.Idx) :
    i ∈ ((cfg2.win 3).blk t).view.set ↔ ∀ a : Fin 2, win2_3.index t a * S5000x40.size a ≤ (i a).val ∧ (i a).val < win2_3.index t a * S5000x40.size a + S5000x40.size a := by
  show i ∈ ((View.whole main_v70).slice (win2_3.rect t)).set ↔ _
  rw [View.set_slice_whole, Rect.mem_set_unit]
  exact Iff.rfl

/-- Every index of the output array is in the block of the point its row belongs to. -/
theorem covered2 (i : S100000x40.Idx) :
    ∃ t : Fin cfg2.N, (cfg2.win 3).flush t = true ∧ i ∈ ((cfg2.win 3).blk t).view.set := by
  have h0 : (i 0).val < 100000 := idx2_lt0 i
  have h1 : (i 1).val < 40 := idx2_lt1 i
  obtain ⟨-, -, -, -, -, -, e0, e1⟩ := blockIndex2 (rowPoint2 i)
  refine ⟨rowPoint2 i, flush2_3 _, ?_⟩
  rw [mem_blk2_3]
  intro a
  match a with
  | ⟨0, _⟩ =>
    show win2_3.index (rowPoint2 i) 0 * 5000 ≤ (i 0).val ∧ (i 0).val < win2_3.index (rowPoint2 i) 0 * 5000 + 5000
    rw [e0]; show (i 0).val / 5000 * 5000 ≤ (i 0).val ∧ (i 0).val < (i 0).val / 5000 * 5000 + 5000; omega
  | ⟨1, _⟩ =>
    show win2_3.index (rowPoint2 i) 1 * 40 ≤ (i 1).val ∧ (i 1).val < win2_3.index (rowPoint2 i) 1 * 40 + 40
    rw [e1]; omega

/-- The output array after the region is the whole-array function of the three input arrays as the region finds them. -/
theorem final2 (c : Dev nD) : (dat2 V c).arrAt 3 cfg2.N = classifyWhole V c :=
  (dat2 V c).arrAt_eq_of_cover 3 (classifyWhole V c) (fun t _ => flushed2_eq V c t) covered2

end ClassifierArray

end Cert.KernelIdeal.Hand

end
-- ==== Proof.KI.PayloadApply.lean ====
/-
  The second kernel's arithmetic on one block, read at an entry: with `mean` and `inv` the two statistic rows, entry
  `(r, j)` of the stored block is the sign of `(x[r, j] - mean[j]) * inv[j]` — the comparisons the program spells
  (`1` or `-1` by the order against zero where the magnitude is positive, the value itself at zero) are the sign.
-/
import proofs.«151110_j89026082111679_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- Entry `(r, j)` of the normalised and binarised block. -/
theorem apply_payload (v0 : Vec Ideal S5000x128 .f32) (v1 v5 : Vec Ideal S1x128 .f32) (r : Fin 5000) (j : Fin 128) :
    k1_pay1 (F := Ideal) v0 v1 v5 (ix2 r j)
      = Ideal.sign ((v0 (ix2 r j) - v1 (ix2 (0 : Fin 1) j)) * v5 (ix2 (0 : Fin 1) j)) := by
  unfold k1_pay1
  refine (Ideal.jnp_sign_eq_sign_f32 _).trans ?_
  refine congrArg Ideal.sign ?_
  rw [mulf_apply, subf_apply, shapeCast_self, shapeCast_self]
  rw [broadcastTo_1b_ab_apply v1 _ r j, broadcastTo_1b_ab_apply v5 _ r j]

end Cert.KernelIdeal.Hand

end
-- ==== Proof.ClassifyRow.lean ====
/-
  One row of the classifier — the logits of a row of 128 features against 40 classes, then the log-softmax of those 40
  logits — written once over plain functions (`classifyRow`), and the classifier kernel's block read at an element as
  that row (`kernel_row`): the matrix product onto a zero accumulator is the sum of products over the features, the two
  row reductions are the fold of `max` from −∞ and the sum over the 40 columns, and the columns kept as `[m, 1]` arrays
  and broadcast back read the reduced value of the element's own row.
-/
import proofs.«151110_j89026082111679_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx
open scoped BigOperators

namespace Cert.ClassifyRow

/-! ## One row of the classifier, over plain functions -/

/-- The logits of one row: the products of the row with each class's weights summed over the 128 features, plus the
    class's bias. -/
def logits (h : Fin 128 → EReal) (W : Fin 40 → Fin 128 → EReal) (b : Fin 40 → EReal) (j : Fin 40) : EReal :=
  (∑ k : Fin 128, h k * W j k) + b j

/-- The maximum of a row of 40 numbers, folded from the f32 pattern of −∞. -/
def rowMax (l : Fin 40 → EReal) : EReal :=
  (Finset.univ : Finset (Fin 40)).fold max (Ideal.ofBits .f32 0xFF800000#32) l

/-- The log-softmax of a row: shift by the maximum, then subtract the logarithm of the sum of exponentials. -/
def logSoftmaxRow (l : Fin 40 → EReal) (j : Fin 40) : EReal :=
  (l j - rowMax l) - Ideal.log (∑ k : Fin 40, Ideal.exp (l k - rowMax l))

/-- One row of the classifier: the log-softmax of its logits. -/
def classifyRow (h : Fin 128 → EReal) (W : Fin 40 → Fin 128 → EReal) (b : Fin 40 → EReal) : Fin 40 → EReal :=
  logSoftmaxRow (logits h W b)

/-! ## Layout steps of a row reduction kept as a column -/

section Layout
variable {α : Type}

/-- A length-`a` vector cast to an `[a, 1]` column reads, at `(p, 0)`, the vector at `p`. -/
theorem shapeCast_a_a1_apply {a : ℕ} (x : (⟨1, ![a]⟩ : Shape).Idx → α) (h : (⟨1, ![a]⟩ : Shape).ShapeCasts ⟨2, ![a, 1]⟩)
    (p : Fin a) : shapeCast ⟨2, ![a, 1]⟩ x h (ix2 p (0 : Fin 1)) = x (ix1 p) := by
  refine shapeCast_apply x h _ (ix1 p) ?_
  rw [Shape.rowMajor_val_one, Shape.rowMajor_val_two]
  show p.val = p.val * 1 + 0
  omega

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- The reduced index `p` of a sum over the columns, with column `k` put back, is `(p, k)`. -/
theorem lift_col {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

end Layout

/-! ## The two row reductions of a `[m, 40]` block, read at a row -/

section RowReductions
variable {m : ℕ}

/-- The kernel's maximum over the 40 columns, at row `r`, is the row's maximum. -/
theorem kernel_rowMax_apply (x : FVec Ideal ⟨2, ![m, 40]⟩ .f32) (hred : (⟨2, ![m, 40]⟩ : Shape).Reduces [1] ⟨1, ![m]⟩)
    (hφ : FKind.Formats .f32) (hacc : (0xFF800000#32 : BitVec 32) = FKind.maximumf.neutral .f32 hφ) (r : Fin m) :
    multiReduction .maximumf [1] ⟨1, ![m]⟩ x 0xFF800000#32 hred hφ hacc (ix1 r) = rowMax fun k => x (ix2 r k) := by
  refine (Ideal.multiReduction_maximumf_single x _ hred hφ hacc (ix1 r)).trans ?_
  unfold rowMax
  have hf : (x ∘ hred.lift (ix1 r)) = fun k : Fin 40 => x (ix2 r k) := funext fun k => congrArg x (lift_col hred r k)
  exact congrArg (fun f => Finset.fold max (Ideal.ofBits .f32 0xFF800000#32) f (Finset.univ : Finset (Fin 40))) hf

/-- The kernel's sum over the 40 columns, at row `r`, is the row's sum. -/
theorem kernel_rowSum_apply (x : FVec Ideal ⟨2, ![m, 40]⟩ .f32) (hred : (⟨2, ![m, 40]⟩ : Shape).Reduces [1] ⟨1, ![m]⟩)
    (hφ : FKind.Formats .f32) (hacc : (0x00000000#32 : BitVec 32) = FKind.add.neutral .f32 hφ) (r : Fin m) :
    multiReduction .add [1] ⟨1, ![m]⟩ x 0x00000000#32 hred hφ hacc (ix1 r) = ∑ k : Fin 40, x (ix2 r k) := by
  refine (Ideal.multiReduction_add_single x _ hred hφ hacc (ix1 r)).trans ?_
  exact Finset.sum_congr rfl fun k _ => congrArg x (lift_col hred r k)

/-- The log-softmax of a block as the kernel spells it: the row maximum kept as a column and broadcast back, the
    shifted block, its exponentials summed over the columns, the logarithm of that column broadcast back. -/
def kernelLogSoftmax (x : FVec Ideal ⟨2, ![m, 40]⟩ .f32) (hred : (⟨2, ![m, 40]⟩ : Shape).Reduces [1] ⟨1, ![m]⟩)
    (hsc : (⟨1, ![m]⟩ : Shape).ShapeCasts ⟨2, ![m, 1]⟩) (hbc : (⟨2, ![m, 1]⟩ : Shape).Broadcasts ⟨2, ![m, 40]⟩)
    (hφ : FKind.Formats .f32) (hmax : (0xFF800000#32 : BitVec 32) = FKind.maximumf.neutral .f32 hφ)
    (hadd : (0x00000000#32 : BitVec 32) = FKind.add.neutral .f32 hφ) : FVec Ideal ⟨2, ![m, 40]⟩ .f32 :=
  subf (subf x (broadcastTo ⟨2, ![m, 40]⟩ (shapeCast ⟨2, ![m, 1]⟩ (multiReduction .maximumf [1] ⟨1, ![m]⟩ x 0xFF800000#32 hred hφ hmax) hsc) hbc))
    (broadcastTo ⟨2, ![m, 40]⟩ (log (shapeCast ⟨2, ![m, 1]⟩ (multiReduction .add [1] ⟨1, ![m]⟩
      (exp (subf x (broadcastTo ⟨2, ![m, 40]⟩ (shapeCast ⟨2, ![m, 1]⟩ (multiReduction .maximumf [1] ⟨1, ![m]⟩ x 0xFF800000#32 hred hφ hmax) hsc) hbc)))
      0x00000000#32 hred hφ hadd) hsc)) hbc)

/-- Read at `(r, j)` it is the log-softmax of row `r` at `j`. -/
theorem kernelLogSoftmax_apply (x : FVec Ideal ⟨2, ![m, 40]⟩ .f32) (hred : (⟨2, ![m, 40]⟩ : Shape).Reduces [1] ⟨1, ![m]⟩)
    (hsc : (⟨1, ![m]⟩ : Shape).ShapeCasts ⟨2, ![m, 1]⟩) (hbc : (⟨2, ![m, 1]⟩ : Shape).Broadcasts ⟨2, ![m, 40]⟩)
    (hφ : FKind.Formats .f32) (hmax : (0xFF800000#32 : BitVec 32) = FKind.maximumf.neutral .f32 hφ)
    (hadd : (0x00000000#32 : BitVec 32) = FKind.add.neutral .f32 hφ) (r : Fin m) (j : Fin 40) :
    kernelLogSoftmax x hred hsc hbc hφ hmax hadd (ix2 r j) = logSoftmaxRow (fun k => x (ix2 r k)) j := by
  have hz : ∀ k : Fin 40,
      subf x (broadcastTo ⟨2, ![m, 40]⟩ (shapeCast ⟨2, ![m, 1]⟩ (multiReduction .maximumf [1] ⟨1, ![m]⟩ x 0xFF800000#32 hred hφ hmax) hsc) hbc) (ix2 r k)
        = x (ix2 r k) - rowMax fun k => x (ix2 r k) := fun k => by
    rw [subf_apply, broadcastTo_a1_ab_apply, shapeCast_a_a1_apply, kernel_rowMax_apply]
  unfold kernelLogSoftmax logSoftmaxRow
  rw [subf_apply, hz j, broadcastTo_a1_ab_apply]
  show _ - Ideal.log (shapeCast ⟨2, ![m, 1]⟩ _ hsc (ix2 r (0 : Fin 1))) = _
  rw [shapeCast_a_a1_apply, kernel_rowSum_apply]
  refine congrArg (fun s => (x (ix2 r j) - rowMax fun k => x (ix2 r k)) - Ideal.log s) (Finset.sum_congr rfl fun k _ => ?_)
  show Ideal.exp (subf x _ (ix2 r k)) = _
  rw [hz k]

end RowReductions

/-! ## The kernel's block of logits -/

section KernelSide
open Cert.KernelIdeal Cert.KernelIdeal.Gen

/-- The dot of the classifier's matmul: a `[5000, 128]` block times the `[128, 40]` weights. -/
local notation "dotK" => Cert.KernelIdeal.dot_S5000x128_S128x40_S5000x40_1_0_0_1_n_n

/-- Its left operand index at output `(r, j)` keeps the row. -/
theorem dotK_lhs_row (i : S5000x40.Idx) (q : (dotK).contr.Idx) : ((dotK).lhsIdx i q 0).val = (i 0).val := by
  unfold DotDims.lhsIdx
  rw [dif_neg (show ¬(0 : Fin S5000x128.rank) ∈ (dotK).lhsBatch by decide),
    dif_pos (show (0 : Fin S5000x128.rank) ∈ (dotK).lhsNonContracting by decide)]
  rfl

/-- Its right operand index at output `(r, j)` keeps the column. -/
theorem dotK_rhs_col (i : S5000x40.Idx) (q : (dotK).contr.Idx) : ((dotK).rhsIdx i q 1).val = (i 1).val := by
  unfold DotDims.rhsIdx
  rw [dif_neg (show ¬(1 : Fin S128x40.rank) ∈ (dotK).rhsBatch by decide),
    dif_pos (show (1 : Fin S128x40.rank) ∈ (dotK).rhsNonContracting by decide)]
  rfl

/-- The block of logits as the payload computes it: the block times the weights (the casts to bf16 change nothing at
    the exact values) onto a zero accumulator, plus the bias row broadcast over the rows. -/
def kernelLogits (v0 : Vec Ideal S5000x128 .f32) (v3 : Vec Ideal S128x40 .f32) (v7 : Vec Ideal S1x40 .f32) : FVec Ideal S5000x40 .f32 :=
  addf (matmul dotK none (truncf .bf16 (shapeCast S5000x128 v0 shapeCasts_S5000x128_S5000x128) bitsLt_bf16_f32)
      (truncf .bf16 (shapeCast S128x40 v3 shapeCasts_S128x40_S128x40) bitsLt_bf16_f32) (constant S5000x40 .f32 0x00000000#32))
    (broadcastTo S5000x40 (shapeCast S1x40 v7 shapeCasts_S1x40_S1x40) broadcasts_S1x40_S5000x40)

/-- Read at `(r, j)`: row `r` of the block against column `j` of the weights, plus the bias at `j`. -/
theorem kernelLogits_apply (v0 : Vec Ideal S5000x128 .f32) (v3 : Vec Ideal S128x40 .f32) (v7 : Vec Ideal S1x40 .f32)
    (r : Fin 5000) (j : Fin 40) :
    kernelLogits v0 v3 v7 (ix2 r j)
      = logits (fun k => v0 (ix2 r k)) (fun j k => v3 (ix2 k j)) (fun j => v7 (ix2 (0 : Fin 1) j)) j := by
  unfold kernelLogits logits
  rw [addf_apply, shapeCast_self, shapeCast_self, shapeCast_self, broadcastTo_1b_ab_apply]
  refine congrArg (· + v7 (ix2 (0 : Fin 1) j)) ?_
  simp only [matmul]
  rw [Ideal.matmul_constant_zero_apply, ← Equiv.sum_comp (contrEquiv1 dotK 128 rfl rfl).symm]
  refine Finset.sum_congr rfl fun k _ => ?_
  have hk := contrEquiv1_symm_val dotK 128 rfl rfl k
  have el : (dotK).lhsIdx (ix2 r j) ((contrEquiv1 dotK 128 rfl rfl).symm k) = ix2 r k := funext fun a => Fin.ext (by
    match a with
    | ⟨0, _⟩ => exact dotK_lhs_row _ _
    | ⟨1, _⟩ => exact ((dotK).lhsIdx_val_of_single rfl _ _).trans hk)
  have er : (dotK).rhsIdx (ix2 r j) ((contrEquiv1 dotK 128 rfl rfl).symm k) = ix2 k j := funext fun a => Fin.ext (by
    match a with
    | ⟨0, _⟩ => exact ((dotK).rhsIdx_val_of_single rfl _ _).trans hk
    | ⟨1, _⟩ => exact dotK_rhs_col _ _)
  rw [truncf_apply, truncf_apply, el, er]

/-- The classifier kernel's payload at `(r, j)` is the classifier's row `r` at `j`. -/
theorem kernel_row (v0 : Vec Ideal S5000x128 .f32) (v3 : Vec Ideal S128x40 .f32) (v7 : Vec Ideal S1x40 .f32)
    (r : Fin 5000) (j : Fin 40) :
    k2_pay1 (F := Ideal) v0 v3 v7 (ix2 r j)
      = classifyRow (fun k => v0 (ix2 r k)) (fun j k => v3 (ix2 k j)) (fun j => v7 (ix2 (0 : Fin 1) j)) j := by
  have e : k2_pay1 (F := Ideal) v0 v3 v7
      = kernelLogSoftmax (kernelLogits v0 v3 v7) reduces_S5000x40_S5000 shapeCasts_S5000_S5000x1 broadcasts_S5000x1_S5000x40
          (.inl rfl) rfl rfl := rfl
  refine (congrFun e (ix2 r j)).trans ((kernelLogSoftmax_apply (kernelLogits v0 v3 v7) _ _ _ _ _ _ r j).trans ?_)
  unfold classifyRow
  exact congrArg (fun l => logSoftmaxRow l j) (funext fun k => kernelLogits_apply v0 v3 v7 r k)

end KernelSide

end Cert.ClassifyRow
-- ==== Proof.KI.Value.lean ====
/- The forward pass's two results as formulas of the launched arrays, at ideal arithmetic. After the sign region, entry
   (i, k) of the binarised features is the sign of the launched feature centred by the batch mean of column k and
   scaled by the column's inverse standard deviation, both computed from the column sums and sums of squares that the
   statistics region leaves. After the classifier region, row i of the class scores is the classifier's row function
   (logits of the row against the launched weights plus the launched bias, then the logarithm of the softmax) of row i
   of the binarised features propagated three steps over the graph. Each is read off the region's whole-array
   function at the point i / 5000, the region's input blocks being read off the arrays the region is entered with,
   and those traced back through the host stretches to the launch memory. -/
import proofs.«151110_j89026082111679_2_alg».proof.Proof.KI.Run
import proofs.«151110_j89026082111679_2_alg».proof.Proof.KI.StatsArray
import proofs.«151110_j89026082111679_2_alg».proof.Proof.KI.ApplyArray
import proofs.«151110_j89026082111679_2_alg».proof.Proof.KI.ClassifyArray
import proofs.«151110_j89026082111679_2_alg».proof.Proof.KI.HostStages
import proofs.«151110_j89026082111679_2_alg».proof.Proof.KI.PayloadApply
import proofs.«151110_j89026082111679_2_alg».proof.Proof.ClassifyRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! ## What the sign region is entered with -/

section SignRegionValue
variable {F : FTy → Type} [FloatOps F]
variable (m : (ℓ : Loc nD τ sig) → Buf (Elt F) ℓ) (ρ : Dev nD → PrngReg)

/-- The rows the sign region is entered with are the rows as launched: no host operation and no earlier region
    writes them. -/
theorem entry1_rows (c : Dev nD) : V3 m ρ c main_arg0 = m ((c : Thread nD τ).loc main_arg0) :=
  calc V3 m ρ c main_arg0
    _ = W2 m ρ c (Proc.devRef .tc main_arg0) := W3_kept m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_kept m ρ c main_arg0 (by decide)
    _ = m ((c : Thread nD τ).loc main_arg0) := rfl

/-- The column sums the statistics region leaves. -/
theorem left0_sums (c : Dev nD) : W2 m ρ c (Proc.devRef .tc main_v13_0) = scAt0 (V1 m ρ) c 19 :=
  (W2_arr m ρ c 1).trans (final0_1 (V1 m ρ) c)

/-- The column sums of squares the statistics region leaves. -/
theorem left0_squares (c : Dev nD) : W2 m ρ c (Proc.devRef .tc main_v13_1) = scAt1 (V1 m ρ) c 19 :=
  (W2_arr m ρ c 2).trans (final0_2 (V1 m ρ) c)

/-- The row of means the sign region is entered with. -/
theorem entry1_mean (c : Dev nD) : V3 m ρ c main_v15 = meanOf (scAt0 (V1 m ρ) c 19) := by
  show StableHlo.after hostOps1 (W2 m ρ c) (Proc.devRef .tc main_v15) = _
  rw [host1_mean, left0_sums]

/-- The row of inverse standard deviations the sign region is entered with. -/
theorem entry1_invStd (c : Dev nD) : V3 m ρ c main_v24 = invStdOf (scAt0 (V1 m ρ) c 19) (scAt1 (V1 m ρ) c 19) := by
  show StableHlo.after hostOps1 (W2 m ρ c) (Proc.devRef .tc main_v24) = _
  rw [host1_invStd, left0_sums, left0_squares]

end SignRegionValue

/-! ## What the classifier region is entered with -/

section ClassifierRegionValue
variable {F : FTy → Type} [FloatOps F]
variable (m : (ℓ : Loc nD τ sig) → Buf (Elt F) ℓ) (ρ : Dev nD → PrngReg)

/-- A buffer the first host stretch writes, that nothing later writes before the classifier's host stretch, still
    holds there what the first stretch left. -/
theorem W4_since_W1 (c : Dev nD) (r : Ref sig .tc) (h1 : r ∉ (hostOps1_W : List (Ref sig .tc)))
    (a0 : ∀ w, Pipeline.arrRef spec0 w ≠ r) (a1 : ∀ w, Pipeline.arrRef spec1 w ≠ r) :
    W4 m ρ c (Proc.devRef .tc r) = W1 m ρ c (Proc.devRef .tc r) :=
  calc W4 m ρ c (Proc.devRef .tc r)
    _ = W3 m ρ c (Proc.devRef .tc r) := W4_of_ne m ρ c r a1
    _ = W2 m ρ c (Proc.devRef .tc r) := W3_kept m ρ c r h1
    _ = W1 m ρ c (Proc.devRef .tc r) := W2_of_ne m ρ c r a0

/-- An argument that no host operation writes and that is no array of the first two regions is as launched when the
    classifier's host stretch starts. -/
theorem W4_launched (c : Dev nD) (r : Ref sig .tc) (h0 : r ∉ (hostOps0_W : List (Ref sig .tc)))
    (h1 : r ∉ (hostOps1_W : List (Ref sig .tc)))
    (a0 : ∀ w, Pipeline.arrRef spec0 w ≠ r) (a1 : ∀ w, Pipeline.arrRef spec1 w ≠ r) :
    W4 m ρ c (Proc.devRef .tc r) = m ((c : Thread nD τ).loc r) :=
  (W4_since_W1 m ρ c r h1 a0 a1).trans ((W1_kept m ρ c r h0).trans rfl)

/-- The edges' sources with the self-loops, when the classifier's host stretch starts. -/
theorem W4_src (c : Dev nD) : W4 m ρ c (Proc.devRef .tc main_v3) = srcOf (m ((c : Thread nD τ).loc main_arg3)) :=
  (W4_since_W1 m ρ c main_v3 (by decide) (by decide) (by decide)).trans (host0_src (W0 m ρ c))

/-- The edges' targets with the self-loops. -/
theorem W4_dst (c : Dev nD) : W4 m ρ c (Proc.devRef .tc main_v6) = dstOf (m ((c : Thread nD τ).loc main_arg3)) :=
  (W4_since_W1 m ρ c main_v6 (by decide) (by decide) (by decide)).trans (host0_dst (W0 m ρ c))

/-- The column of inverse square roots of the degrees. -/
theorem W4_dinv (c : Dev nD) :
    W4 m ρ c (Proc.devRef .tc main_v12) = dinvCol (F := F) (dstOf (m ((c : Thread nD τ).loc main_arg3))) :=
  (W4_since_W1 m ρ c main_v12 (by decide) (by decide) (by decide)).trans (host0_dinv (W0 m ρ c))

/-- The hidden rows the classifier is entered with: three propagation steps over the graph of the binarised features. -/
theorem entry2_hidden (c : Dev nD) :
    V5 m ρ c main_v67 = hops3 (dinvCol (F := F) (dstOf (m ((c : Thread nD τ).loc main_arg3))))
      (srcOf (m ((c : Thread nD τ).loc main_arg3))) (dstOf (m ((c : Thread nD τ).loc main_arg3)))
      (W4 m ρ c (Proc.devRef .tc main_v25)) := by
  show StableHlo.after hostOps2 (W4 m ρ c) (Proc.devRef .tc main_v67) = _
  rw [host2_h, W4_dinv, W4_src, W4_dst]

/-- The weights the classifier is entered with: the launched weights transposed. -/
theorem entry2_weights (c : Dev nD) :
    V5 m ρ c main_v68 = transpose S128x40 [1, 0] (m ((c : Thread nD τ).loc main_arg1)) transposes_S40x128_S128x40_1_0 := by
  show StableHlo.after hostOps2 (W4 m ρ c) (Proc.devRef .tc main_v68) = _
  rw [host2_wt, W4_launched m ρ c main_arg1 (by decide) (by decide) (by decide) (by decide)]

/-- The bias the classifier is entered with: the launched bias as a row. -/
theorem entry2_bias (c : Dev nD) :
    V5 m ρ c main_v69 = shapeCast S1x40 (m ((c : Thread nD τ).loc main_arg2)) shapeCasts_S40_S1x40 := by
  show StableHlo.after hostOps2 (W4 m ρ c) (Proc.devRef .tc main_v69) = _
  rw [host2_bias, W4_launched m ρ c main_arg2 (by decide) (by decide) (by decide) (by decide)]

end ClassifierRegionValue

/-! ## The launched arrays and the results, typed -/

section Names
variable (m : (ℓ : Loc nD τ sig) → Buf (Elt Ideal) ℓ) (ρ : Dev nD → PrngReg)

/-- The node features as launched. -/
abbrev argX (c : Dev nD) : Vec Ideal S100000x128 .f32 := m ((c : Thread nD τ).loc main_arg0)
/-- The column sums and the column sums of squares of the features, as the statistics region leaves them. -/
abbrev colSums (c : Dev nD) : Vec Ideal S1x128 .f32 := scAt0 (V1 m ρ) c 19
abbrev colSquares (c : Dev nD) : Vec Ideal S1x128 .f32 := scAt1 (V1 m ρ) c 19
/-- The binarised features, as the sign region leaves them. -/
abbrev signedX (c : Dev nD) : Vec Ideal S100000x128 .f32 := W4 m ρ c (Proc.devRef .tc main_v25)

end Names

section Names2
variable (m : (ℓ : Loc nD τ sig) → Buf (Elt Ideal) ℓ) (ρ : Dev nD → PrngReg)

/-- The classifier's weights, its bias and the edge list, as launched. -/
abbrev argWeights (c : Dev nD) : Vec Ideal S40x128 .f32 := m ((c : Thread nD τ).loc main_arg1)
abbrev argBias (c : Dev nD) : Vec Ideal S40 .f32 := m ((c : Thread nD τ).loc main_arg2)
abbrev argEdges (c : Dev nD) : IVec S2x1600000 32 := m ((c : Thread nD τ).loc main_arg3)
/-- The binarised features propagated three steps over the graph. -/
abbrev hiddenX (c : Dev nD) : FVec Ideal S100000x128 .f32 :=
  hops3 (dinvCol (F := Ideal) (dstOf (argEdges m c))) (srcOf (argEdges m c)) (dstOf (argEdges m c)) (signedX m ρ c)
/-- The class scores, as the classifier region leaves them. -/
abbrev scores (c : Dev nD) : Vec Ideal S100000x40 .f32 := W6 m ρ c (Proc.devRef .tc main_v70)

end Names2

/-! ## The binarised features, entry by entry -/

section AtIdeal
variable (m : (ℓ : Loc nD τ sig) → Buf (Elt Ideal) ℓ) (ρ : Dev nD → PrngReg)

/-- The binarised features after the sign region, entry by entry: the sign of the row entry centred by the batch mean
    and scaled by the inverse standard deviation of its column. -/
theorem kernel_h0_apply (c : Dev nD) (i : Fin 100000) (k : Fin 128) :
    signedX m ρ c (ix2 i k)
      = Ideal.sign ((argX m c (ix2 i k) - meanOf (F := Ideal) (colSums m ρ c) (ix2 (0 : Fin 1) k))
          * invStdOf (F := Ideal) (colSums m ρ c) (colSquares m ρ c) (ix2 (0 : Fin 1) k)) := by
  have hN : cfg1.N = 20 := N_1
  have hi := i.isLt
  have e4 : signedX m ρ c = applyWhole (V3 m ρ) c := (W4_arr m ρ c 3).trans (final1 (V3 m ρ) c)
  have hrow : (⟨5000 * (i.val / 5000) + i.val % 5000, by omega⟩ : Fin 100000) = i := Fin.ext (by show 5000 * (i.val / 5000) + i.val % 5000 = i.val; omega)
  rw [e4, applyWhole_at (V3 m ρ) c ⟨i.val / 5000, by omega⟩ (ix2 ⟨i.val % 5000, Nat.mod_lt _ (by decide)⟩ k) (ix2 i k)
        (by show i.val = 5000 * (i.val / 5000) + i.val % 5000; omega) rfl,
    apply_payload, iblk1_0_apply, iblk1_1_eq, iblk1_2_eq, entry1_rows, entry1_mean, entry1_invStd]
  show Ideal.sign ((argX m c (ix2 ⟨5000 * (i.val / 5000) + i.val % 5000, by omega⟩ k) - _) * _) = _
  rw [hrow]

end AtIdeal

/-! ## The class scores, entry by entry -/

section AtIdeal2
variable (m : (ℓ : Loc nD τ sig) → Buf (Elt Ideal) ℓ) (ρ : Dev nD → PrngReg)

/-- The class scores after the classifier region, entry by entry: row i is the classifier's row function of row i of
    the propagated features, the launched weights and the launched bias. -/
theorem kernel_out (c : Dev nD) (i : Fin 100000) (j : Fin 40) :
    scores m ρ c (ix2 i j)
      = Cert.ClassifyRow.classifyRow (fun k => hiddenX m ρ c (ix2 i k)) (fun j k => argWeights m c (ix2 j k))
          (fun j => argBias m c (ix1 j)) j := by
  have hN : cfg2.N = 20 := N_2
  have hi := i.isLt
  have e6 : scores m ρ c = classifyWhole (V5 m ρ) c := (W6_arr m ρ c 3).trans (final2 (V5 m ρ) c)
  have hrow : (⟨5000 * (i.val / 5000) + i.val % 5000, by omega⟩ : Fin 100000) = i := Fin.ext (by show 5000 * (i.val / 5000) + i.val % 5000 = i.val; omega)
  rw [e6, classifyWhole_at (V5 m ρ) c ⟨i.val / 5000, by omega⟩ (ix2 ⟨i.val % 5000, Nat.mod_lt _ (by decide)⟩ j) (ix2 i j)
        (by show i.val = 5000 * (i.val / 5000) + i.val % 5000; omega) rfl,
    Cert.ClassifyRow.kernel_row]
  have rowCongr : ∀ (a a' : Fin 128 → EReal) (b b' : Fin 40 → Fin 128 → EReal) (d d' : Fin 40 → EReal),
      a = a' → b = b' → d = d' → Cert.ClassifyRow.classifyRow a b d j = Cert.ClassifyRow.classifyRow a' b' d' j := by
    intro a a' b b' d d' ha hb hd; rw [ha, hb, hd]
  refine rowCongr _ _ _ _ _ _ ?_ ?_ ?_
  · funext k
    rw [iblk2_0_apply, entry2_hidden]
    show hiddenX m ρ c (ix2 ⟨5000 * (i.val / 5000) + i.val % 5000, by omega⟩ k) = _
    rw [hrow]
  · funext j' k
    rw [iblk2_1_eq, entry2_weights]
    exact transpose_ix2_apply _ _ k j'
  · funext j'
    rw [iblk2_2_eq, entry2_bias]
    exact shapeCast_a_1a_apply _ _ 0 j'

end AtIdeal2

end Cert.KernelIdeal.Hand

end
-- ==== Proof.RefBatchNorm.lean ====
/-
  The reference's batch normalisation and binarisation read at an entry: with `mean[j]` the mean of column `j` over the
  hundred thousand rows and `var[j]` the mean of the squared deviations from it, entry `(i, j)` of the binarised array is
  the sign of `(x[i, j] - mean[j]) * rsqrt (var[j] + eps)`.
-/
import proofs.«151110_j89026082111679_2_alg».proof.Proof.RefRead
import Idealize.ShloMosaic.Lib.ValueIdx

noncomputable section

namespace Cert.RefBN

open Cert.ReferenceIdeal Cert.ReferenceIdeal.Read Idealize.ShloMosaic Idealize.ShloMosaic.ValueIdx

/-- The mean of column `j`: the column's sum (from the starting value zero) over the batch size. -/
def refMean (x0 : S100000x128.Idx → EReal) (j : Fin 128) : EReal :=
  Ideal.div (Ideal.ofBits .f32 0x00000000#32 + ∑ k : Fin 100000, x0 (ix2 k j)) (Ideal.ofBits .f32 0x47C35000#32)

/-- The variance of column `j`: the mean of the squared deviations from the column's mean. -/
def refVar (x0 : S100000x128.Idx → EReal) (j : Fin 128) : EReal :=
  Ideal.div (Ideal.ofBits .f32 0x00000000#32
      + ∑ k : Fin 100000, (x0 (ix2 k j) - refMean x0 j) * (x0 (ix2 k j) - refMean x0 j)) (Ideal.ofBits .f32 0x47C35000#32)

theorem idx0_eq (j : Fin 128) (k : Fin 100000) : idx_main_v0 (ix1 j) k = ix2 k j := by
  funext a; match a with | ⟨0, _⟩ => rfl | ⟨1, _⟩ => rfl
theorem idx7_eq (j : Fin 128) (k : Fin 100000) : idx_main_v7 (ix1 j) k = ix2 k j := by
  funext a; match a with | ⟨0, _⟩ => rfl | ⟨1, _⟩ => rfl
theorem idx3_eq (u : Fin 1) (j : Fin 128) : idx_main_v3 (ix2 u j) = ix1 j := by
  funext a; match a with | ⟨0, _⟩ => rfl
theorem idx10_eq (u : Fin 1) (j : Fin 128) : idx_main_v10 (ix2 u j) = ix1 j := by
  funext a; match a with | ⟨0, _⟩ => rfl
theorem idx16_eq (u : Fin 1) (j : Fin 128) : idx_main_v16 (ix2 u j) = ix1 j := by
  funext a; match a with | ⟨0, _⟩ => rfl
theorem idx4_eq (i : Fin 100000) (j : Fin 128) : idx_main_v4 (ix2 i j) = ix2 (0 : Fin 1) j := by
  funext a; match a with | ⟨0, _⟩ => rfl | ⟨1, _⟩ => rfl
theorem idx11_eq (i : Fin 100000) (j : Fin 128) : idx_main_v11 (ix2 i j) = ix2 (0 : Fin 1) j := by
  funext a; match a with | ⟨0, _⟩ => rfl | ⟨1, _⟩ => rfl
theorem idx17_eq (i : Fin 100000) (j : Fin 128) : idx_main_v17 (ix2 i j) = ix2 (0 : Fin 1) j := by
  funext a; match a with | ⟨0, _⟩ => rfl | ⟨1, _⟩ => rfl

/-- The reference's mean row at column `j`. -/
theorem mean_apply (x0 : S100000x128.Idx → EReal) (j : Fin 128) :
    val_main_v2 (F := Ideal) x0 (ix1 j) = refMean x0 j := by
  rw [val_main_v2_apply, val_main_v0_apply, val_main_v1_apply]
  simp only [idx0_eq]
  rfl

/-- The centred entry, both times the reference computes it. -/
theorem centred5_apply (x0 : S100000x128.Idx → EReal) (i : Fin 100000) (j : Fin 128) :
    val_main_v5 (F := Ideal) x0 (ix2 i j) = x0 (ix2 i j) - refMean x0 j := by
  rw [val_main_v5_apply, val_main_v4_apply, idx4_eq, val_main_v3_apply, idx3_eq, mean_apply]
  rfl
theorem centred12_apply (x0 : S100000x128.Idx → EReal) (i : Fin 100000) (j : Fin 128) :
    val_main_v12 (F := Ideal) x0 (ix2 i j) = x0 (ix2 i j) - refMean x0 j := by
  rw [val_main_v12_apply, val_main_v11_apply, idx11_eq, val_main_v10_apply, idx10_eq, mean_apply]
  rfl

/-- The reference's variance row at column `j`. -/
theorem var_apply (x0 : S100000x128.Idx → EReal) (j : Fin 128) :
    val_main_v9 (F := Ideal) x0 (ix1 j) = refVar x0 j := by
  rw [val_main_v9_apply, val_main_v7_apply, val_main_v8_apply]
  simp only [idx7_eq, val_main_v6_apply, centred5_apply]
  rfl

/-- Entry `(i, j)` of the reference's binarised array. -/
theorem h0_apply (x0 : S100000x128.Idx → EReal) (i : Fin 100000) (j : Fin 128) :
    val_main_v19 (F := Ideal) x0 (ix2 i j)
      = Ideal.sign ((x0 (ix2 i j) - refMean x0 j) * Ideal.rsqrt (refVar x0 j + Ideal.ofBits .f32 0x3727C5AC#32)) := by
  rw [val_main_v19_apply, val_main_v18_apply, centred12_apply, val_main_v17_apply, idx17_eq, val_main_v16_apply, idx16_eq,
    val_main_v15_apply, val_main_v14_apply, var_apply, val_main_v13_apply]
  rfl

end Cert.RefBN

end
-- ==== Proof.BatchNormLaw.lean ====
/-
  One column of a batch of finite numbers, as both programs treat it. With `n = 100000` the batch size:
  the mean taken from a sum that starts at the zero constant is the mean taken from the bare sum, and the variance
  "mean of the squares minus the squared mean, not below zero" is the variance "mean of the squared deviations from
  the mean" (sum started at the zero constant). The second needs every entry finite: it moves the mean across a sum.
-/
import proofs.«151110_j89026082111679_2_alg».proof.Proof.BatchStats
import proofs.«151110_j89026082111679_2_alg».proof.Proof.Consts

noncomputable section

namespace Cert.BatchNormLaw

open Idealize.ShloMosaic Cert.BatchStats

/-- The mean of a column whichever way the sum is started. -/
theorem mean_eq (x : Fin 100000 → EReal) :
    Ideal.div (Ideal.ofBits .f32 0x00000000#32 + ∑ k, x k) (Ideal.ofBits .f32 0x47C35000#32)
      = Ideal.div (∑ k, x k) (Ideal.ofBits .f32 0x47C35000#32) := by
  rw [Cert.Consts.ofBits_zero, zero_add]

/-- The one-pass variance, kept from going below zero, is the two-pass variance, on a column of finite numbers. -/
theorem var_eq (x : Fin 100000 → EReal) (hx : ∀ k, ∃ r : ℝ, x k = (r : EReal)) :
    max (Ideal.div (∑ k, x k * x k) (Ideal.ofBits .f32 0x47C35000#32)
          - Ideal.div (∑ k, x k) (Ideal.ofBits .f32 0x47C35000#32) * Ideal.div (∑ k, x k) (Ideal.ofBits .f32 0x47C35000#32))
        (Ideal.ofBits .f32 0x00000000#32)
      = Ideal.div (Ideal.ofBits .f32 0x00000000#32
          + ∑ k, (x k - Ideal.div (Ideal.ofBits .f32 0x00000000#32 + ∑ l, x l) (Ideal.ofBits .f32 0x47C35000#32))
               * (x k - Ideal.div (Ideal.ofBits .f32 0x00000000#32 + ∑ l, x l) (Ideal.ofBits .f32 0x47C35000#32)))
          (Ideal.ofBits .f32 0x47C35000#32) := by
  choose r hr using hx
  have hx' : x = fun k => ((r k : ℝ) : EReal) := funext hr
  subst hx'
  have hN : (0 : ℝ) < 100000 := by norm_num
  have h1 : (∑ k, ((r k : ℝ) : EReal) * ((r k : ℝ) : EReal)) = ((∑ k, r k * r k : ℝ) : EReal) := by
    simp only [← EReal.coe_mul]; exact coe_sum _ _
  have h2 : (∑ k, ((r k : ℝ) : EReal)) = ((∑ k, r k : ℝ) : EReal) := coe_sum _ _
  have h3 : Ideal.div ((∑ k, r k : ℝ) : EReal) ((100000 : ℝ) : EReal) = (((∑ k, r k) / 100000 : ℝ) : EReal) :=
    div_coe_coe _ _ hN.ne'
  have h4 : ∀ μ : ℝ, (∑ k, (((r k : ℝ) : EReal) - (μ : EReal)) * (((r k : ℝ) : EReal) - (μ : EReal)))
      = ((∑ k, (r k - μ) * (r k - μ) : ℝ) : EReal) := fun μ => by
    simp only [← EReal.coe_sub, ← EReal.coe_mul]; exact coe_sum _ _
  rw [Cert.Consts.ofBits_zero, Cert.Consts.ofBits_1e5, zero_add, zero_add, h1, h2]
  conv_rhs => rw [h3, h4]
  exact var_one_pass_eq r 100000 (by norm_num) hN

end Cert.BatchNormLaw

end
-- ==== Proof.KI.BatchNormBridge.lean ====
/-
  The kernel's binarised entry is the reference's. The kernel normalises with the mean and the inverse deviation its host
  code derives from the column sums and the column sums of squares; the reference centres first and averages the squared
  deviations. On a batch of finite numbers the two variances agree (the one-pass form equals the two-pass form, which is
  nonnegative), the means agree outright, and so the two signs are signs of the same number.
-/
import proofs.«151110_j89026082111679_2_alg».proof.Proof.KI.HostStages
import proofs.«151110_j89026082111679_2_alg».proof.Proof.RefBatchNorm
import proofs.«151110_j89026082111679_2_alg».proof.Proof.BatchNormLaw

noncomputable section

namespace Cert.KernelIdeal.Hand

open Cert.KernelIdeal Idealize.ShloMosaic Idealize.ShloMosaic.ValueIdx

/-- The kernel's mean row at column `j`, from the row of column sums. -/
theorem meanOf_apply (s0 : S1x128.Idx → EReal) (j : Fin 128) :
    meanOf (F := Ideal) s0 (ix2 (0 : Fin 1) j) = Ideal.div (s0 (ix2 (0 : Fin 1) j)) (Ideal.ofBits .f32 0x47C35000#32) := rfl

/-- The kernel's inverse deviation row at column `j`. -/
theorem invStdOf_apply (s0 s1 : S1x128.Idx → EReal) (j : Fin 128) :
    invStdOf (F := Ideal) s0 s1 (ix2 (0 : Fin 1) j)
      = Ideal.rsqrt (max (Ideal.div (s1 (ix2 (0 : Fin 1) j)) (Ideal.ofBits .f32 0x47C35000#32)
            - Ideal.div (s0 (ix2 (0 : Fin 1) j)) (Ideal.ofBits .f32 0x47C35000#32)
              * Ideal.div (s0 (ix2 (0 : Fin 1) j)) (Ideal.ofBits .f32 0x47C35000#32)) (Ideal.ofBits .f32 0x00000000#32)
          + Ideal.ofBits .f32 0x3727C5AC#32) := rfl

/-- With the accumulated rows equal to the column sums and the column sums of squares of a finite batch, the kernel's
    binarised entry `(i, j)` is the reference's. -/
theorem binarised_eq (x : S100000x128.Idx → EReal) (hx : ∀ y, ∃ r : ℝ, x y = (r : EReal))
    (s0 s1 : S1x128.Idx → EReal)
    (h0 : ∀ j : Fin 128, s0 (ix2 (0 : Fin 1) j) = ∑ k : Fin 100000, x (ix2 k j))
    (h1 : ∀ j : Fin 128, s1 (ix2 (0 : Fin 1) j) = ∑ k : Fin 100000, x (ix2 k j) * x (ix2 k j))
    (i : Fin 100000) (j : Fin 128) :
    Ideal.sign ((x (ix2 i j) - meanOf (F := Ideal) s0 (ix2 (0 : Fin 1) j)) * invStdOf (F := Ideal) s0 s1 (ix2 (0 : Fin 1) j))
      = Cert.ReferenceIdeal.Read.val_main_v19 (F := Ideal) x (ix2 i j) := by
  rw [Cert.RefBN.h0_apply, meanOf_apply, invStdOf_apply, h0, h1]
  have hm : Cert.RefBN.refMean x j = Ideal.div (∑ k : Fin 100000, x (ix2 k j)) (Ideal.ofBits .f32 0x47C35000#32) :=
    Cert.BatchNormLaw.mean_eq fun k => x (ix2 k j)
  have hv := Cert.BatchNormLaw.var_eq (fun k => x (ix2 k j)) fun k => hx (ix2 k j)
  rw [hm]
  refine congrArg (fun t => Ideal.sign ((x (ix2 i j) - Ideal.div (∑ k : Fin 100000, x (ix2 k j)) (Ideal.ofBits .f32 0x47C35000#32))
    * Ideal.rsqrt (t + Ideal.ofBits .f32 0x3727C5AC#32))) ?_
  exact hv

end Cert.KernelIdeal.Hand

end
-- ==== Proof.ClassifyRowRef.lean ====
/-
  The reference's classifier read at an element as the same row `classifyRow` (ClassifyRow.lean): the host's
  `dot_general` against the transposed weights is the sum of products over the features, its reduce with a maximum body
  from −∞ is the fold of `max` (and the further maximum with −∞ changes nothing), its sum from zero is the sum over the
  40 columns, and the broadcasts in dimension read the reduced value of the element's own row.
-/
import proofs.«151110_j89026082111679_2_alg».proof.Proof.ClassifyRow
import proofs.«151110_j89026082111679_2_alg».proof.Proof.Gen.ReferenceIdeal
import proofs.«151110_j89026082111679_2_alg».proof.Proof.RefRead
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx
open scoped BigOperators

namespace Cert.ClassifyRow

/-! ## The host's layout steps of a row reduction kept as a column -/

section HostLayout
variable {α : Type}

/-- A length-`a` array broadcast in dimension 0 to an `[a, 1]` column reads, at `(p, 0)`, the array at `p`. -/
theorem bcastInDim_a_a1_apply {a : ℕ} (h : (⟨1, ![a]⟩ : Shape).BroadcastsInDim ⟨2, ![a, 1]⟩ (![0] : Fin 1 → Fin 2))
    (v : (⟨1, ![a]⟩ : Shape).Idx → α) (p : Fin a) :
    broadcastInDim ⟨2, ![a, 1]⟩ (![0] : Fin 1 → Fin 2) h v (ix2 p (0 : Fin 1)) = v (ix1 p) := by
  refine broadcastInDim_apply _ h v (ix2 p (0 : Fin 1)) (ix1 p) fun ax => ?_
  match ax with
  | ⟨0, _⟩ =>
    show p.val = if a = 1 then 0 else p.val
    split
    · have := p.isLt; omega
    · rfl

/-- An `[a, 1]` column broadcast in dimensions (0, 1) to `[a, b]` reads, at `(p, c)`, the column at `p`. -/
theorem bcastInDim_a1_ab_apply {a b : ℕ} (h : (⟨2, ![a, 1]⟩ : Shape).BroadcastsInDim ⟨2, ![a, b]⟩ (![0, 1] : Fin 2 → Fin 2))
    (v : (⟨2, ![a, 1]⟩ : Shape).Idx → α) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A length-`b` array broadcast in dimension 1 to a `[1, b]` row reads, at `(0, c)`, the array at `c`. -/
theorem bcastInDim_b_1b_apply {b : ℕ} (h : (⟨1, ![b]⟩ : Shape).BroadcastsInDim ⟨2, ![1, b]⟩ (![1] : Fin 1 → Fin 2))
    (v : (⟨1, ![b]⟩ : Shape).Idx → α) (c : Fin b) :
    broadcastInDim ⟨2, ![1, b]⟩ (![1] : Fin 1 → Fin 2) h v (ix2 (0 : Fin 1) c) = v (ix1 c) := by
  refine broadcastInDim_apply _ h v (ix2 (0 : Fin 1) c) (ix1 c) fun ax => ?_
  match ax with
  | ⟨0, _⟩ =>
    show c.val = if b = 1 then 0 else c.val
    split
    · have := c.isLt; omega
    · rfl

/-- A `[1, b]` row broadcast in dimensions (0, 1) to `[a, b]` reads, at `(p, c)`, the row at `c`. -/
theorem bcastInDim_1b_ab_apply {a b : ℕ} (h : (⟨2, ![1, b]⟩ : Shape).BroadcastsInDim ⟨2, ![a, b]⟩ (![0, 1] : Fin 2 → Fin 2))
    (v : (⟨2, ![1, b]⟩ : Shape).Idx → α) (p : Fin a) (c : Fin b) :
    broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ =>
    show 0 = if (1 : ℕ) = 1 then 0 else p.val
    rw [if_pos rfl]
  | ⟨1, _⟩ =>
    show c.val = if b = 1 then 0 else c.val
    split
    · have := c.isLt; omega
    · rfl

end HostLayout

/-! ## The host's two row reductions and its log-softmax of an `[n, 40]` array -/

section HostRow
variable {n : ℕ}

/-- The host's exponential and logarithm read at an index. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- −∞ is below the fold of `max` that starts from it, so taking the maximum with it again changes nothing. -/
theorem max_negInf_rowMax (l : Fin 40 → EReal) : max (Ideal.ofBits .f32 0xFF800000#32) (rowMax l) = rowMax l := by
  unfold rowMax
  exact max_eq_right ((Finset.le_fold_max _).mpr (Or.inl le_rfl))

/-- The host's reduce with a maximum body over the 40 columns, from −∞, at row `i`, is the row's maximum. -/
theorem host_rowMax_apply (y : FVec Ideal ⟨2, ![n, 40]⟩ .f32) (h' : (⟨2, ![n, 40]⟩ : Shape).ReducesTo [1] ⟨1, ![n]⟩)
    (h : (⟨2, ![n, 40]⟩ : Shape).Reduces [1] ⟨1, ![n]⟩) (hu : 0 < (⟨0, ![]⟩ : Shape).numel) (i : Fin n) :
    Host.reduce FloatOps.maximumf y (constant (F := Ideal) ⟨0, ![]⟩ .f32 0xFF800000#32) h' hu (ix1 i)
      = rowMax fun k => y (ix2 i k) := by
  refine (Host.reduce_eq_fold_single FloatOps.maximumf y _ h' h hu (ix1 i)).trans ?_
  unfold rowMax
  have hf : (y ∘ h.lift (ix1 i)) = fun k : Fin 40 => y (ix2 i k) := funext fun k => congrArg y (lift_col h i k)
  exact congrArg (fun f => Finset.fold max (Ideal.ofBits .f32 0xFF800000#32) f (Finset.univ : Finset (Fin 40))) hf

/-- The host's sum over the 40 columns, from zero, at row `i`, is the row's sum. -/
theorem host_rowSum_apply (y : FVec Ideal ⟨2, ![n, 40]⟩ .f32) (h' : (⟨2, ![n, 40]⟩ : Shape).ReducesTo [1] ⟨1, ![n]⟩)
    (h : (⟨2, ![n, 40]⟩ : Shape).Reduces [1] ⟨1, ![n]⟩) (hu : 0 < (⟨0, ![]⟩ : Shape).numel) (i : Fin n) :
    Host.reduceAdd y (constant (F := Ideal) ⟨0, ![]⟩ .f32 0x00000000#32) h' hu (ix1 i) = ∑ k : Fin 40, y (ix2 i k) := by
  simp only [Host.reduceAdd, Ideal.hostReduceAdd_def]
  refine (Ideal.hostReduceAdd_single h' h y _ (ix1 i)).trans ?_
  show Ideal.ofBits .f32 0x00000000#32 + _ = _
  rw [Ideal.ofBits_zero_f32, zero_add]
  exact Finset.sum_congr rfl fun k _ => congrArg y (lift_col h i k)

/-- The row maxima as the host takes them: the maximum of a −∞ splat and the reduce over the columns. -/
def hostMaxVec (y : FVec Ideal ⟨2, ![n, 40]⟩ .f32) (h' : (⟨2, ![n, 40]⟩ : Shape).ReducesTo [1] ⟨1, ![n]⟩)
    (hu : 0 < (⟨0, ![]⟩ : Shape).numel) (hb0 : (⟨0, ![]⟩ : Shape).BroadcastsInDim ⟨1, ![n]⟩ (![] : Fin 0 → Fin 1)) :
    FVec Ideal ⟨1, ![n]⟩ .f32 :=
  maximumf (broadcastInDim ⟨1, ![n]⟩ (![] : Fin 0 → Fin 1) hb0 (constant (F := Ideal) ⟨0, ![]⟩ .f32 0xFF800000#32))
    (Host.reduce FloatOps.maximumf y (constant (F := Ideal) ⟨0, ![]⟩ .f32 0xFF800000#32) h' hu)

/-- The array shifted by its row maxima, each kept as a column and broadcast back. -/
def hostShift (y : FVec Ideal ⟨2, ![n, 40]⟩ .f32) (h' : (⟨2, ![n, 40]⟩ : Shape).ReducesTo [1] ⟨1, ![n]⟩)
    (hu : 0 < (⟨0, ![]⟩ : Shape).numel) (hb0 : (⟨0, ![]⟩ : Shape).BroadcastsInDim ⟨1, ![n]⟩ (![] : Fin 0 → Fin 1))
    (hb1 : (⟨1, ![n]⟩ : Shape).BroadcastsInDim ⟨2, ![n, 1]⟩ (![0] : Fin 1 → Fin 2))
    (hb2 : (⟨2, ![n, 1]⟩ : Shape).BroadcastsInDim ⟨2, ![n, 40]⟩ (![0, 1] : Fin 2 → Fin 2)) : FVec Ideal ⟨2, ![n, 40]⟩ .f32 :=
  subf y (broadcastInDim ⟨2, ![n, 40]⟩ (![0, 1] : Fin 2 → Fin 2) hb2
    (broadcastInDim ⟨2, ![n, 1]⟩ (![0] : Fin 1 → Fin 2) hb1 (hostMaxVec y h' hu hb0)))

/-- The host's log-softmax over the columns: the shifted array minus the logarithm of the row sums of its
    exponentials, each kept as a column and broadcast back. -/
def hostLogSoftmax (y : FVec Ideal ⟨2, ![n, 40]⟩ .f32) (h' : (⟨2, ![n, 40]⟩ : Shape).ReducesTo [1] ⟨1, ![n]⟩)
    (hu : 0 < (⟨0, ![]⟩ : Shape).numel) (hb0 : (⟨0, ![]⟩ : Shape).BroadcastsInDim ⟨1, ![n]⟩ (![] : Fin 0 → Fin 1))
    (hb1 : (⟨1, ![n]⟩ : Shape).BroadcastsInDim ⟨2, ![n, 1]⟩ (![0] : Fin 1 → Fin 2))
    (hb2 : (⟨2, ![n, 1]⟩ : Shape).BroadcastsInDim ⟨2, ![n, 40]⟩ (![0, 1] : Fin 2 → Fin 2)) : FVec Ideal ⟨2, ![n, 40]⟩ .f32 :=
  subf (hostShift y h' hu hb0 hb1 hb2) (broadcastInDim ⟨2, ![n, 40]⟩ (![0, 1] : Fin 2 → Fin 2) hb2
    (Host.log (broadcastInDim ⟨2, ![n, 1]⟩ (![0] : Fin 1 → Fin 2) hb1
      (Host.reduceAdd (Host.exp (hostShift y h' hu hb0 hb1 hb2)) (constant (F := Ideal) ⟨0, ![]⟩ .f32 0x00000000#32) h' hu))))

/-- The host's row maximum at row `i`. -/
theorem hostMaxVec_apply (y : FVec Ideal ⟨2, ![n, 40]⟩ .f32) (h' : (⟨2, ![n, 40]⟩ : Shape).ReducesTo [1] ⟨1, ![n]⟩)
    (h : (⟨2, ![n, 40]⟩ : Shape).Reduces [1] ⟨1, ![n]⟩)
    (hu : 0 < (⟨0, ![]⟩ : Shape).numel) (hb0 : (⟨0, ![]⟩ : Shape).BroadcastsInDim ⟨1, ![n]⟩ (![] : Fin 0 → Fin 1)) (i : Fin n) :
    hostMaxVec y h' hu hb0 (ix1 i) = rowMax fun k => y (ix2 i k) := by
  unfold hostMaxVec
  rw [maximumf_apply, host_rowMax_apply y h' h hu i]
  exact max_negInf_rowMax _

/-- The shifted array at `(i, k)`. -/
theorem hostShift_apply (y : FVec Ideal ⟨2, ![n, 40]⟩ .f32) (h' : (⟨2, ![n, 40]⟩ : Shape).ReducesTo [1] ⟨1, ![n]⟩)
    (h : (⟨2, ![n, 40]⟩ : Shape).Reduces [1] ⟨1, ![n]⟩)
    (hu : 0 < (⟨0, ![]⟩ : Shape).numel) (hb0 : (⟨0, ![]⟩ : Shape).BroadcastsInDim ⟨1, ![n]⟩ (![] : Fin 0 → Fin 1))
    (hb1 : (⟨1, ![n]⟩ : Shape).BroadcastsInDim ⟨2, ![n, 1]⟩ (![0] : Fin 1 → Fin 2))
    (hb2 : (⟨2, ![n, 1]⟩ : Shape).BroadcastsInDim ⟨2, ![n, 40]⟩ (![0, 1] : Fin 2 → Fin 2)) (i : Fin n) (k : Fin 40) :
    hostShift y h' hu hb0 hb1 hb2 (ix2 i k) = y (ix2 i k) - rowMax fun k => y (ix2 i k) := by
  unfold hostShift
  rw [subf_apply, bcastInDim_a1_ab_apply, bcastInDim_a_a1_apply, hostMaxVec_apply y h' h hu hb0 i]

/-- Read at `(i, j)` the host's log-softmax is the log-softmax of row `i` at `j`. -/
theorem hostLogSoftmax_apply (y : FVec Ideal ⟨2, ![n, 40]⟩ .f32) (h' : (⟨2, ![n, 40]⟩ : Shape).ReducesTo [1] ⟨1, ![n]⟩)
    (h : (⟨2, ![n, 40]⟩ : Shape).Reduces [1] ⟨1, ![n]⟩)
    (hu : 0 < (⟨0, ![]⟩ : Shape).numel) (hb0 : (⟨0, ![]⟩ : Shape).BroadcastsInDim ⟨1, ![n]⟩ (![] : Fin 0 → Fin 1))
    (hb1 : (⟨1, ![n]⟩ : Shape).BroadcastsInDim ⟨2, ![n, 1]⟩ (![0] : Fin 1 → Fin 2))
    (hb2 : (⟨2, ![n, 1]⟩ : Shape).BroadcastsInDim ⟨2, ![n, 40]⟩ (![0, 1] : Fin 2 → Fin 2)) (i : Fin n) (j : Fin 40) :
    hostLogSoftmax y h' hu hb0 hb1 hb2 (ix2 i j) = logSoftmaxRow (fun k => y (ix2 i k)) j := by
  unfold hostLogSoftmax logSoftmaxRow
  rw [subf_apply, hostShift_apply y h' h hu hb0 hb1 hb2 i j, bcastInDim_a1_ab_apply, hostLog_apply, bcastInDim_a_a1_apply,
    host_rowSum_apply _ h' h hu i]
  refine congrArg (fun s => (y (ix2 i j) - rowMax fun k => y (ix2 i k)) - Ideal.log s) (Finset.sum_congr rfl fun k _ => ?_)
  rw [hostExp_apply, hostShift_apply y h' h hu hb0 hb1 hb2 i k]

end HostRow

/-! ## The reference's array of logits -/

section ReferenceSide
open Cert.ReferenceIdeal Cert.ReferenceIdeal.Gen

/-- The dot of the reference's `dot_general`: the `[100000, 128]` features times the `[128, 40]` transposed weights. -/
local notation "dotR" => Cert.ReferenceIdeal.dot_S100000x128_S128x40_S100000x40_1_0_0_1_n_n

/-- Its left operand index at output `(i, j)` keeps the row. -/
theorem dotR_lhs_row (i : S100000x40.Idx) (q : (dotR).contr.Idx) : ((dotR).lhsIdx i q 0).val = (i 0).val := by
  unfold DotDims.lhsIdx
  rw [dif_neg (show ¬(0 : Fin S100000x128.rank) ∈ (dotR).lhsBatch by decide),
    dif_pos (show (0 : Fin S100000x128.rank) ∈ (dotR).lhsNonContracting by decide)]
  rfl

/-- Its right operand index at output `(i, j)` keeps the column. -/
theorem dotR_rhs_col (i : S100000x40.Idx) (q : (dotR).contr.Idx) : ((dotR).rhsIdx i q 1).val = (i 1).val := by
  unfold DotDims.rhsIdx
  rw [dif_neg (show ¬(1 : Fin S128x40.rank) ∈ (dotR).rhsBatch by decide),
    dif_pos (show (1 : Fin S128x40.rank) ∈ (dotR).rhsNonContracting by decide)]
  rfl

/-- The array of logits as the reference computes it from the aggregated features `y`: `y` times the transposed
    weights, plus the bias made a row and broadcast over the rows. -/
def hostLogits (y : FVec Ideal S100000x128 .f32) (x1 : FVec Ideal S40x128 .f32) (x2 : FVec Ideal S40 .f32) :
    FVec Ideal S100000x40 .f32 :=
  addf (Host.dotGeneral dotR none y (transpose S128x40 [1, 0] x1 transposes_S40x128_S128x40_1_0))
    (broadcastInDim S100000x40 ![0, 1] bcast_S1x40_S100000x40_0_1 (broadcastInDim S1x40 ![1] bcast_S40_S1x40_1 x2))

/-- Read at `(i, j)`: row `i` of the features against row `j` of the weights, plus the bias at `j`. -/
theorem hostLogits_apply (y : FVec Ideal S100000x128 .f32) (x1 : FVec Ideal S40x128 .f32) (x2 : FVec Ideal S40 .f32)
    (i : Fin 100000) (j : Fin 40) :
    hostLogits y x1 x2 (ix2 i j) = logits (fun k => y (ix2 i k)) (fun j k => x1 (ix2 j k)) (fun j => x2 (ix1 j)) j := by
  unfold hostLogits logits
  rw [addf_apply, bcastInDim_1b_ab_apply, bcastInDim_b_1b_apply]
  refine congrArg (· + x2 (ix1 j)) ?_
  simp only [Host.dotGeneral]
  rw [Ideal.dotGeneral_apply, ← Equiv.sum_comp (contrEquiv1 dotR 128 rfl rfl).symm]
  refine Finset.sum_congr rfl fun k _ => ?_
  have hk := contrEquiv1_symm_val dotR 128 rfl rfl k
  have el : (dotR).lhsIdx (ix2 i j) ((contrEquiv1 dotR 128 rfl rfl).symm k) = ix2 i k := funext fun a => Fin.ext (by
    match a with
    | ⟨0, _⟩ => exact dotR_lhs_row _ _
    | ⟨1, _⟩ => exact ((dotR).lhsIdx_val_of_single rfl _ _).trans hk)
  have er : (dotR).rhsIdx (ix2 i j) ((contrEquiv1 dotR 128 rfl rfl).symm k) = ix2 k j := funext fun a => Fin.ext (by
    match a with
    | ⟨0, _⟩ => exact ((dotR).rhsIdx_val_of_single rfl _ _).trans hk
    | ⟨1, _⟩ => exact dotR_rhs_col _ _)
  rw [el, er, transpose_ix2_apply]

/-- The reference's classifier from the aggregated features: the log-softmax of the logits. -/
def hostClassify (y : FVec Ideal S100000x128 .f32) (x1 : FVec Ideal S40x128 .f32) (x2 : FVec Ideal S40 .f32) :
    FVec Ideal S100000x40 .f32 :=
  hostLogSoftmax (hostLogits y x1 x2) reducesTo_S100000x40_S100000_d1 h_S_ bcast_S_S100000 bcast_S100000_S100000x1_0
    bcast_S100000x1_S100000x40_0_1

/-- Read at `(i, j)` it is the classifier's row `i` at `j`. -/
theorem hostClassify_apply (y : FVec Ideal S100000x128 .f32) (x1 : FVec Ideal S40x128 .f32) (x2 : FVec Ideal S40 .f32)
    (i : Fin 100000) (j : Fin 40) :
    hostClassify y x1 x2 (ix2 i j) = classifyRow (fun k => y (ix2 i k)) (fun j k => x1 (ix2 j k)) (fun j => x2 (ix1 j)) j := by
  unfold hostClassify classifyRow
  refine (hostLogSoftmax_apply (hostLogits y x1 x2) _ (by decide) _ _ _ _ i j).trans ?_
  exact congrArg (fun l => logSoftmaxRow l j) (funext fun k => hostLogits_apply y x1 x2 i k)

end ReferenceSide

/-! ## The reference's last stage is that classifier of its aggregated features -/

section ReferenceRow
open Cert.ReferenceIdeal Cert.ReferenceIdeal.Gen Cert.ReferenceIdeal.Read

/-- The reference's result stage, as an array, is `hostClassify` of the stage that aggregates the features (the stages
    in between unfold to the same operations on it). -/
theorem val_main_v89_eq_hostClassify (x0 : (⟨S100000x128, .f32⟩ : BufTy).Contents (Elt Ideal))
    (x1 : (⟨S40x128, .f32⟩ : BufTy).Contents (Elt Ideal)) (x2 : (⟨S40, .f32⟩ : BufTy).Contents (Elt Ideal))
    (x3 : (⟨S2x1600000, .i32⟩ : BufTy).Contents (Elt Ideal)) :
    val_main_v89 (F := Ideal) x0 x1 x2 x3 = hostClassify (val_main_v83 (F := Ideal) x0 x3) x1 x2 := by
  unfold val_main_v89 val_main_call0_v10 val_main_call0_v9 val_main_call0_v8 val_main_call0_v7 val_main_call0_cst_1
    val_main_call0_v6 val_main_call0_v5 val_main_call0_v4 val_main_call0_v3 val_main_call0_v2 val_main_call0_v1
    val_main_call0_cst_0 val_main_call0_v0 val_main_call0_cst val_main_v88 val_main_v87 val_main_v86 val_main_v85 val_main_v84
  generalize val_main_v83 (F := Ideal) x0 x3 = y
  rfl

/-- The reference's result at `(i, j)` is the classifier's row of the aggregated features' row `i`, at `j`. -/
theorem reference_row (x0 : (⟨S100000x128, .f32⟩ : BufTy).Contents (Elt Ideal))
    (x1 : (⟨S40x128, .f32⟩ : BufTy).Contents (Elt Ideal)) (x2 : (⟨S40, .f32⟩ : BufTy).Contents (Elt Ideal))
    (x3 : (⟨S2x1600000, .i32⟩ : BufTy).Contents (Elt Ideal)) (i : Fin 100000) (j : Fin 40) :
    val_main_v89 (F := Ideal) x0 x1 x2 x3 (ix2 i j)
      = classifyRow (fun k => val_main_v83 (F := Ideal) x0 x3 (ix2 i k)) (fun j k => x1 (ix2 j k)) (fun j => x2 (ix1 j)) j :=
  (congrFun (val_main_v89_eq_hostClassify x0 x1 x2 x3) (ix2 i j)).trans
    (hostClassify_apply (val_main_v83 (F := Ideal) x0 x3) x1 x2 i j)

end ReferenceRow

end Cert.ClassifyRow
-- ==== Proof.FiniteInputs.lean ====
/-
  From the precondition to real numbers. The precondition says that a printed predicate of the three float arguments —
  for each array, the conjunction over every entry of "the absolute value is below +∞" — is 1. A conjunction that is 1
  has every conjunct 1; an extended real whose absolute value `max x (-x)` is strictly below ⊤ is neither ⊥ nor ⊤, so
  it is a real number. Hence every entry of the features, the weights and the bias is a real.
-/
import proofs.«151110_j89026082111679_2_alg».proof.Defs
import Idealize.ShloMosaic.Lib.ReduceAll
import Idealize.ShloMosaic.Lib.ValueIdx
import Idealize.ShloMosaic.PureOps.Ideal.Laws

noncomputable section

open Idealize.ShloMosaic Idealize.ShloMosaic.ValueIdx Idealize.SL.Sem

namespace Cert.FiniteInputs

variable [hPre_finite_inputs : Cert.Pre_finite_inputs.Facts]

/-- The scalar shape has one index. -/
instance : Subsingleton Cert.Pre_finite_inputs.S_.Idx := ⟨fun a b => funext fun d => d.elim0⟩

/-- The binary32 pattern of +∞ denotes the top element. -/
theorem ofBits_pos_inf : Ideal.ofBits .f32 0x7F800000#32 = ⊤ := by
  simp [Ideal.ofBits, Ideal.ieee]

/-- An extended real whose absolute value `max x (-x)` compares below +∞ is a real number. -/
theorem real_of_abs_lt_inf (x : EReal)
    (h : Ideal.cmp .olt (max x (-x)) (Ideal.ofBits .f32 0x7F800000#32) = 1#1) : ∃ r : ℝ, x = (r : EReal) := by
  rw [ofBits_pos_inf] at h
  induction x using EReal.rec with
  | bot => exact absurd h (by simp [Ideal.cmp])
  | top => exact absurd h (by simp [Ideal.cmp])
  | coe r => exact ⟨r, rfl⟩

section Read
variable (m : (ℓ : Loc Cert.KernelIdeal.nD Cert.KernelIdeal.τ Cert.KernelIdeal.sig) → Buf (Elt Ideal) ℓ)

/-- Under the precondition every entry of the feature array is a real number. -/
theorem x_finite (h : Cert.Pre_KernelIdeal m) (c : Dev Cert.KernelIdeal.nD) (i : Cert.KernelIdeal.S100000x128.Idx) :
    ∃ r : ℝ, m ((c.tc : Thread Cert.KernelIdeal.nD Cert.KernelIdeal.τ).loc Cert.KernelIdeal.main_arg0) i = (r : EReal) := by
  have h0 := congrFun (h c) ix0
  dsimp only [Cert.Pre_finite_inputs.fn] at h0
  obtain ⟨h8, h12⟩ := IntOp.andi_eq_one.1 h0
  obtain ⟨h3, h7⟩ := IntOp.andi_eq_one.1 h8
  exact real_of_abs_lt_inf _ (Host.reduce_andi_all _ _ _ _ _ h3 i)

/-- Under the precondition every entry of the weight array is a real number. -/
theorem W_finite (h : Cert.Pre_KernelIdeal m) (c : Dev Cert.KernelIdeal.nD) (i : Cert.KernelIdeal.S40x128.Idx) :
    ∃ r : ℝ, m ((c.tc : Thread Cert.KernelIdeal.nD Cert.KernelIdeal.τ).loc Cert.KernelIdeal.main_arg1) i = (r : EReal) := by
  have h0 := congrFun (h c) ix0
  dsimp only [Cert.Pre_finite_inputs.fn] at h0
  obtain ⟨h8, h12⟩ := IntOp.andi_eq_one.1 h0
  obtain ⟨h3, h7⟩ := IntOp.andi_eq_one.1 h8
  exact real_of_abs_lt_inf _ (Host.reduce_andi_all _ _ _ _ _ h7 i)

/-- Under the precondition every entry of the bias array is a real number. -/
theorem b_finite (h : Cert.Pre_KernelIdeal m) (c : Dev Cert.KernelIdeal.nD) (i : Cert.KernelIdeal.S40.Idx) :
    ∃ r : ℝ, m ((c.tc : Thread Cert.KernelIdeal.nD Cert.KernelIdeal.τ).loc Cert.KernelIdeal.main_arg2) i = (r : EReal) := by
  have h0 := congrFun (h c) ix0
  dsimp only [Cert.Pre_finite_inputs.fn] at h0
  obtain ⟨h8, h12⟩ := IntOp.andi_eq_one.1 h0
  exact real_of_abs_lt_inf _ (Host.reduce_andi_all _ _ _ _ _ h12 i)

end Read

end Cert.FiniteInputs
-- ==== Proof.RefRunProof.lean ====
/- The reference's run. The reference's @main is one straight line of 124 host operations: the batch normalisation of
   the features and its sign, the edge list with its self loops, the in-degrees and the edge weights, three
   propagations over the graph (gather at the sources, weigh, scatter onto the destinations), the classifier and the
   log-softmax along the classes. What the line leaves in the result buffer is the composition of the operations'
   functions, which the read-back module names stage by stage (val_… of the four arguments). This module proves that
   the contents after the line, read at the result, are the last stage function of the launch contents of the
   arguments — stretch by stretch, each stretch from ARBITRARY entering contents that hold the earlier stages in the
   buffers the stretch reads, so that the composed term of the whole line is never formed — and concludes the run:
   every weakly fair execution terminates, the result at that value, the arguments unchanged. -/
import proofs.«151110_j89026082111679_2_alg».proof.Proof.RefRead
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

/-! ## The contents after a stretch of the list, stretch by stretch

The reference's @main is one straight line of 124 host operations. Its contents after the whole line, read at the
result, are computed in ten consecutive stretches: after each one, the buffers that a later stretch reads hold the
stage functions of the four arguments (the read-back module's `val_…`), GIVEN that the buffers it reads held theirs
when it was entered. The entering contents W are arbitrary, so that no stretch ever unfolds an earlier one. An
operation whose function builds a list of its operands (a concatenation) is the first of its stretch: its operands
are then read off W directly. -/

/-- The contents after the operations from position a on: those after the next n of them, then the rest. -/
theorem after_drop_step (l : List (HloOp τ sig (Elt F))) (a n b : Nat) (hb : a + n = b) (V : Valuation τ sig (Elt F)) :
    after (l.drop a) V = after (l.drop b) (after ((l.drop a).take n) V) := by
  subst hb
  conv_lhs => rw [← List.take_append_drop n (l.drop a)]
  rw [after_append, List.drop_drop]

/-- Contents moved to a typed reference's buffer and back are the contents. -/
theorem ofBuf_toBuf {T : BufTy} (x : TRef sig T) (v : T.Contents (Elt F)) : x.ofBuf (x.toBuf v) = v := by
  obtain ⟨r, h, a, b⟩ := x
  subst h
  rfl

set_option maxRecDepth 8192 in
set_option maxHeartbeats 4000000 in
/-- The batch normalisation and the sign: the column means and variances of x, the normalised features, their sign. -/
theorem window1 (W : Valuation τ sig (Elt F))
    (x0 : (⟨S100000x128, .f32⟩ : BufTy).Contents (Elt F))
    (x1 : (⟨S40x128, .f32⟩ : BufTy).Contents (Elt F))
    (x2 : (⟨S40, .f32⟩ : BufTy).Contents (Elt F))
    (x3 : (⟨S2x1600000, .i32⟩ : BufTy).Contents (Elt F))
    (h_arg0 : W (Proc.devRef .tc main_arg0) = x0)
    (h_arg3 : W (Proc.devRef .tc main_arg3) = x3)
    (h_arg1 : W (Proc.devRef .tc main_arg1) = x1)
    (h_arg2 : W (Proc.devRef .tc main_arg2) = x2) :
    after (((ops (F := F)).drop 0).take 25) W (Proc.devRef .tc main_arg3) = x3
      ∧ after (((ops (F := F)).drop 0).take 25) W (Proc.devRef .tc main_v19) = val_main_v19 (F := F) x0
      ∧ after (((ops (F := F)).drop 0).take 25) W (Proc.devRef .tc main_arg1) = x1
      ∧ after (((ops (F := F)).drop 0).take 25) W (Proc.devRef .tc main_arg2) = x2 := by
  simp only [ops, List.drop_succ_cons, List.drop_zero, List.take_succ_cons, List.take_zero]
  refine ⟨?_, ?_, ?_, ?_⟩
  · after_results_simp; exact h_arg3
  · after_results_simp; rw [h_arg0]; rfl
  · after_results_simp; exact h_arg1
  · after_results_simp; exact h_arg2

set_option maxRecDepth 8192 in
set_option maxHeartbeats 4000000 in
/-- The edge list's first row, flattened, beside the node indices that stand for the self loops. -/
theorem window2 (W : Valuation τ sig (Elt F))
    (x0 : (⟨S100000x128, .f32⟩ : BufTy).Contents (Elt F))
    (x1 : (⟨S40x128, .f32⟩ : BufTy).Contents (Elt F))
    (x2 : (⟨S40, .f32⟩ : BufTy).Contents (Elt F))
    (x3 : (⟨S2x1600000, .i32⟩ : BufTy).Contents (Elt F))
    (h_arg3 : W (Proc.devRef .tc main_arg3) = x3)
    (h_v19 : W (Proc.devRef .tc main_v19) = val_main_v19 (F := F) x0)
    (h_arg1 : W (Proc.devRef .tc main_arg1) = x1)
    (h_arg2 : W (Proc.devRef .tc main_arg2) = x2) :
    after (((ops (F := F)).drop 25).take 3) W (Proc.devRef .tc main_v22) = val_main_v22 (F := F) x3
      ∧ after (((ops (F := F)).drop 25).take 3) W (Proc.devRef .tc main_v20) = val_main_v20 (F := F)
      ∧ after (((ops (F := F)).drop 25).take 3) W (Proc.devRef .tc main_arg3) = x3
      ∧ after (((ops (F := F)).drop 25).take 3) W (Proc.devRef .tc main_v19) = val_main_v19 (F := F) x0
      ∧ after (((ops (F := F)).drop 25).take 3) W (Proc.devRef .tc main_arg1) = x1
      ∧ after (((ops (F := F)).drop 25).take 3) W (Proc.devRef .tc main_arg2) = x2 := by
  simp only [ops, List.drop_succ_cons, List.drop_zero, List.take_succ_cons, List.take_zero]
  refine ⟨?_, ?_, ?_, ?_, ?_, ?_⟩
  · after_results_simp; rw [h_arg3]; rfl
  · after_results_simp; rfl
  · after_results_simp; exact h_arg3
  · after_results_simp; exact h_v19
  · after_results_simp; exact h_arg1
  · after_results_simp; exact h_arg2

set_option maxRecDepth 8192 in
set_option maxHeartbeats 4000000 in
/-- The sources: the first row followed by the self loops. The second row, flattened. -/
theorem window3 (W : Valuation τ sig (Elt F))
    (x0 : (⟨S100000x128, .f32⟩ : BufTy).Contents (Elt F))
    (x1 : (⟨S40x128, .f32⟩ : BufTy).Contents (Elt F))
    (x2 : (⟨S40, .f32⟩ : BufTy).Contents (Elt F))
    (x3 : (⟨S2x1600000, .i32⟩ : BufTy).Contents (Elt F))
    (h_v22 : W (Proc.devRef .tc main_v22) = val_main_v22 (F := F) x3)
    (h_v20 : W (Proc.devRef .tc main_v20) = val_main_v20 (F := F))
    (h_arg3 : W (Proc.devRef .tc main_arg3) = x3)
    (h_v19 : W (Proc.devRef .tc main_v19) = val_main_v19 (F := F) x0)
    (h_arg1 : W (Proc.devRef .tc main_arg1) = x1)
    (h_arg2 : W (Proc.devRef .tc main_arg2) = x2) :
    after (((ops (F := F)).drop 28).take 3) W (Proc.devRef .tc main_v25) = val_main_v25 (F := F) x3
      ∧ after (((ops (F := F)).drop 28).take 3) W (Proc.devRef .tc main_v20) = val_main_v20 (F := F)
      ∧ after (((ops (F := F)).drop 28).take 3) W (Proc.devRef .tc main_v23) = val_main_v23 (F := F) x3
      ∧ after (((ops (F := F)).drop 28).take 3) W (Proc.devRef .tc main_v19) = val_main_v19 (F := F) x0
      ∧ after (((ops (F := F)).drop 28).take 3) W (Proc.devRef .tc main_arg1) = x1
      ∧ after (((ops (F := F)).drop 28).take 3) W (Proc.devRef .tc main_arg2) = x2 := by
  simp only [ops, List.drop_succ_cons, List.drop_zero, List.take_succ_cons, List.take_zero]
  refine ⟨?_, ?_, ?_, ?_, ?_, ?_⟩
  · after_results_simp; rw [h_arg3]; rfl
  · after_results_simp; exact h_v20
  · after_results_simp; rw [h_v22, h_v20]; rfl
  · after_results_simp; exact h_v19
  · after_results_simp; exact h_arg1
  · after_results_simp; exact h_arg2

set_option maxRecDepth 8192 in
set_option maxHeartbeats 4000000 in
/-- The destinations, the in-degrees counted by a scatter of ones, and their inverse square roots. -/
theorem window4 (W : Valuation τ sig (Elt F))
    (x0 : (⟨S100000x128, .f32⟩ : BufTy).Contents (Elt F))
    (x1 : (⟨S40x128, .f32⟩ : BufTy).Contents (Elt F))
    (x2 : (⟨S40, .f32⟩ : BufTy).Contents (Elt F))
    (x3 : (⟨S2x1600000, .i32⟩ : BufTy).Contents (Elt F))
    (h_v25 : W (Proc.devRef .tc main_v25) = val_main_v25 (F := F) x3)
    (h_v20 : W (Proc.devRef .tc main_v20) = val_main_v20 (F := F))
    (h_v23 : W (Proc.devRef .tc main_v23) = val_main_v23 (F := F) x3)
    (h_v19 : W (Proc.devRef .tc main_v19) = val_main_v19 (F := F) x0)
    (h_arg1 : W (Proc.devRef .tc main_arg1) = x1)
    (h_arg2 : W (Proc.devRef .tc main_arg2) = x2) :
    after (((ops (F := F)).drop 31).take 8) W (Proc.devRef .tc main_v23) = val_main_v23 (F := F) x3
      ∧ after (((ops (F := F)).drop 31).take 8) W (Proc.devRef .tc main_v31) = val_main_v31 (F := F) x3
      ∧ after (((ops (F := F)).drop 31).take 8) W (Proc.devRef .tc main_v26) = val_main_v26 (F := F) x3
      ∧ after (((ops (F := F)).drop 31).take 8) W (Proc.devRef .tc main_v19) = val_main_v19 (F := F) x0
      ∧ after (((ops (F := F)).drop 31).take 8) W (Proc.devRef .tc main_arg1) = x1
      ∧ after (((ops (F := F)).drop 31).take 8) W (Proc.devRef .tc main_arg2) = x2 := by
  simp only [ops, List.drop_succ_cons, List.drop_zero, List.take_succ_cons, List.take_zero]
  refine ⟨?_, ?_, ?_, ?_, ?_, ?_⟩
  · after_results_simp; exact h_v23
  · after_results_simp; rw [h_v25, h_v20]; rfl
  · after_results_simp; rw [h_v25, h_v20]; rfl
  · after_results_simp; exact h_v19
  · after_results_simp; exact h_arg1
  · after_results_simp; exact h_arg2

set_option maxRecDepth 8192 in
set_option maxHeartbeats 4000000 in
/-- The edge weights: the product of the inverse square roots of the degrees at an edge's two ends. -/
theorem window5 (W : Valuation τ sig (Elt F))
    (x0 : (⟨S100000x128, .f32⟩ : BufTy).Contents (Elt F))
    (x1 : (⟨S40x128, .f32⟩ : BufTy).Contents (Elt F))
    (x2 : (⟨S40, .f32⟩ : BufTy).Contents (Elt F))
    (x3 : (⟨S2x1600000, .i32⟩ : BufTy).Contents (Elt F))
    (h_v23 : W (Proc.devRef .tc main_v23) = val_main_v23 (F := F) x3)
    (h_v31 : W (Proc.devRef .tc main_v31) = val_main_v31 (F := F) x3)
    (h_v26 : W (Proc.devRef .tc main_v26) = val_main_v26 (F := F) x3)
    (h_v19 : W (Proc.devRef .tc main_v19) = val_main_v19 (F := F) x0)
    (h_arg1 : W (Proc.devRef .tc main_arg1) = x1)
    (h_arg2 : W (Proc.devRef .tc main_arg2) = x2) :
    after (((ops (F := F)).drop 39).take 20) W (Proc.devRef .tc main_v23) = val_main_v23 (F := F) x3
      ∧ after (((ops (F := F)).drop 39).take 20) W (Proc.devRef .tc main_v19) = val_main_v19 (F := F) x0
      ∧ after (((ops (F := F)).drop 39).take 20) W (Proc.devRef .tc main_v47) = val_main_v47 (F := F) x3
      ∧ after (((ops (F := F)).drop 39).take 20) W (Proc.devRef .tc main_v26) = val_main_v26 (F := F) x3
      ∧ after (((ops (F := F)).drop 39).take 20) W (Proc.devRef .tc main_arg1) = x1
      ∧ after (((ops (F := F)).drop 39).take 20) W (Proc.devRef .tc main_arg2) = x2 := by
  simp only [ops, List.drop_succ_cons, List.drop_zero, List.take_succ_cons, List.take_zero]
  refine ⟨?_, ?_, ?_, ?_, ?_, ?_⟩
  · after_results_simp; exact h_v23
  · after_results_simp; exact h_v19
  · after_results_simp; rw [h_v31, h_v23, h_v26]; rfl
  · after_results_simp; exact h_v26
  · after_results_simp; exact h_arg1
  · after_results_simp; exact h_arg2

set_option maxRecDepth 8192 in
set_option maxHeartbeats 4000000 in
/-- The first propagation: gather the signs at the sources, weigh them, scatter them onto the destinations. -/
theorem window6 (W : Valuation τ sig (Elt F))
    (x0 : (⟨S100000x128, .f32⟩ : BufTy).Contents (Elt F))
    (x1 : (⟨S40x128, .f32⟩ : BufTy).Contents (Elt F))
    (x2 : (⟨S40, .f32⟩ : BufTy).Contents (Elt F))
    (x3 : (⟨S2x1600000, .i32⟩ : BufTy).Contents (Elt F))
    (h_v23 : W (Proc.devRef .tc main_v23) = val_main_v23 (F := F) x3)
    (h_v19 : W (Proc.devRef .tc main_v19) = val_main_v19 (F := F) x0)
    (h_v47 : W (Proc.devRef .tc main_v47) = val_main_v47 (F := F) x3)
    (h_v26 : W (Proc.devRef .tc main_v26) = val_main_v26 (F := F) x3)
    (h_arg1 : W (Proc.devRef .tc main_arg1) = x1)
    (h_arg2 : W (Proc.devRef .tc main_arg2) = x2) :
    after (((ops (F := F)).drop 59).take 15) W (Proc.devRef .tc main_v23) = val_main_v23 (F := F) x3
      ∧ after (((ops (F := F)).drop 59).take 15) W (Proc.devRef .tc main_v59) = val_main_v59 (F := F) x0 x3
      ∧ after (((ops (F := F)).drop 59).take 15) W (Proc.devRef .tc main_v47) = val_main_v47 (F := F) x3
      ∧ after (((ops (F := F)).drop 59).take 15) W (Proc.devRef .tc main_v26) = val_main_v26 (F := F) x3
      ∧ after (((ops (F := F)).drop 59).take 15) W (Proc.devRef .tc main_arg1) = x1
      ∧ after (((ops (F := F)).drop 59).take 15) W (Proc.devRef .tc main_arg2) = x2 := by
  simp only [ops, List.drop_succ_cons, List.drop_zero, List.take_succ_cons, List.take_zero]
  refine ⟨?_, ?_, ?_, ?_, ?_, ?_⟩
  · after_results_simp; exact h_v23
  · after_results_simp; rw [h_v26, h_v47, h_v19, h_v23]; rfl
  · after_results_simp; exact h_v47
  · after_results_simp; exact h_v26
  · after_results_simp; exact h_arg1
  · after_results_simp; exact h_arg2

set_option maxRecDepth 8192 in
set_option maxHeartbeats 4000000 in
/-- The second propagation, of the first one's result. -/
theorem window7 (W : Valuation τ sig (Elt F))
    (x0 : (⟨S100000x128, .f32⟩ : BufTy).Contents (Elt F))
    (x1 : (⟨S40x128, .f32⟩ : BufTy).Contents (Elt F))
    (x2 : (⟨S40, .f32⟩ : BufTy).Contents (Elt F))
    (x3 : (⟨S2x1600000, .i32⟩ : BufTy).Contents (Elt F))
    (h_v23 : W (Proc.devRef .tc main_v23) = val_main_v23 (F := F) x3)
    (h_v59 : W (Proc.devRef .tc main_v59) = val_main_v59 (F := F) x0 x3)
    (h_v47 : W (Proc.devRef .tc main_v47) = val_main_v47 (F := F) x3)
    (h_v26 : W (Proc.devRef .tc main_v26) = val_main_v26 (F := F) x3)
    (h_arg1 : W (Proc.devRef .tc main_arg1) = x1)
    (h_arg2 : W (Proc.devRef .tc main_arg2) = x2) :
    after (((ops (F := F)).drop 74).take 15) W (Proc.devRef .tc main_v23) = val_main_v23 (F := F) x3
      ∧ after (((ops (F := F)).drop 74).take 15) W (Proc.devRef .tc main_v71) = val_main_v71 (F := F) x0 x3
      ∧ after (((ops (F := F)).drop 74).take 15) W (Proc.devRef .tc main_v47) = val_main_v47 (F := F) x3
      ∧ after (((ops (F := F)).drop 74).take 15) W (Proc.devRef .tc main_v26) = val_main_v26 (F := F) x3
      ∧ after (((ops (F := F)).drop 74).take 15) W (Proc.devRef .tc main_arg1) = x1
      ∧ after (((ops (F := F)).drop 74).take 15) W (Proc.devRef .tc main_arg2) = x2 := by
  simp only [ops, List.drop_succ_cons, List.drop_zero, List.take_succ_cons, List.take_zero]
  refine ⟨?_, ?_, ?_, ?_, ?_, ?_⟩
  · after_results_simp; exact h_v23
  · after_results_simp; rw [h_v26, h_v47, h_v59, h_v23]; rfl
  · after_results_simp; exact h_v47
  · after_results_simp; exact h_v26
  · after_results_simp; exact h_arg1
  · after_results_simp; exact h_arg2

set_option maxRecDepth 8192 in
set_option maxHeartbeats 4000000 in
/-- The third propagation, of the second one's result. -/
theorem window8 (W : Valuation τ sig (Elt F))
    (x0 : (⟨S100000x128, .f32⟩ : BufTy).Contents (Elt F))
    (x1 : (⟨S40x128, .f32⟩ : BufTy).Contents (Elt F))
    (x2 : (⟨S40, .f32⟩ : BufTy).Contents (Elt F))
    (x3 : (⟨S2x1600000, .i32⟩ : BufTy).Contents (Elt F))
    (h_v23 : W (Proc.devRef .tc main_v23) = val_main_v23 (F := F) x3)
    (h_v71 : W (Proc.devRef .tc main_v71) = val_main_v71 (F := F) x0 x3)
    (h_v47 : W (Proc.devRef .tc main_v47) = val_main_v47 (F := F) x3)
    (h_v26 : W (Proc.devRef .tc main_v26) = val_main_v26 (F := F) x3)
    (h_arg1 : W (Proc.devRef .tc main_arg1) = x1)
    (h_arg2 : W (Proc.devRef .tc main_arg2) = x2) :
    after (((ops (F := F)).drop 89).take 15) W (Proc.devRef .tc main_arg1) = x1
      ∧ after (((ops (F := F)).drop 89).take 15) W (Proc.devRef .tc main_v83) = val_main_v83 (F := F) x0 x3
      ∧ after (((ops (F := F)).drop 89).take 15) W (Proc.devRef .tc main_arg2) = x2 := by
  simp only [ops, List.drop_succ_cons, List.drop_zero, List.take_succ_cons, List.take_zero]
  refine ⟨?_, ?_, ?_⟩
  · after_results_simp; exact h_arg1
  · after_results_simp; rw [h_v26, h_v47, h_v71, h_v23]; rfl
  · after_results_simp; exact h_arg2

set_option maxRecDepth 8192 in
set_option maxHeartbeats 4000000 in
/-- The scores: the product with the transposed weights, plus the bias. -/
theorem window9 (W : Valuation τ sig (Elt F))
    (x0 : (⟨S100000x128, .f32⟩ : BufTy).Contents (Elt F))
    (x1 : (⟨S40x128, .f32⟩ : BufTy).Contents (Elt F))
    (x2 : (⟨S40, .f32⟩ : BufTy).Contents (Elt F))
    (x3 : (⟨S2x1600000, .i32⟩ : BufTy).Contents (Elt F))
    (h_arg1 : W (Proc.devRef .tc main_arg1) = x1)
    (h_v83 : W (Proc.devRef .tc main_v83) = val_main_v83 (F := F) x0 x3)
    (h_arg2 : W (Proc.devRef .tc main_arg2) = x2) :
    after (((ops (F := F)).drop 104).take 5) W (Proc.devRef .tc main_v88) = val_main_v88 (F := F) x0 x1 x2 x3 := by
  simp only [ops, List.drop_succ_cons, List.drop_zero, List.take_succ_cons, List.take_zero]
  after_results_simp; rw [h_v83, h_arg1, h_arg2]; rfl

set_option maxRecDepth 8192 in
set_option maxHeartbeats 4000000 in
/-- The log-softmax along the classes: the scores less their row maximum, less the logarithm of the row sum of the exponentials of that. -/
theorem window10 (W : Valuation τ sig (Elt F))
    (x0 : (⟨S100000x128, .f32⟩ : BufTy).Contents (Elt F))
    (x1 : (⟨S40x128, .f32⟩ : BufTy).Contents (Elt F))
    (x2 : (⟨S40, .f32⟩ : BufTy).Contents (Elt F))
    (x3 : (⟨S2x1600000, .i32⟩ : BufTy).Contents (Elt F))
    (h_v88 : W (Proc.devRef .tc main_v88) = val_main_v88 (F := F) x0 x1 x2 x3) :
    after ((ops (F := F)).drop 109) W (Proc.devRef .tc main_v89) = val_main_v89 (F := F) x0 x1 x2 x3 := by
  simp only [ops, List.drop_succ_cons, List.drop_zero, List.take_succ_cons, List.take_zero]
  after_results_simp; simp only [ofBuf_toBuf]; rw [h_v88]; rfl

/-- The whole line, read at the result: the ten stretches in a row, each entered from what the one before it left. -/
theorem after_ops_v89 (V0 : Valuation τ sig (Elt F)) :
    after (ops (F := F)) V0 (Proc.devRef .tc main_v89)
      = val_main_v89 (F := F) (V0 (Proc.devRef .tc main_arg0)) (V0 (Proc.devRef .tc main_arg1))
          (V0 (Proc.devRef .tc main_arg2)) (V0 (Proc.devRef .tc main_arg3)) := by
  have e : after (ops (F := F)) V0 = after ((ops (F := F)).drop 0) V0 := rfl
  rw [e, after_drop_step _ 0 25 25 rfl, after_drop_step _ 25 3 28 rfl, after_drop_step _ 28 3 31 rfl, after_drop_step _ 31 8 39 rfl, after_drop_step _ 39 20 59 rfl, after_drop_step _ 59 15 74 rfl, after_drop_step _ 74 15 89 rfl, after_drop_step _ 89 15 104 rfl, after_drop_step _ 104 5 109 rfl]
  obtain ⟨f1_arg3, f1_v19, f1_arg1, f1_arg2⟩ := window1 V0 (V0 (Proc.devRef .tc main_arg0)) (V0 (Proc.devRef .tc main_arg1)) (V0 (Proc.devRef .tc main_arg2)) (V0 (Proc.devRef .tc main_arg3)) rfl rfl rfl rfl
  generalize after (((ops (F := F)).drop 0).take 25) V0 = W1 at *
  obtain ⟨f2_v22, f2_v20, f2_arg3, f2_v19, f2_arg1, f2_arg2⟩ := window2 W1 _ _ _ _ f1_arg3 f1_v19 f1_arg1 f1_arg2
  generalize after (((ops (F := F)).drop 25).take 3) W1 = W2 at *
  obtain ⟨f3_v25, f3_v20, f3_v23, f3_v19, f3_arg1, f3_arg2⟩ := window3 W2 _ _ _ _ f2_v22 f2_v20 f2_arg3 f2_v19 f2_arg1 f2_arg2
  generalize after (((ops (F := F)).drop 28).take 3) W2 = W3 at *
  obtain ⟨f4_v23, f4_v31, f4_v26, f4_v19, f4_arg1, f4_arg2⟩ := window4 W3 _ _ _ _ f3_v25 f3_v20 f3_v23 f3_v19 f3_arg1 f3_arg2
  generalize after (((ops (F := F)).drop 31).take 8) W3 = W4 at *
  obtain ⟨f5_v23, f5_v19, f5_v47, f5_v26, f5_arg1, f5_arg2⟩ := window5 W4 _ _ _ _ f4_v23 f4_v31 f4_v26 f4_v19 f4_arg1 f4_arg2
  generalize after (((ops (F := F)).drop 39).take 20) W4 = W5 at *
  obtain ⟨f6_v23, f6_v59, f6_v47, f6_v26, f6_arg1, f6_arg2⟩ := window6 W5 _ _ _ _ f5_v23 f5_v19 f5_v47 f5_v26 f5_arg1 f5_arg2
  generalize after (((ops (F := F)).drop 59).take 15) W5 = W6 at *
  obtain ⟨f7_v23, f7_v71, f7_v47, f7_v26, f7_arg1, f7_arg2⟩ := window7 W6 _ _ _ _ f6_v23 f6_v59 f6_v47 f6_v26 f6_arg1 f6_arg2
  generalize after (((ops (F := F)).drop 74).take 15) W6 = W7 at *
  obtain ⟨f8_arg1, f8_v83, f8_arg2⟩ := window8 W7 _ _ _ _ f7_v23 f7_v71 f7_v47 f7_v26 f7_arg1 f7_arg2
  generalize after (((ops (F := F)).drop 89).take 15) W7 = W8 at *
  have f9_v88 := window9 W8 _ _ _ _ f8_arg1 f8_v83 f8_arg2
  generalize after (((ops (F := F)).drop 104).take 5) W8 = W9 at *
  exact window10 W9 _ _ _ _ f9_v88

set_option maxRecDepth 65536 in
set_option maxHeartbeats 49600000 in
/-- No operation writes an argument. -/
theorem after_ops_args (V0 : Valuation τ sig (Elt F)) :
    after (ops (F := F)) V0 (Proc.devRef .tc main_arg0) = V0 (Proc.devRef .tc main_arg0)
    ∧ after (ops (F := F)) V0 (Proc.devRef .tc main_arg1) = V0 (Proc.devRef .tc main_arg1)
    ∧ after (ops (F := F)) V0 (Proc.devRef .tc main_arg2) = V0 (Proc.devRef .tc main_arg2)
    ∧ after (ops (F := F)) V0 (Proc.devRef .tc main_arg3) = V0 (Proc.devRef .tc main_arg3) := by
  refine ⟨?_, ?_, ?_, ?_⟩ <;> after_results_simp

/-- On every device, for any float values, from any memory with zero counters: every weakly fair execution of the
    reference's @main terminates with the result at the last stage function of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89)
        = val_main_v89 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v89).trans (after_ops_v89 (fun b => m (c, b))),
       (h c main_arg0).trans (after_ops_args (fun b => m (c, b))).1,
       (h c main_arg1).trans (after_ops_args (fun b => m (c, b))).2.1,
       (h c main_arg2).trans (after_ops_args (fun b => m (c, b))).2.2.1,
       (h c main_arg3).trans (after_ops_args (fun b => m (c, b))).2.2.2⟩)
    (run_seq scopedRefs_eq scopedSems_eq defs main (fun _ => ops) main_eq (fun _ => ops_sub) m ρ)

end Cert.RefRun

end
-- ==== Proof.HopsIndex.lean ====
import proofs.«151110_j89026082111679_2_alg».proof.Proof.Gen.ReferenceIdeal
import Idealize.ShloMosaic.Lib.Pipeline.Value
import Idealize.ShloMosaic.Lib.ValueIdx
import Idealize.ShloMosaic.Lib.IdealHost
import Idealize.ShloMosaic.PureOps.Ideal.Laws

noncomputable section

/-! # The gather and scatter of the graph propagation, read at an edge

The two programs move node features along the edges with a gather (one row per edge, at the edge's source) and an
accumulating scatter (edge rows summed into the edge's target). This module reads the four dimension records at an
index: a gather reads the operand at the start index read signed and clamped into the rows; an update is added
into a row exactly when its scatter index, read signed and not clamped, is that row. It also states the one fact
of 32-bit arithmetic the hops need: an index-array entry that names a node is neither wrapped nor clamped. -/

namespace Cert.Hops

open scoped BigOperators
open Cert.ReferenceIdeal Cert.ReferenceIdeal.Gen Idealize.ShloMosaic Idealize.ShloMosaic.ValueIdx

/-- The rank-1 gather of the programs: one scalar per edge out of a vector over the nodes. -/
abbrev g1 := gather_S100000_S1700000x1_S1700000_n_0_n_n_0_1_1
/-- The rank-2 gather of the programs: one feature row per edge out of a node-by-feature matrix. -/
abbrev g2 := gather_S100000x128_S1700000x1_S1700000x128_1_0_n_n_0_1_1128
/-- The rank-1 accumulating scatter: edge scalars summed into nodes. -/
abbrev sc1 := scatter_S100000_S1700000x1_S1700000_n_0_0_1
/-- The rank-2 accumulating scatter: edge feature rows summed into node rows. -/
abbrev sc2 := scatter_S100000x128_S1700000x1_S1700000x128_1_0_0_1

variable {α : Type}

theorem gather1_apply (x : S100000.Idx → α) (idx : IVec S1700000x1 32) (e : Fin 1700000) :
    Host.gather g1 x idx (ix1 e) = x (ix1 ⟨min (idx (ix2 e 0)).toInt.toNat 99999, by omega⟩) := by
  unfold Host.gather
  congr 1
  funext a
  obtain rfl : a = 0 := Subsingleton.elim _ _
  refine Fin.ext ?_
  show g1.start (ix1 e) idx 0 + g1.batchCoord (ix1 e) 0 + g1.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ g1.startIndexMap from List.mem_singleton.mpr rfl)]
  have hsi : g1.siIdx (ix1 e) ⟨List.idxOf (0 : Fin 1) g1.startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

theorem gather2_apply (x : S100000x128.Idx → α) (idx : IVec S1700000x1 32) (e : Fin 1700000) (f : Fin 128) :
    Host.gather g2 x idx (ix2 e f) = x (ix2 ⟨min (idx (ix2 e 0)).toInt.toNat 99999, by omega⟩ f) := by
  unfold Host.gather
  congr 1
  funext a
  refine Fin.ext ?_
  show g2.start (ix2 e f) idx a + g2.batchCoord (ix2 e f) a + g2.offCoord (ix2 e f) a = _
  rw [GatherDims.batchCoord_eq_zero _ _ _ List.not_mem_nil]
  match a with
  | ⟨0, _⟩ =>
    show g2.start (ix2 e f) idx (0 : Fin 2) + 0 + g2.offCoord (ix2 e f) (0 : Fin 2) = min (idx (ix2 e 0)).toInt.toNat 99999
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ g2.startIndexMap from List.mem_singleton.mpr rfl)]
    have hsi : g2.siIdx (ix2 e f) ⟨List.idxOf (0 : Fin 2) g2.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    have hs : g2.start (ix2 e f) idx (1 : Fin 2) = 0 := by
      unfold GatherDims.start
      rw [dif_neg (show (1 : Fin 2) ∉ g2.startIndexMap by decide)]
    have ho : g2.offCoord (ix2 e f) (1 : Fin 2) = f.val := by
      unfold GatherDims.offCoord
      rw [dif_pos (show (1 : Fin 2) ∈ g2.sKept by decide)]
      rfl
    show g2.start (ix2 e f) idx (1 : Fin 2) + 0 + g2.offCoord (ix2 e f) (1 : Fin 2) = f.val
    rw [hs, ho]; omega

/-- Where an update of the rank-1 scatter starts: the edge's scatter index, read signed. -/
theorem sc1_start (j : S1700000.Idx) (idx : IVec S1700000x1 32) :
    sc1.start j idx (0 : Fin 1) = (idx (ix2 (j 0) 0)).toInt := by
  unfold ScatterDims.start
  rw [dif_pos (show (0 : Fin 1) ∈ sc1.scatterDimsToOperandDims from List.mem_singleton.mpr rfl)]
  have hsi : sc1.siIdx j ⟨List.idxOf (0 : Fin 1) sc1.scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem sc1_window (j : S1700000.Idx) : sc1.window j (0 : Fin 1) = 0 := by
  unfold ScatterDims.window
  rw [dif_neg (show (0 : Fin 1) ∉ sc1.sKept by decide)]

theorem sc2_start0 (j : S1700000x128.Idx) (idx : IVec S1700000x1 32) :
    sc2.start j idx (0 : Fin 2) = (idx (ix2 (j 0) 0)).toInt := by
  unfold ScatterDims.start
  rw [dif_pos (show (0 : Fin 2) ∈ sc2.scatterDimsToOperandDims from List.mem_singleton.mpr rfl)]
  have hsi : sc2.siIdx j ⟨List.idxOf (0 : Fin 2) sc2.scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem sc2_window0 (j : S1700000x128.Idx) : sc2.window j (0 : Fin 2) = 0 := by
  unfold ScatterDims.window
  rw [dif_neg (show (0 : Fin 2) ∉ sc2.sKept by decide)]

/-- An update the rank-2 scatter adds into row `y 0` carries exactly that row as its scatter index, read signed:
    an index outside the rows is dropped, and the start is not clamped. -/
theorem sc2_result_row (j : S1700000x128.Idx) (idx : IVec S1700000x1 32) (y : S100000x128.Idx)
    (h : sc2.resultIdx? j idx = some y) : (idx (ix2 (j 0) 0)).toInt = ((y 0).val : Int) := by
  unfold ScatterDims.resultIdx? at h
  split at h
  · next hall =>
    have h' := Option.some.inj h
    have h0 : (sc2.start j idx (0 : Fin 2) + (sc2.window j (0 : Fin 2) : Int)).toNat = (y 0).val :=
      congrArg (fun z : S100000x128.Idx => (z (0 : Fin 2)).val) h'
    have hb := (hall (0 : Fin 2)).1
    rw [sc2_start0, sc2_window0] at hb h0
    omega
  · exact absurd h (by simp)

/-- An edge whose scatter index, read signed, is the node `i` is added into node `i` by the rank-1 scatter. -/
theorem sc1_result_of (j : S1700000.Idx) (idx : IVec S1700000x1 32) (i : Fin 100000)
    (h : (idx (ix2 (j 0) 0)).toInt = (i.val : Int)) : sc1.resultIdx? j idx = some (ix1 i) := by
  unfold ScatterDims.resultIdx?
  have hsz : S100000.size (0 : Fin 1) = 100000 := rfl
  have hall : ∀ a : Fin S100000.rank, 0 ≤ sc1.start j idx a + (sc1.window j a : Int) ∧
      sc1.start j idx a + (sc1.window j a : Int) < (S100000.size a : Int) := by
    intro a; obtain rfl : a = (0 : Fin 1) := Subsingleton.elim _ _
    rw [sc1_start, sc1_window, h, hsz]
    have := i.isLt; constructor <;> omega
  rw [dif_pos hall]
  congr 1; funext a; obtain rfl : a = (0 : Fin 1) := Subsingleton.elim _ _
  refine Fin.ext ?_
  show (sc1.start j idx (0 : Fin 1) + (sc1.window j (0 : Fin 1) : Int)).toNat = i.val
  rw [sc1_start, sc1_window, h]; omega

/-! ## The index arrays at an edge -/

/-- An index array as the one-column matrix a gather or a scatter reads its start indices from. -/
def col (a : IVec S1700000 32) : IVec S1700000x1 32 :=
  broadcastInDim S1700000x1 ![0] bcast_S1700000_S1700000x1_0 a

/-- The wrap of a negative index: `a + 100000` where `a < 0` (signed), else `a`. -/
def nrm (a : IVec S1700000 32) : IVec S1700000 32 :=
  select (cmpi .slt a (broadcastInDim S1700000 ![] bcast_S_S1700000 (constantI S_ 32 0#32)))
    (addi a (broadcastInDim S1700000 ![] bcast_S_S1700000 (constantI S_ 32 100000#32))) a

theorem col_apply {β : Type} (a : S1700000.Idx → β) (e : Fin 1700000) (z : Fin 1) :
    broadcastInDim S1700000x1 ![0] bcast_S1700000_S1700000x1_0 a (ix2 e z) = a (ix1 e) :=
  broadcastInDim_apply _ bcast_S1700000_S1700000x1_0 a (ix2 e z) (ix1 e) (fun b => match b with
    | ⟨0, _⟩ => by show e.val = if (1700000 : Nat) = 1 then 0 else e.val; rw [if_neg (by decide)])

/-- A non-negative index is not wrapped. -/
theorem nrm_of_nonneg (a : IVec S1700000 32) (j : S1700000.Idx) (h : 0 ≤ (a j).toInt) : nrm a j = a j := by
  show Scalar.select (IntOp.cmpi .slt (a j) 0#32) (IntOp.addi (a j) 100000#32) (a j) = a j
  have hs : (a j).slt 0#32 = false := by
    unfold BitVec.slt
    have : (0#32 : BitVec 32).toInt = 0 := by decide
    rw [this]; exact decide_eq_false (by omega)
  unfold IntOp.cmpi Scalar.select
  simp only [hs]
  rfl

/-- The node an edge's index-array entry names once wrapped and clamped into the rows: what a gather reads. -/
def node (a : IVec S1700000 32) (e : Fin 1700000) : Fin 100000 :=
  ⟨min (nrm a (ix1 e)).toInt.toNat 99999, by omega⟩

/-- The one fact of 32-bit arithmetic the hops need: an entry that IS a node, read signed, is neither wrapped nor
    clamped. -/
theorem node_of_toInt (a : IVec S1700000 32) (e : Fin 1700000) (i : Fin 100000)
    (h : (a (ix1 e)).toInt = (i.val : Int)) : node a e = i := by
  refine Fin.ext ?_
  show min (nrm a (ix1 e)).toInt.toNat 99999 = i.val
  rw [nrm_of_nonneg a (ix1 e) (by omega), h]
  have := i.isLt; omega

theorem gather1_col {β : Type} (x : S100000.Idx → β) (a : IVec S1700000 32) (e : Fin 1700000) :
    Host.gather g1 x (col (nrm a)) (ix1 e) = x (ix1 (node a e)) := by
  rw [gather1_apply]
  refine congrArg x (congrArg (ix1 (n := 100000)) (Fin.ext ?_))
  show min (col (nrm a) (ix2 e 0)).toInt.toNat 99999 = min (nrm a (ix1 e)).toInt.toNat 99999
  unfold col; rw [col_apply]

theorem gather2_col {β : Type} (x : S100000x128.Idx → β) (a : IVec S1700000 32) (e : Fin 1700000) (f : Fin 128) :
    Host.gather g2 x (col (nrm a)) (ix2 e f) = x (ix2 (node a e) f) := by
  rw [gather2_apply]
  refine congrArg x (congrArg (fun v : Fin 100000 => ix2 v f) (Fin.ext ?_))
  show min (col (nrm a) (ix2 e 0)).toInt.toNat 99999 = min (nrm a (ix1 e)).toInt.toNat 99999
  unfold col; rw [col_apply]

end Cert.Hops
-- ==== Proof.Hops.lean ====
import proofs.«151110_j89026082111679_2_alg».proof.Proof.HopsIndex

noncomputable section

/-! # One propagation step of the kernel program is one of the reference

Both programs count the in-degree of every node along the target array (a self-loop per node included), take its
inverse square root, and then move node features along the edges. The reference weighs each edge by the inverse root
degrees of its two ends before summing into the target; the kernel program scales the rows by the inverse root degree,
sums along the edges, and scales the sums. On finite features the two agree: the sums are finite sums of reals, where a
common factor moves through the sum. The degree is a count that includes the self-loop, so it is at least one and its
inverse square root is a positive real. Definitions are generic in the reading of the floats; the equalities are at the
extended reals. -/

namespace Cert.Hops

open scoped BigOperators
open Cert.ReferenceIdeal Cert.ReferenceIdeal.Gen Idealize.ShloMosaic Idealize.ShloMosaic.ValueIdx

/-! ## Finite sums of reals inside the extended reals -/

/-- A finite sum of (coerced) reals is the coerced real sum. -/
theorem coe_sum {ι : Type} (s : Finset ι) (g : ι → ℝ) :
    ∑ j ∈ s, ((g j : ℝ) : EReal) = ((∑ j ∈ s, g j : ℝ) : EReal) := by
  classical
  refine Finset.induction_on s (by simp) ?_
  intro a s ha ih
  rw [Finset.sum_insert ha, Finset.sum_insert ha, ih, EReal.coe_add]

/-- A finite sum of terms that are reals is a real. -/
theorem sum_coe_exists {ι : Type} (s : Finset ι) (b : ι → EReal) (t : ι → ℝ)
    (hb : ∀ j ∈ s, b j = ((t j : ℝ) : EReal)) : ∃ r : ℝ, ∑ j ∈ s, b j = (r : EReal) :=
  ⟨∑ j ∈ s, t j, (Finset.sum_congr rfl hb).trans (coe_sum s t)⟩

/-- A real factor moves into a finite sum of reals: distributivity, which the extended reals have on finite terms. -/
theorem mul_sum_coe {ι : Type} (s : Finset ι) (c : ℝ) (a b : ι → EReal) (t : ι → ℝ)
    (ha : ∀ j ∈ s, a j = ((t j : ℝ) : EReal)) (hb : ∀ j ∈ s, b j = ((c * t j : ℝ) : EReal)) :
    (c : EReal) * ∑ j ∈ s, a j = ∑ j ∈ s, b j := by
  rw [Finset.sum_congr rfl ha, Finset.sum_congr rfl hb, coe_sum, coe_sum, ← EReal.coe_mul, Finset.mul_sum]

/-! ## The degree and its inverse square root -/

/-- Every node is the target of its own self-loop edge: edge `1600000 + i` has target `i`. -/
def SelfLoops (dst : IVec S1700000 32) : Prop :=
  ∀ i : Fin 100000, dst (ix1 ⟨1600000 + i.val, by have := i.isLt; omega⟩) = BitVec.ofNat 32 i.val

/-- The in-degree: ones summed into the nodes along the target array. -/
def deg {F : FTy → Type} [FloatOps F] (dst : IVec S1700000 32) : FVec F S100000 .f32 :=
  Host.scatterAdd sc1 (broadcastInDim S100000 ![] bcast_S_S100000 (constant S_ .f32 0x00000000#32)) (col dst)
    (broadcastInDim S1700000 ![] bcast_S_S1700000 (constant S_ .f32 0x3F800000#32))

/-- The inverse square root of the in-degree. -/
def dinv {F : FTy → Type} [FloatOps F] (dst : IVec S1700000 32) : FVec F S100000 .f32 := Host.rsqrt (deg dst)

/-- At any reading of the floats: the inverse square root of the degree, element by element. -/
theorem dinv_apply_generic {F : FTy → Type} [FloatOps F] (dst : IVec S1700000 32) (i : S100000.Idx) :
    dinv (F := F) dst i = FloatOps.hostUnary .rsqrt (deg (F := F) dst i) := rfl

theorem scatterAdd1_apply (x : FVec Ideal S100000 .f32) (idx : IVec S1700000x1 32)
    (upd : FVec Ideal S1700000 .f32) (i : S100000.Idx) :
    Host.scatterAdd sc1 x idx upd i
      = x i + ∑ j ∈ Finset.univ.filter (fun j => sc1.resultIdx? j idx = some i), upd j := rfl

theorem dinv_apply (dst : IVec S1700000 32) (i : S100000.Idx) :
    dinv (F := Ideal) dst i = Ideal.rsqrt (deg (F := Ideal) dst i) := by
  rw [dinv_apply_generic, Ideal.hostUnary_rsqrt_def]

theorem deg_apply (dst : IVec S1700000 32) (i : S100000.Idx) :
    deg (F := Ideal) dst i = 0 + ∑ j ∈ Finset.univ.filter (fun j => sc1.resultIdx? j (col dst) = some i), (1 : EReal) := by
  unfold deg
  rw [scatterAdd1_apply]
  have h0 : (broadcastInDim S100000 ![] bcast_S_S100000 (constant (F := Ideal) S_ .f32 0x00000000#32)) i = 0 := by
    show Ideal.ofBits .f32 0x00000000#32 = 0
    exact Ideal.ofBits_zero_f32
  have h1 : ∀ j : S1700000.Idx,
      (broadcastInDim S1700000 ![] bcast_S_S1700000 (constant (F := Ideal) S_ .f32 0x3F800000#32)) j = 1 := by
    intro j
    show Ideal.ofBits .f32 0x3F800000#32 = 1
    exact Ideal.ofBits_one_f32
  rw [h0, Finset.sum_congr rfl (fun j _ => h1 j)]

theorem toInt_ofNat_node (i : Fin 100000) : (BitVec.ofNat 32 i.val).toInt = (i.val : Int) := by
  have := i.isLt
  rw [BitVec.toInt_eq_toNat_cond, BitVec.toNat_ofNat]
  have h2 : i.val % 2 ^ 32 = i.val := Nat.mod_eq_of_lt (by omega)
  rw [h2, if_pos (by omega)]

/-- The in-degree of a node is a count that includes its self-loop, so its inverse square root is a positive real. -/
theorem dinv_finite (dst : IVec S1700000 32) (hloop : SelfLoops dst) (i : Fin 100000) :
    ∃ r : ℝ, 0 < r ∧ dinv (F := Ideal) dst (ix1 i) = (r : EReal) := by
  have hdeg : ∃ n : ℕ, 0 < n ∧ deg (F := Ideal) dst (ix1 i) = ((n : ℝ) : EReal) := by
    refine ⟨(Finset.univ.filter (fun j => sc1.resultIdx? j (col dst) = some (ix1 i))).card, ?_, ?_⟩
    · refine Finset.card_pos.mpr ⟨ix1 ⟨1600000 + i.val, by have := i.isLt; omega⟩, Finset.mem_filter.mpr ⟨Finset.mem_univ _, ?_⟩⟩
      refine sc1_result_of _ _ i ?_
      show (col dst (ix2 ⟨1600000 + i.val, _⟩ 0)).toInt = _
      unfold col; rw [col_apply, hloop i]; exact toInt_ofNat_node i
    · rw [deg_apply, zero_add]
      have h1 : ∀ j ∈ Finset.univ.filter (fun j => sc1.resultIdx? j (col dst) = some (ix1 i)),
          (1 : EReal) = (((fun _ : S1700000.Idx => (1 : ℝ)) j : ℝ) : EReal) := fun _ _ => EReal.coe_one.symm
      rw [Finset.sum_congr rfl h1, coe_sum]
      exact congrArg (fun r : ℝ => (r : EReal)) ((Finset.sum_const (1 : ℝ)).trans (by rw [nsmul_eq_mul, mul_one]))
  obtain ⟨n, hn, hd⟩ := hdeg
  have hpos : (0 : ℝ) < n := by exact_mod_cast hn
  refine ⟨(Real.sqrt n)⁻¹, inv_pos.mpr (Real.sqrt_pos.mpr hpos), ?_⟩
  rw [dinv_apply, hd, Ideal.rsqrt_coe, if_neg (not_lt.mpr hpos.le), if_neg hpos.ne']

/-! ## One hop, in the two programs -/

/-- The zero matrix the scatter accumulates into. -/
abbrev zeros2 {F : FTy → Type} [FloatOps F] : FVec F S100000x128 .f32 :=
  broadcastInDim S100000x128 ![] bcast_S_S100000x128 (constant S_ .f32 0x00000000#32)

/-- The reference's edge weight: the inverse root degree at the source times the one at the target. -/
def edgeW {F : FTy → Type} [FloatOps F] (src dst : IVec S1700000 32) : FVec F S1700000 .f32 :=
  mulf (Host.gather g1 (dinv (F := F) dst) (col (nrm src))) (Host.gather g1 (dinv (F := F) dst) (col (nrm dst)))

/-- One hop as the reference writes it: each edge carries its weight times the source row, summed into the target row. -/
def hopR {F : FTy → Type} [FloatOps F] (src dst : IVec S1700000 32) (h : FVec F S100000x128 .f32) :
    FVec F S100000x128 .f32 :=
  Host.scatterAdd sc2 zeros2 (col dst)
    (mulf (broadcastInDim S1700000x128 ![0, 1] bcast_S1700000x1_S1700000x128_0_1
        (broadcastInDim S1700000x1 ![0] bcast_S1700000_S1700000x1_0 (edgeW (F := F) src dst)))
      (Host.gather g2 h (col (nrm src))))

/-- One hop as the kernel program writes it, over the matrix `d2` that repeats the inverse root degree along the
    features: rows scaled before the edges move them, and the sums scaled after. -/
def hopK {F : FTy → Type} [FloatOps F] (d2 : FVec F S100000x128 .f32) (src dst : IVec S1700000 32)
    (h : FVec F S100000x128 .f32) : FVec F S100000x128 .f32 :=
  mulf d2 (Host.scatterAdd sc2 zeros2 (col dst) (Host.gather g2 (mulf h d2) (col (nrm src))))

theorem zeros2_apply (y : S100000x128.Idx) : zeros2 (F := Ideal) y = 0 := by
  show Ideal.ofBits .f32 0x00000000#32 = 0
  exact Ideal.ofBits_zero_f32

/-- The rank-2 scatter at an element: the operand there plus the updates whose result index is that element. -/
theorem scatterAdd2_apply (x : FVec Ideal S100000x128 .f32) (idx : IVec S1700000x1 32)
    (upd : FVec Ideal S1700000x128 .f32) (y : S100000x128.Idx) :
    Host.scatterAdd sc2 x idx upd y
      = x y + ∑ j ∈ Finset.univ.filter (fun j => sc2.resultIdx? j idx = some y), upd j := rfl

/-- An edge vector repeated along the features, at an edge and a feature. -/
theorem bcastW_apply (w : FVec Ideal S1700000 .f32) (e : Fin 1700000) (f : Fin 128) :
    broadcastInDim S1700000x128 ![0, 1] bcast_S1700000x1_S1700000x128_0_1
      (broadcastInDim S1700000x1 ![0] bcast_S1700000_S1700000x1_0 w) (ix2 e f) = w (ix1 e) := by
  rw [broadcastInDim_apply _ bcast_S1700000x1_S1700000x128_0_1 _ (ix2 e f) (ix2 e (0 : Fin 1)) (fun a => match a with
    | ⟨0, _⟩ => by show e.val = if (1700000 : Nat) = 1 then 0 else e.val; rw [if_neg (by decide)]
    | ⟨1, _⟩ => by show 0 = if (1 : Nat) = 1 then 0 else f.val; rw [if_pos rfl]), col_apply]

section Edge
variable (d2 : FVec Ideal S100000x128 .f32) (src dst : IVec S1700000 32) (h : FVec Ideal S100000x128 .f32)
  (hr : S100000x128.Idx → ℝ) (dr : Fin 100000 → ℝ)
  (hhr : ∀ y, h y = (hr y : EReal)) (hdr : ∀ i : Fin 100000, dinv (F := Ideal) dst (ix1 i) = (dr i : EReal))
  (hd2 : ∀ (i : Fin 100000) (f : Fin 128), d2 (ix2 i f) = dinv (F := Ideal) dst (ix1 i))
include hhr hdr

/-- What the reference's scatter adds for edge `e` at feature `f`. -/
theorem edgeR_apply (e : Fin 1700000) (f : Fin 128) :
    mulf (broadcastInDim S1700000x128 ![0, 1] bcast_S1700000x1_S1700000x128_0_1
        (broadcastInDim S1700000x1 ![0] bcast_S1700000_S1700000x1_0 (edgeW (F := Ideal) src dst)))
      (Host.gather g2 h (col (nrm src))) (ix2 e f)
      = ((dr (node src e) * dr (node dst e) * hr (ix2 (node src e) f) : ℝ) : EReal) := by
  rw [mulf_apply, bcastW_apply, gather2_col]
  unfold edgeW
  rw [mulf_apply, gather1_col, gather1_col, hdr, hdr, hhr, ← EReal.coe_mul, ← EReal.coe_mul]

include hd2 in
/-- What the kernel program's scatter adds for edge `e` at feature `f`. -/
theorem edgeK_apply (e : Fin 1700000) (f : Fin 128) :
    Host.gather g2 (mulf h d2) (col (nrm src)) (ix2 e f)
      = ((hr (ix2 (node src e) f) * dr (node src e) : ℝ) : EReal) := by
  rw [gather2_col, mulf_apply, hhr, hd2, hdr, ← EReal.coe_mul]

end Edge

/-- ONE HOP OF THE KERNEL PROGRAM IS ONE HOP OF THE REFERENCE, on finite features: at a node and a feature both
    are the sum, over the edges whose target entry is that node, of the two inverse root degrees times the source
    row's feature; the kernel program takes the target's factor out of the sum, which finite terms allow. -/
theorem hop_eq (d2 : FVec Ideal S100000x128 .f32) (src dst : IVec S1700000 32) (hloop : SelfLoops dst)
    (hd2 : ∀ (i : Fin 100000) (f : Fin 128), d2 (ix2 i f) = dinv (F := Ideal) dst (ix1 i))
    (h : FVec Ideal S100000x128 .f32) (hfin : ∀ y, ∃ r : ℝ, h y = (r : EReal)) :
    hopK d2 src dst h = hopR src dst h := by
  choose hr hhr using hfin
  choose dr hdr0 hdr using dinv_finite dst hloop
  funext y
  obtain ⟨i, g, rfl⟩ : ∃ (i : Fin 100000) (g : Fin 128), y = ix2 i g := ⟨y 0, y 1, eq_ix2 y⟩
  unfold hopK hopR
  rw [mulf_apply, scatterAdd2_apply, scatterAdd2_apply, zeros2_apply, zero_add, zero_add, hd2, hdr]
  refine mul_sum_coe _ (dr i) _ _
    (fun j : S1700000x128.Idx => hr (ix2 (node src (j 0)) (j 1 : Fin 128)) * dr (node src (j 0))) ?_ ?_
  · intro j _
    obtain ⟨e, f, rfl⟩ : ∃ (e : Fin 1700000) (f : Fin 128), j = ix2 e f := ⟨j 0, j 1, eq_ix2 j⟩
    exact edgeK_apply d2 src dst h hr dr hhr hdr hd2 e f
  · intro j hj
    have hrow := sc2_result_row j (col dst) (ix2 i g) (Finset.mem_filter.mp hj).2
    obtain ⟨e, f, rfl⟩ : ∃ (e : Fin 1700000) (f : Fin 128), j = ix2 e f := ⟨j 0, j 1, eq_ix2 j⟩
    have hnode : node dst e = i := by
      refine node_of_toInt dst e i ?_
      have : (col dst (ix2 e 0)).toInt = (i.val : Int) := hrow
      unfold col at this; rwa [col_apply] at this
    rw [edgeR_apply src dst h hr dr hhr hdr e f, hnode]
    show ((dr (node src e) * dr i * hr (ix2 (node src e) f) : ℝ) : EReal)
      = ((dr i * (hr (ix2 (node src e) f) * dr (node src e)) : ℝ) : EReal)
    congr 1; ring

/-- A hop of finite features is finite: every term of every sum is a product of reals. -/
theorem hop_finite (src dst : IVec S1700000 32) (hloop : SelfLoops dst)
    (h : FVec Ideal S100000x128 .f32) (hfin : ∀ y, ∃ r : ℝ, h y = (r : EReal)) (y : S100000x128.Idx) :
    ∃ r : ℝ, hopR src dst h y = (r : EReal) := by
  choose hr hhr using hfin
  choose dr hdr0 hdr using dinv_finite dst hloop
  unfold hopR
  rw [scatterAdd2_apply, zeros2_apply, zero_add]
  refine sum_coe_exists _ _
    (fun j : S1700000x128.Idx => dr (node src (j 0)) * dr (node dst (j 0)) * hr (ix2 (node src (j 0)) (j 1 : Fin 128))) ?_
  intro j _
  obtain ⟨e, f, rfl⟩ : ∃ (e : Fin 1700000) (f : Fin 128), j = ix2 e f := ⟨j 0, j 1, eq_ix2 j⟩
  exact edgeR_apply src dst h hr dr hhr hdr e f

end Cert.Hops
-- ==== Proof.SignFinite.lean ====
/-
  The sign of an extended real is a real number: minus one, zero or one. So the rows of signs that the reference
  propagates over the graph are finite at every entry, whatever the batch statistics they were normalised with.
-/
import proofs.«151110_j89026082111679_2_alg».proof.Proof.RefRead
import Idealize.ShloMosaic.PureOps.Ideal.Laws
import Idealize.ShloMosaic.Lib.ValueIdx

noncomputable section

namespace Cert.SignFinite

open Idealize.ShloMosaic

/-- The sign of an extended real is finite: the sign of a real is the real -1, 0 or 1, and the two infinities have the
    signs -1 and 1. -/
theorem ideal_sign_finite (v : EReal) : ∃ r : ℝ, Ideal.sign v = (r : EReal) := by
  induction v using EReal.rec with
  | bot => exact ⟨-1, by rw [Ideal.sign_bot]; norm_num⟩
  | coe a => exact ⟨(SignType.sign a : ℝ), Ideal.sign_coe a⟩
  | top => exact ⟨1, by rw [Ideal.sign_top]; norm_num⟩

/-- The reference's rows of signs are finite at every entry. -/
theorem sign_finite (x0 : Cert.ReferenceIdeal.S100000x128.Idx → EReal) (y : Cert.ReferenceIdeal.S100000x128.Idx) :
    ∃ r : ℝ, Cert.ReferenceIdeal.Read.val_main_v19 (F := Ideal) x0 y = (r : EReal) := by
  rw [Cert.ReferenceIdeal.Read.val_main_v19_apply, Ideal.hostUnary_sign_def]
  generalize Cert.ReferenceIdeal.Read.val_main_v18 (F := Ideal) x0 y = v
  exact ideal_sign_finite v

end Cert.SignFinite

end
-- ==== Proof.ConcatLoop.lean ====
/- The edge list with one self-loop per node appended, read at an index: the 1600000 given edge ends followed by the
   node numbers 0 .. 99999. An index below 1600000 reads the given ends; the index 1600000 + i reads the second
   operand at i, which for the node numbers is i itself: the self-loop numbered 1600000 + i starts and ends at node i. -/
import proofs.«151110_j89026082111679_2_alg».proof.ReferenceIdeal
import Idealize.ShloMosaic.Lib.Pipeline.Value
import Idealize.ShloMosaic.Lib.ValueIdx

noncomputable section

namespace Cert.ConcatLoop

open Cert.ReferenceIdeal Idealize.ShloMosaic Idealize.ShloMosaic.ValueIdx

/-- An index past the first 1600000 reads the second operand, 1600000 less. -/
theorem concat_tail (a : IVec S1600000 32) (x : IVec S100000 32)
    (h : Shape.Concatenates [S1600000, S100000] S1700000 0) (i : Fin 100000) :
    concatenate S1700000 0 [⟨S1600000, a⟩, ⟨S100000, x⟩] h (ix1 ⟨1600000 + i.val, by omega⟩) = x (ix1 i) := by
  refine concatenate_pair_apply_right (t := S1700000) (s₁ := S1600000) (s₂ := S100000) 0 a x h
    (ix1 ⟨1600000 + i.val, by omega⟩) rfl rfl (ix1 i) ?_ ?_
  · intro b hb
    have hb1 : b.val < 1 := b.isLt
    exact absurd (Fin.ext (by show b.val = 0; omega)) hb
  · show i.val + 1600000 = 1600000 + i.val; omega

/-- The self-loop numbered 1600000 + i has end i. -/
theorem concat_loop (a : IVec S1600000 32) (h : Shape.Concatenates [S1600000, S100000] S1700000 0) (i : Fin 100000) :
    concatenate S1700000 0 [⟨S1600000, a⟩, ⟨S100000, iotaInDim S100000 32 0⟩] h (ix1 ⟨1600000 + i.val, by omega⟩)
      = BitVec.ofNat 32 i.val :=
  (concat_tail a (iotaInDim S100000 32 0) h i).trans rfl

/-- A given edge keeps its end: an index below 1600000 reads the first operand there. -/
theorem concat_edge (a : IVec S1600000 32) (x : IVec S100000 32)
    (h : Shape.Concatenates [S1600000, S100000] S1700000 0) (e : Fin 1600000) :
    concatenate S1700000 0 [⟨S1600000, a⟩, ⟨S100000, x⟩] h (ix1 ⟨e.val, by omega⟩) = a (ix1 e) := by
  refine concatenate_pair_apply_left (t := S1700000) (s₁ := S1600000) (s₂ := S100000) 0 a x h
    (ix1 ⟨e.val, by omega⟩) rfl (ix1 e) ?_
  intro b
  match b with
  | ⟨0, _⟩ => rfl

end Cert.ConcatLoop

end
-- ==== Proof.HopsBridge.lean ====
import proofs.«151110_j89026082111679_2_alg».proof.Proof.Hops
import proofs.«151110_j89026082111679_2_alg».proof.Proof.KI.HostStages
import proofs.«151110_j89026082111679_2_alg».proof.Proof.RefRead
import proofs.«151110_j89026082111679_2_alg».proof.Proof.SignFinite
import proofs.«151110_j89026082111679_2_alg».proof.Proof.ConcatLoop

/-! # The three propagation steps of the two programs agree

The kernel program scales the rows by the inverse root degree, sums them along the edges and scales again, three times;
the reference weighs every edge by the two inverse root degrees and sums, three times. Both start from the array of
signs, whose entries are finite, and a hop keeps entries finite, so the hop equality applies at each of the three steps. -/

noncomputable section

namespace Cert.HopsBridge

open Cert.ReferenceIdeal Cert.ReferenceIdeal.Gen Idealize.ShloMosaic Idealize.ShloMosaic.ValueIdx
open Cert.Hops Cert.ReferenceIdeal.Read
open Cert.KernelIdeal (Hand.srcOf Hand.dstOf Hand.dinvCol Hand.spread Hand.hopK Hand.hops3 Hand.degOf)

section Generic
variable {F : FTy → Type} [FloatOps F]

/-! ## The reference's stages are three reference hops -/

theorem ref_hop1 (x0 : FVec F S100000x128 .f32) (x3 : IVec S2x1600000 32) :
    val_main_v59 (F := F) x0 x3
      = hopR (val_main_v23 (F := F) x3) (val_main_v26 (F := F) x3) (val_main_v19 (F := F) x0) := rfl

theorem ref_hop2 (x0 : FVec F S100000x128 .f32) (x3 : IVec S2x1600000 32) :
    val_main_v71 (F := F) x0 x3
      = hopR (val_main_v23 (F := F) x3) (val_main_v26 (F := F) x3) (val_main_v59 (F := F) x0 x3) := rfl

theorem ref_hop3 (x0 : FVec F S100000x128 .f32) (x3 : IVec S2x1600000 32) :
    val_main_v83 (F := F) x0 x3
      = hopR (val_main_v23 (F := F) x3) (val_main_v26 (F := F) x3) (val_main_v71 (F := F) x0 x3) := rfl

/-! ## The kernel program's stages are three kernel hops over the same arrays -/

theorem ker_src (x3 : IVec S2x1600000 32) : Hand.srcOf x3 = val_main_v23 (F := F) x3 := rfl
theorem ker_dst (x3 : IVec S2x1600000 32) : Hand.dstOf x3 = val_main_v26 (F := F) x3 := rfl

theorem ker_hops3 (d : FVec F S100000x1 .f32) (src dst : IVec S1700000 32) (h : FVec F S100000x128 .f32) :
    Hand.hops3 d src dst h
      = hopK (Hand.spread d) src dst (hopK (Hand.spread d) src dst (hopK (Hand.spread d) src dst h)) := rfl

/-- The degree column repeated along the features is the inverse root degree of the row. -/
theorem spread_dinvCol (dst : IVec S1700000 32) (i : Fin 100000) (f : Fin 128) :
    Hand.spread (F := F) (Hand.dinvCol dst) (ix2 i f) = dinv (F := F) dst (ix1 i) := by
  have hcol : Hand.dinvCol (F := F) dst = shapeCast S100000x1 (dinv (F := F) dst) (by decide) := rfl
  unfold Hand.spread
  rw [hcol, broadcastInDim_apply _ _ _ (ix2 i f) (ix2 i (0 : Fin 1)) (fun a => match a with
    | ⟨0, _⟩ => by show i.val = if (100000 : Nat) = 1 then 0 else i.val; rw [if_neg (by decide)]
    | ⟨1, _⟩ => by show 0 = if (1 : Nat) = 1 then 0 else f.val; rw [if_pos rfl])]
  exact shapeCast_apply _ _ (ix2 i (0 : Fin 1)) (ix1 i) (by
    rw [Shape.rowMajor_val_one, Shape.rowMajor_val_two]
    show i.val = i.val * 1 + 0
    omega)

/-- Every node is the target of its self-loop in the reference's target array. -/
theorem selfLoops_dst (x3 : IVec S2x1600000 32) : SelfLoops (val_main_v26 (F := F) x3) := by
  intro i
  unfold val_main_v26 val_main_v20
  exact Cert.ConcatLoop.concat_loop _ _ i

end Generic

/-- THE THREE PROPAGATION STEPS AGREE: the kernel program's aggregated features are the reference's. -/
theorem hops_bridge (x0 : S100000x128.Idx → EReal) (x3 : IVec S2x1600000 32) :
    Hand.hops3 (F := Ideal) (Hand.dinvCol (Hand.dstOf x3)) (Hand.srcOf x3) (Hand.dstOf x3) (val_main_v19 (F := Ideal) x0)
      = val_main_v83 (F := Ideal) x0 x3 := by
  rw [ref_hop3, ref_hop2, ref_hop1, ker_hops3, ker_src (F := Ideal), ker_dst (F := Ideal)]
  have hloop := selfLoops_dst (F := Ideal) x3
  have hfin0 := Cert.SignFinite.sign_finite x0
  have hd2 := spread_dinvCol (F := Ideal) (val_main_v26 (F := Ideal) x3)
  generalize val_main_v23 (F := Ideal) x3 = src
  generalize val_main_v26 (F := Ideal) x3 = dst at hloop hd2 ⊢
  generalize val_main_v19 (F := Ideal) x0 = h0 at hfin0 ⊢
  generalize Hand.spread (F := Ideal) (Hand.dinvCol dst) = d2 at hd2 ⊢
  have hfin1 := hop_finite src dst hloop h0 hfin0
  have hfin2 := hop_finite src dst hloop _ hfin1
  rw [hop_eq d2 src dst hloop hd2 h0 hfin0, hop_eq d2 src dst hloop hd2 _ hfin1, hop_eq d2 src dst hloop hd2 _ hfin2]

end Cert.HopsBridge
-- ==== Proof.Algebraic.lean ====
/-
  The certificate's five claims. The three programs run and leave their arguments as launched; the ideal pass's one
  rewrite is its rule's statement; and at the exact values the kernel program and the reference end with the same
  [100000, 40] array. For the last: the kernel program's result is, row by row, the classifier's row (logits, then
  log-softmax) of the binarised features propagated three steps over the graph; the binarised features are, entry by
  entry, the sign of the feature normalised by the batch mean and inverse deviation, which the accumulated column sums
  and column sums of squares of a batch of real numbers give exactly as the reference computes them; the propagation
  is the reference's three gather-scale-scatter steps; and the reference's last stage is the same classifier's row of
  its aggregated features.
-/
import proofs.«151110_j89026082111679_2_alg».proof.Defs
import proofs.«151110_j89026082111679_2_alg».proof.Proof.Gen.Kernel
import proofs.«151110_j89026082111679_2_alg».proof.Proof.Gen.KernelIdeal
import proofs.«151110_j89026082111679_2_alg».proof.Proof.Gen.ReferenceIdeal
import proofs.«151110_j89026082111679_2_alg».proof.Proof.Gen.Pre_finite_inputs
import proofs.«151110_j89026082111679_2_alg».proof.Proof.K.Run
import proofs.«151110_j89026082111679_2_alg».proof.Proof.KI.Run
import proofs.«151110_j89026082111679_2_alg».proof.Proof.KI.StatsArray
import proofs.«151110_j89026082111679_2_alg».proof.Proof.KI.HostStages
import proofs.«151110_j89026082111679_2_alg».proof.Proof.KI.Value
import proofs.«151110_j89026082111679_2_alg».proof.Proof.KI.BatchNormBridge
import proofs.«151110_j89026082111679_2_alg».proof.Proof.ClassifyRowRef
import proofs.«151110_j89026082111679_2_alg».proof.Proof.FiniteInputs
import proofs.«151110_j89026082111679_2_alg».proof.Proof.RefRead
import proofs.«151110_j89026082111679_2_alg».proof.Proof.RefRunProof
import proofs.«151110_j89026082111679_2_alg».proof.Proof.HopsBridge

noncomputable section

open Idealize.ShloMosaic Idealize.ShloMosaic.TcCoe Idealize.ShloMosaic.ValueIdx Idealize.SL.Sem

/-! ## The kernel program's result array is the reference's last stage of the same arguments -/

namespace Cert.Proof.Parts

open Cert.KernelIdeal.Hand

section Value
variable (m : (ℓ : Loc Cert.KernelIdeal.nD Cert.KernelIdeal.τ Cert.KernelIdeal.sig) → Buf (Elt Ideal) ℓ)
  (ρ : Dev Cert.KernelIdeal.nD → PrngReg)

/-- The features the statistics region reads are the launched ones: no host operation before it writes them. -/
theorem rows_eq (c : Dev Cert.KernelIdeal.nD) :
    @Eq (Cert.KernelIdeal.S100000x128.Idx → EReal) (V1 m ρ c Cert.KernelIdeal.main_arg0) (argX m c) :=
  (W1_kept m ρ c Cert.KernelIdeal.main_arg0 (by decide)).trans rfl

/-- Under the precondition the binarised features the kernel program leaves are the reference's binarised stage:
    entry by entry the sign of the normalised feature, the accumulated rows being the column sums and the column sums
    of squares of a batch of real numbers. -/
theorem binarised_array (hpre : Cert.Pre_KernelIdeal m) (c : Dev Cert.KernelIdeal.nD) :
    signedX m ρ c = Cert.ReferenceIdeal.Read.val_main_v19 (F := Ideal) (argX m c) := by
  funext (y : Cert.KernelIdeal.S100000x128.Idx)
  obtain ⟨i, k, rfl⟩ : ∃ (i : Fin 100000) (k : Fin 128), y = ix2 i k := ⟨y 0, y 1, eq_ix2 y⟩
  refine (kernel_h0_apply m ρ c i k).trans ?_
  refine binarised_eq (argX m c) (Cert.FiniteInputs.x_finite m hpre c) (colSums m ρ c) (colSquares m ρ c)
    (fun j => ?_) (fun j => ?_) i k
  · exact (colsum_total (V1 m ρ) c j).trans
      (congrArg (fun x : Cert.KernelIdeal.S100000x128.Idx → EReal => ∑ k : Fin 100000, x (ix2 k j)) (rows_eq m ρ c))
  · exact (colsq_total (V1 m ρ) c j).trans
      (congrArg (fun x : Cert.KernelIdeal.S100000x128.Idx → EReal => ∑ k : Fin 100000, x (ix2 k j) * x (ix2 k j)) (rows_eq m ρ c))

/-- So the features after the three propagation steps are the reference's aggregated stage. -/
theorem hidden_array (hpre : Cert.Pre_KernelIdeal m) (c : Dev Cert.KernelIdeal.nD) :
    hiddenX m ρ c = Cert.ReferenceIdeal.Read.val_main_v83 (F := Ideal) (argX m c) (argEdges m c) :=
  (congrArg (hops3 (F := Ideal) (dinvCol (F := Ideal) (dstOf (argEdges m c))) (srcOf (argEdges m c)) (dstOf (argEdges m c)))
    (binarised_array m ρ hpre c)).trans (Cert.HopsBridge.hops_bridge (argX m c) (argEdges m c))

/-- Under the precondition the kernel program's result array is the reference's last stage of the same arguments:
    both are, row by row, the classifier's row of the aggregated features. -/
theorem result_eq (hpre : Cert.Pre_KernelIdeal m) (c : Dev Cert.KernelIdeal.nD) :
    scores m ρ c = Cert.ReferenceIdeal.Read.val_main_v89 (F := Ideal) (argX m c) (argWeights m c) (argBias m c) (argEdges m c) := by
  funext (y : Cert.KernelIdeal.S100000x40.Idx)
  obtain ⟨i, j, rfl⟩ : ∃ (i : Fin 100000) (j : Fin 40), y = ix2 i j := ⟨y 0, y 1, eq_ix2 y⟩
  refine (kernel_out m ρ c i j).trans (Eq.trans ?_ (Cert.ClassifyRow.reference_row _ _ _ _ i j).symm)
  exact congrArg (fun h => Cert.ClassifyRow.classifyRow h (fun j k => argWeights m c (ix2 j k)) (fun j => argBias m c (ix1 j)) j)
    (funext fun k => congrFun (hidden_array m ρ hpre c) (ix2 i k))

end Value

/-! ## The five claims -/

theorem frame_K : Cert.frame_Kernel := fun m ρ _ => Cert.Kernel.Hand.frame m ρ
theorem frame_KI : Cert.frame_KernelIdeal := fun m ρ _ => Cert.KernelIdeal.Hand.frame m ρ
theorem frame_R : Cert.frame_ReferenceIdeal := fun m ρ _ =>
  (θ_run Cert.ReferenceIdeal.defs _ _).mono (fun _ h c => (h c).2) (Cert.RefRun.run (F := Ideal) m ρ)

/-- The one rewrite of the ideal pass: 1.0 carrying a float's sign bit, read as a select on "negative". -/
theorem preserves : Cert.preserves_Kernel_KernelIdeal :=
  IdealRules.sign_bit.statement Cert.KernelIdeal.S5000x128 .f32

/-- At the exact values, from memories that agree on the arguments, both programs run and end with the same result
    array — the kernel program's folded contents, which are the reference's last stage (`result_eq`) — and unchanged
    arguments. -/
theorem algebraic : Cert.algebraic_KernelIdeal_ReferenceIdeal := by
  intro m ρ m' ρ' hpre hagree
  refine ⟨fun c => W6 m ρ c (Proc.devRef .tc Cert.KernelIdeal.main_v70), ?_, ?_⟩
  · exact (θ_run _ _ _).mono (fun r h c =>
      ⟨h c Cert.KernelIdeal.main_v70 (by decide),
       (h c Cert.KernelIdeal.main_arg0 (by decide)).trans (W6_main_arg0 m ρ c),
       (h c Cert.KernelIdeal.main_arg1 (by decide)).trans (W6_main_arg1 m ρ c),
       (h c Cert.KernelIdeal.main_arg2 (by decide)).trans (W6_main_arg2 m ρ c),
       (h c Cert.KernelIdeal.main_arg3 (by decide)).trans (W6_main_arg3 m ρ c)⟩) (run_all_tc m ρ)
  · refine (θ_run Cert.ReferenceIdeal.defs _ _).mono (fun _ h c => ⟨(h c).1.trans ?_, (h c).2⟩)
      (Cert.RefRun.run (F := Ideal) m' ρ')
    rw [(hagree c).1, (hagree c).2.1, (hagree c).2.2.1, (hagree c).2.2.2]
    exact (result_eq m ρ hpre c).symm

end Cert.Proof.Parts
-- ==== Proof.lean ====
/-
  The certificate of a three-kernel graph classifier against its plain reference, over the extended reals.

  The program normalises 100000 rows of 128 features by their batch statistics and keeps the sign, propagates the
  signs three times over a graph with self-loops (each step: scale by the inverse square root of the degree, sum
  over the incoming edges, scale again), and classifies each row into 40 classes with a log-softmax.

  * The three frames. The kernel program's run is its six segments in order — host operations, the statistics
    kernel (twenty blocks of 5000 rows accumulated into two scratch rows and copied out at the last block), host
    operations, the normalise-and-sign kernel, host operations, the classifier kernel — and every argument array ends
    as launched (Proof/K/Run.lean at the word level, Proof/KI/Run.lean at the ideal level). The reference is host
    operations only (Proof/RefRunProof.lean).
  * The one rewrite of the idealisation, "1.0 carrying the sign bit of v" printed as "-1 where v < 0, else 1", is
    the library's statement about that rewrite.
  * The values agree (Proof/Algebraic.lean): the means agree outright and the two variances — mean of squares minus
    squared mean, kept from going below zero, against the mean of squared deviations — agree on finite data, so the
    signs agree; one propagation step of the kernel factors the target's scale out of the sum over incoming edges,
    which is distributivity on finite values (signs and inverse square roots of degrees at least one); the classifier
    row is the same expression on both sides.
-/
import proofs.«151110_j89026082111679_2_alg».proof.Defs
import proofs.«151110_j89026082111679_2_alg».proof.Proof.Gen.Kernel
import proofs.«151110_j89026082111679_2_alg».proof.Proof.Gen.KernelIdeal
import proofs.«151110_j89026082111679_2_alg».proof.Proof.Gen.ReferenceIdeal
import proofs.«151110_j89026082111679_2_alg».proof.Proof.Gen.Pre_finite_inputs
import proofs.«151110_j89026082111679_2_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Parts.frame_K, Parts.frame_KI, Parts.frame_R, Parts.preserves, Parts.algebraic⟩

end Cert.Proof

end
